-- ==== Defs.lean ====
def Pre_Kernel [hPre_finite_inputs : Cert.Pre_finite_inputs.Facts] (m : (ℓ : Loc Cert.Kernel.nD Cert.Kernel.τ Cert.Kernel.sig) → Buf (Elt Bits) ℓ) : Prop :=
  ∀ c : Dev Cert.Kernel.nD,
    (Cert.Pre_finite_inputs.fn (F := Bits) (m ((c.tc : Thread Cert.Kernel.nD Cert.Kernel.τ).loc Cert.Kernel.main_arg0)) (m ((c.tc : Thread Cert.Kernel.nD Cert.Kernel.τ).loc Cert.Kernel.main_arg1)) (m ((c.tc : Thread Cert.Kernel.nD Cert.Kernel.τ).loc Cert.Kernel.main_arg2)) (m ((c.tc : Thread Cert.Kernel.nD Cert.Kernel.τ).loc Cert.Kernel.main_arg3)) (m ((c.tc : Thread Cert.Kernel.nD Cert.Kernel.τ).loc Cert.Kernel.main_arg4)) (m ((c.tc : Thread Cert.Kernel.nD Cert.Kernel.τ).loc Cert.Kernel.main_arg5)) (m ((c.tc : Thread Cert.Kernel.nD Cert.Kernel.τ).loc Cert.Kernel.main_arg6)) (m ((c.tc : Thread Cert.Kernel.nD Cert.Kernel.τ).loc Cert.Kernel.main_arg7)) (m ((c.tc : Thread Cert.Kernel.nD Cert.Kernel.τ).loc Cert.Kernel.main_arg8)) (m ((c.tc : Thread Cert.Kernel.nD Cert.Kernel.τ).loc Cert.Kernel.main_arg9)) (m ((c.tc : Thread Cert.Kernel.nD Cert.Kernel.τ).loc Cert.Kernel.main_arg10)) (m ((c.tc : Thread Cert.Kernel.nD Cert.Kernel.τ).loc Cert.Kernel.main_arg11)) (m ((c.tc : Thread Cert.Kernel.nD Cert.Kernel.τ).loc Cert.Kernel.main_arg12)) (m ((c.tc : Thread Cert.Kernel.nD Cert.Kernel.τ).loc Cert.Kernel.main_arg13))) = (fun _ => 1#1)

def Pre_KernelIdeal [hPre_finite_inputs : Cert.Pre_finite_inputs.Facts] (m : (ℓ : Loc Cert.KernelIdeal.nD Cert.KernelIdeal.τ Cert.KernelIdeal.sig) → Buf (Elt Ideal) ℓ) : Prop :=
  ∀ c : Dev Cert.KernelIdeal.nD,
    (Cert.Pre_finite_inputs.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5)) (m ((c.tc : Thread Cert.KernelIdeal.nD Cert.KernelIdeal.τ).loc Cert.KernelIdeal.main_arg6)) (m ((c.tc : Thread Cert.KernelIdeal.nD Cert.KernelIdeal.τ).loc Cert.KernelIdeal.main_arg7)) (m ((c.tc : Thread Cert.KernelIdeal.nD Cert.KernelIdeal.τ).loc Cert.KernelIdeal.main_arg8)) (m ((c.tc : Thread Cert.KernelIdeal.nD Cert.KernelIdeal.τ).loc Cert.KernelIdeal.main_arg9)) (m ((c.tc : Thread Cert.KernelIdeal.nD Cert.KernelIdeal.τ).loc Cert.KernelIdeal.main_arg10)) (m ((c.tc : Thread Cert.KernelIdeal.nD Cert.KernelIdeal.τ).loc Cert.KernelIdeal.main_arg11)) (m ((c.tc : Thread Cert.KernelIdeal.nD Cert.KernelIdeal.τ).loc Cert.KernelIdeal.main_arg12)) (m ((c.tc : Thread Cert.KernelIdeal.nD Cert.KernelIdeal.τ).loc Cert.KernelIdeal.main_arg13))) = (fun _ => 1#1)

def Pre_ReferenceIdeal [hPre_finite_inputs : Cert.Pre_finite_inputs.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_inputs.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4)) (m ((c.tc : Thread Cert.ReferenceIdeal.nD Cert.ReferenceIdeal.τ).loc Cert.ReferenceIdeal.main_arg5)) (m ((c.tc : Thread Cert.ReferenceIdeal.nD Cert.ReferenceIdeal.τ).loc Cert.ReferenceIdeal.main_arg6)) (m ((c.tc : Thread Cert.ReferenceIdeal.nD Cert.ReferenceIdeal.τ).loc Cert.ReferenceIdeal.main_arg7)) (m ((c.tc : Thread Cert.ReferenceIdeal.nD Cert.ReferenceIdeal.τ).loc Cert.ReferenceIdeal.main_arg8)) (m ((c.tc : Thread Cert.ReferenceIdeal.nD Cert.ReferenceIdeal.τ).loc Cert.ReferenceIdeal.main_arg9)) (m ((c.tc : Thread Cert.ReferenceIdeal.nD Cert.ReferenceIdeal.τ).loc Cert.ReferenceIdeal.main_arg10)) (m ((c.tc : Thread Cert.ReferenceIdeal.nD Cert.ReferenceIdeal.τ).loc Cert.ReferenceIdeal.main_arg11)) (m ((c.tc : Thread Cert.ReferenceIdeal.nD Cert.ReferenceIdeal.τ).loc Cert.ReferenceIdeal.main_arg12)) (m ((c.tc : Thread Cert.ReferenceIdeal.nD Cert.ReferenceIdeal.τ).loc Cert.ReferenceIdeal.main_arg13))) = (fun _ => 1#1)

def frame_Kernel [hKernel : Cert.Kernel.Facts] [hPre_finite_inputs : Cert.Pre_finite_inputs.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => ∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3)
      ∧ r.2.mem ((c.tc : Thread Cert.Kernel.nD Cert.Kernel.τ).loc Cert.Kernel.main_arg4) = m ((c.tc : Thread Cert.Kernel.nD Cert.Kernel.τ).loc Cert.Kernel.main_arg4)
      ∧ r.2.mem ((c.tc : Thread Cert.Kernel.nD Cert.Kernel.τ).loc Cert.Kernel.main_arg5) = m ((c.tc : Thread Cert.Kernel.nD Cert.Kernel.τ).loc Cert.Kernel.main_arg5)
      ∧ r.2.mem ((c.tc : Thread Cert.Kernel.nD Cert.Kernel.τ).loc Cert.Kernel.main_arg6) = m ((c.tc : Thread Cert.Kernel.nD Cert.Kernel.τ).loc Cert.Kernel.main_arg6)
      ∧ r.2.mem ((c.tc : Thread Cert.Kernel.nD Cert.Kernel.τ).loc Cert.Kernel.main_arg7) = m ((c.tc : Thread Cert.Kernel.nD Cert.Kernel.τ).loc Cert.Kernel.main_arg7)
      ∧ r.2.mem ((c.tc : Thread Cert.Kernel.nD Cert.Kernel.τ).loc Cert.Kernel.main_arg8) = m ((c.tc : Thread Cert.Kernel.nD Cert.Kernel.τ).loc Cert.Kernel.main_arg8)
      ∧ r.2.mem ((c.tc : Thread Cert.Kernel.nD Cert.Kernel.τ).loc Cert.Kernel.main_arg9) = m ((c.tc : Thread Cert.Kernel.nD Cert.Kernel.τ).loc Cert.Kernel.main_arg9)
      ∧ r.2.mem ((c.tc : Thread Cert.Kernel.nD Cert.Kernel.τ).loc Cert.Kernel.main_arg10) = m ((c.tc : Thread Cert.Kernel.nD Cert.Kernel.τ).loc Cert.Kernel.main_arg10)
      ∧ r.2.mem ((c.tc : Thread Cert.Kernel.nD Cert.Kernel.τ).loc Cert.Kernel.main_arg11) = m ((c.tc : Thread Cert.Kernel.nD Cert.Kernel.τ).loc Cert.Kernel.main_arg11)
      ∧ r.2.mem ((c.tc : Thread Cert.Kernel.nD Cert.Kernel.τ).loc Cert.Kernel.main_arg12) = m ((c.tc : Thread Cert.Kernel.nD Cert.Kernel.τ).loc Cert.Kernel.main_arg12)
      ∧ r.2.mem ((c.tc : Thread Cert.Kernel.nD Cert.Kernel.τ).loc Cert.Kernel.main_arg13) = m ((c.tc : Thread Cert.Kernel.nD Cert.Kernel.τ).loc Cert.Kernel.main_arg13))

def frame_KernelIdeal [hKernelIdeal : Cert.KernelIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => ∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
      ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
      ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
      ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7)
      ∧ r.2.mem ((c.tc : Thread Cert.KernelIdeal.nD Cert.KernelIdeal.τ).loc Cert.KernelIdeal.main_arg8) = m ((c.tc : Thread Cert.KernelIdeal.nD Cert.KernelIdeal.τ).loc Cert.KernelIdeal.main_arg8)
      ∧ r.2.mem ((c.tc : Thread Cert.KernelIdeal.nD Cert.KernelIdeal.τ).loc Cert.KernelIdeal.main_arg9) = m ((c.tc : Thread Cert.KernelIdeal.nD Cert.KernelIdeal.τ).loc Cert.KernelIdeal.main_arg9)
      ∧ r.2.mem ((c.tc : Thread Cert.KernelIdeal.nD Cert.KernelIdeal.τ).loc Cert.KernelIdeal.main_arg10) = m ((c.tc : Thread Cert.KernelIdeal.nD Cert.KernelIdeal.τ).loc Cert.KernelIdeal.main_arg10)
      ∧ r.2.mem ((c.tc : Thread Cert.KernelIdeal.nD Cert.KernelIdeal.τ).loc Cert.KernelIdeal.main_arg11) = m ((c.tc : Thread Cert.KernelIdeal.nD Cert.KernelIdeal.τ).loc Cert.KernelIdeal.main_arg11)
      ∧ r.2.mem ((c.tc : Thread Cert.KernelIdeal.nD Cert.KernelIdeal.τ).loc Cert.KernelIdeal.main_arg12) = m ((c.tc : Thread Cert.KernelIdeal.nD Cert.KernelIdeal.τ).loc Cert.KernelIdeal.main_arg12)
      ∧ r.2.mem ((c.tc : Thread Cert.KernelIdeal.nD Cert.KernelIdeal.τ).loc Cert.KernelIdeal.main_arg13) = m ((c.tc : Thread Cert.KernelIdeal.nD Cert.KernelIdeal.τ).loc Cert.KernelIdeal.main_arg13))

def frame_ReferenceIdeal [hReferenceIdeal : Cert.ReferenceIdeal.Facts] [hPre_finite_inputs : Cert.Pre_finite_inputs.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => ∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4)
      ∧ r.2.mem ((c.tc : Thread Cert.ReferenceIdeal.nD Cert.ReferenceIdeal.τ).loc Cert.ReferenceIdeal.main_arg5) = m ((c.tc : Thread Cert.ReferenceIdeal.nD Cert.ReferenceIdeal.τ).loc Cert.ReferenceIdeal.main_arg5)
      ∧ r.2.mem ((c.tc : Thread Cert.ReferenceIdeal.nD Cert.ReferenceIdeal.τ).loc Cert.ReferenceIdeal.main_arg6) = m ((c.tc : Thread Cert.ReferenceIdeal.nD Cert.ReferenceIdeal.τ).loc Cert.ReferenceIdeal.main_arg6)
      ∧ r.2.mem ((c.tc : Thread Cert.ReferenceIdeal.nD Cert.ReferenceIdeal.τ).loc Cert.ReferenceIdeal.main_arg7) = m ((c.tc : Thread Cert.ReferenceIdeal.nD Cert.ReferenceIdeal.τ).loc Cert.ReferenceIdeal.main_arg7)
      ∧ r.2.mem ((c.tc : Thread Cert.ReferenceIdeal.nD Cert.ReferenceIdeal.τ).loc Cert.ReferenceIdeal.main_arg8) = m ((c.tc : Thread Cert.ReferenceIdeal.nD Cert.ReferenceIdeal.τ).loc Cert.ReferenceIdeal.main_arg8)
      ∧ r.2.mem ((c.tc : Thread Cert.ReferenceIdeal.nD Cert.ReferenceIdeal.τ).loc Cert.ReferenceIdeal.main_arg9) = m ((c.tc : Thread Cert.ReferenceIdeal.nD Cert.ReferenceIdeal.τ).loc Cert.ReferenceIdeal.main_arg9)
      ∧ r.2.mem ((c.tc : Thread Cert.ReferenceIdeal.nD Cert.ReferenceIdeal.τ).loc Cert.ReferenceIdeal.main_arg10) = m ((c.tc : Thread Cert.ReferenceIdeal.nD Cert.ReferenceIdeal.τ).loc Cert.ReferenceIdeal.main_arg10)
      ∧ r.2.mem ((c.tc : Thread Cert.ReferenceIdeal.nD Cert.ReferenceIdeal.τ).loc Cert.ReferenceIdeal.main_arg11) = m ((c.tc : Thread Cert.ReferenceIdeal.nD Cert.ReferenceIdeal.τ).loc Cert.ReferenceIdeal.main_arg11)
      ∧ r.2.mem ((c.tc : Thread Cert.ReferenceIdeal.nD Cert.ReferenceIdeal.τ).loc Cert.ReferenceIdeal.main_arg12) = m ((c.tc : Thread Cert.ReferenceIdeal.nD Cert.ReferenceIdeal.τ).loc Cert.ReferenceIdeal.main_arg12)
      ∧ r.2.mem ((c.tc : Thread Cert.ReferenceIdeal.nD Cert.ReferenceIdeal.τ).loc Cert.ReferenceIdeal.main_arg13) = m ((c.tc : Thread Cert.ReferenceIdeal.nD Cert.ReferenceIdeal.τ).loc Cert.ReferenceIdeal.main_arg13))

def preserves_Kernel_KernelIdeal : Prop :=
  True

def algebraic_KernelIdeal_ReferenceIdeal [hKernelIdeal : Cert.KernelIdeal.Facts] [hReferenceIdeal : Cert.ReferenceIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)
      ∧ m' ((c.tc : Thread Cert.ReferenceIdeal.nD Cert.ReferenceIdeal.τ).loc Cert.ReferenceIdeal.main_arg4) = m ((c.tc : Thread Cert.KernelIdeal.nD Cert.KernelIdeal.τ).loc Cert.KernelIdeal.main_arg4)
      ∧ m' ((c.tc : Thread Cert.ReferenceIdeal.nD Cert.ReferenceIdeal.τ).loc Cert.ReferenceIdeal.main_arg5) = m ((c.tc : Thread Cert.KernelIdeal.nD Cert.KernelIdeal.τ).loc Cert.KernelIdeal.main_arg5)
      ∧ m' ((c.tc : Thread Cert.ReferenceIdeal.nD Cert.ReferenceIdeal.τ).loc Cert.ReferenceIdeal.main_arg6) = m ((c.tc : Thread Cert.KernelIdeal.nD Cert.KernelIdeal.τ).loc Cert.KernelIdeal.main_arg6)
      ∧ m' ((c.tc : Thread Cert.ReferenceIdeal.nD Cert.ReferenceIdeal.τ).loc Cert.ReferenceIdeal.main_arg7) = m ((c.tc : Thread Cert.KernelIdeal.nD Cert.KernelIdeal.τ).loc Cert.KernelIdeal.main_arg7)
      ∧ m' ((c.tc : Thread Cert.ReferenceIdeal.nD Cert.ReferenceIdeal.τ).loc Cert.ReferenceIdeal.main_arg8) = m ((c.tc : Thread Cert.KernelIdeal.nD Cert.KernelIdeal.τ).loc Cert.KernelIdeal.main_arg8)
      ∧ m' ((c.tc : Thread Cert.ReferenceIdeal.nD Cert.ReferenceIdeal.τ).loc Cert.ReferenceIdeal.main_arg9) = m ((c.tc : Thread Cert.KernelIdeal.nD Cert.KernelIdeal.τ).loc Cert.KernelIdeal.main_arg9)
      ∧ m' ((c.tc : Thread Cert.ReferenceIdeal.nD Cert.ReferenceIdeal.τ).loc Cert.ReferenceIdeal.main_arg10) = m ((c.tc : Thread Cert.KernelIdeal.nD Cert.KernelIdeal.τ).loc Cert.KernelIdeal.main_arg10)
      ∧ m' ((c.tc : Thread Cert.ReferenceIdeal.nD Cert.ReferenceIdeal.τ).loc Cert.ReferenceIdeal.main_arg11) = m ((c.tc : Thread Cert.KernelIdeal.nD Cert.KernelIdeal.τ).loc Cert.KernelIdeal.main_arg11)
      ∧ m' ((c.tc : Thread Cert.ReferenceIdeal.nD Cert.ReferenceIdeal.τ).loc Cert.ReferenceIdeal.main_arg12) = m ((c.tc : Thread Cert.KernelIdeal.nD Cert.KernelIdeal.τ).loc Cert.KernelIdeal.main_arg12)
      ∧ m' ((c.tc : Thread Cert.ReferenceIdeal.nD Cert.ReferenceIdeal.τ).loc Cert.ReferenceIdeal.main_arg13) = m ((c.tc : Thread Cert.KernelIdeal.nD Cert.KernelIdeal.τ).loc Cert.KernelIdeal.main_arg13)) →
    ∃ (v0 : (c : Dev Cert.KernelIdeal.nD) → Buf (Elt Ideal) ((c.tc : Thread Cert.KernelIdeal.nD Cert.KernelIdeal.τ).loc Cert.KernelIdeal.main_v81)) (v1 : (c : Dev Cert.KernelIdeal.nD) → Buf (Elt Ideal) ((c.tc : Thread Cert.KernelIdeal.nD Cert.KernelIdeal.τ).loc Cert.KernelIdeal.main_v85)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v81) = v0 c
          ∧ r.2.mem ((c.tc : Thread Cert.KernelIdeal.nD Cert.KernelIdeal.τ).loc Cert.KernelIdeal.main_v85) = v1 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
          ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
          ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
          ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
          ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7)
          ∧ r.2.mem ((c.tc : Thread Cert.KernelIdeal.nD Cert.KernelIdeal.τ).loc Cert.KernelIdeal.main_arg8) = m ((c.tc : Thread Cert.KernelIdeal.nD Cert.KernelIdeal.τ).loc Cert.KernelIdeal.main_arg8)
          ∧ r.2.mem ((c.tc : Thread Cert.KernelIdeal.nD Cert.KernelIdeal.τ).loc Cert.KernelIdeal.main_arg9) = m ((c.tc : Thread Cert.KernelIdeal.nD Cert.KernelIdeal.τ).loc Cert.KernelIdeal.main_arg9)
          ∧ r.2.mem ((c.tc : Thread Cert.KernelIdeal.nD Cert.KernelIdeal.τ).loc Cert.KernelIdeal.main_arg10) = m ((c.tc : Thread Cert.KernelIdeal.nD Cert.KernelIdeal.τ).loc Cert.KernelIdeal.main_arg10)
          ∧ r.2.mem ((c.tc : Thread Cert.KernelIdeal.nD Cert.KernelIdeal.τ).loc Cert.KernelIdeal.main_arg11) = m ((c.tc : Thread Cert.KernelIdeal.nD Cert.KernelIdeal.τ).loc Cert.KernelIdeal.main_arg11)
          ∧ r.2.mem ((c.tc : Thread Cert.KernelIdeal.nD Cert.KernelIdeal.τ).loc Cert.KernelIdeal.main_arg12) = m ((c.tc : Thread Cert.KernelIdeal.nD Cert.KernelIdeal.τ).loc Cert.KernelIdeal.main_arg12)
          ∧ r.2.mem ((c.tc : Thread Cert.KernelIdeal.nD Cert.KernelIdeal.τ).loc Cert.KernelIdeal.main_arg13) = m ((c.tc : Thread Cert.KernelIdeal.nD Cert.KernelIdeal.τ).loc Cert.KernelIdeal.main_arg13))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v102) = v0 c
          ∧ r.2.mem ((c.tc : Thread Cert.ReferenceIdeal.nD Cert.ReferenceIdeal.τ).loc Cert.ReferenceIdeal.main_v106) = v1 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2)
          ∧ r.2.mem ((c.tc : Thread Cert.ReferenceIdeal.nD Cert.ReferenceIdeal.τ).loc Cert.ReferenceIdeal.main_arg3) = m' ((c.tc : Thread Cert.ReferenceIdeal.nD Cert.ReferenceIdeal.τ).loc Cert.ReferenceIdeal.main_arg3)
          ∧ r.2.mem ((c.tc : Thread Cert.ReferenceIdeal.nD Cert.ReferenceIdeal.τ).loc Cert.ReferenceIdeal.main_arg4) = m' ((c.tc : Thread Cert.ReferenceIdeal.nD Cert.ReferenceIdeal.τ).loc Cert.ReferenceIdeal.main_arg4)
          ∧ r.2.mem ((c.tc : Thread Cert.ReferenceIdeal.nD Cert.ReferenceIdeal.τ).loc Cert.ReferenceIdeal.main_arg5) = m' ((c.tc : Thread Cert.ReferenceIdeal.nD Cert.ReferenceIdeal.τ).loc Cert.ReferenceIdeal.main_arg5)
          ∧ r.2.mem ((c.tc : Thread Cert.ReferenceIdeal.nD Cert.ReferenceIdeal.τ).loc Cert.ReferenceIdeal.main_arg6) = m' ((c.tc : Thread Cert.ReferenceIdeal.nD Cert.ReferenceIdeal.τ).loc Cert.ReferenceIdeal.main_arg6)
          ∧ r.2.mem ((c.tc : Thread Cert.ReferenceIdeal.nD Cert.ReferenceIdeal.τ).loc Cert.ReferenceIdeal.main_arg7) = m' ((c.tc : Thread Cert.ReferenceIdeal.nD Cert.ReferenceIdeal.τ).loc Cert.ReferenceIdeal.main_arg7)
          ∧ r.2.mem ((c.tc : Thread Cert.ReferenceIdeal.nD Cert.ReferenceIdeal.τ).loc Cert.ReferenceIdeal.main_arg8) = m' ((c.tc : Thread Cert.ReferenceIdeal.nD Cert.ReferenceIdeal.τ).loc Cert.ReferenceIdeal.main_arg8)
          ∧ r.2.mem ((c.tc : Thread Cert.ReferenceIdeal.nD Cert.ReferenceIdeal.τ).loc Cert.ReferenceIdeal.main_arg9) = m' ((c.tc : Thread Cert.ReferenceIdeal.nD Cert.ReferenceIdeal.τ).loc Cert.ReferenceIdeal.main_arg9)
          ∧ r.2.mem ((c.tc : Thread Cert.ReferenceIdeal.nD Cert.ReferenceIdeal.τ).loc Cert.ReferenceIdeal.main_arg10) = m' ((c.tc : Thread Cert.ReferenceIdeal.nD Cert.ReferenceIdeal.τ).loc Cert.ReferenceIdeal.main_arg10)
          ∧ r.2.mem ((c.tc : Thread Cert.ReferenceIdeal.nD Cert.ReferenceIdeal.τ).loc Cert.ReferenceIdeal.main_arg11) = m' ((c.tc : Thread Cert.ReferenceIdeal.nD Cert.ReferenceIdeal.τ).loc Cert.ReferenceIdeal.main_arg11)
          ∧ r.2.mem ((c.tc : Thread Cert.ReferenceIdeal.nD Cert.ReferenceIdeal.τ).loc Cert.ReferenceIdeal.main_arg12) = m' ((c.tc : Thread Cert.ReferenceIdeal.nD Cert.ReferenceIdeal.τ).loc Cert.ReferenceIdeal.main_arg12)
          ∧ r.2.mem ((c.tc : Thread Cert.ReferenceIdeal.nD Cert.ReferenceIdeal.τ).loc Cert.ReferenceIdeal.main_arg13) = m' ((c.tc : Thread Cert.ReferenceIdeal.nD Cert.ReferenceIdeal.τ).loc Cert.ReferenceIdeal.main_arg13))

def Claim : Prop :=
  ∃ (hKernel : Cert.Kernel.Facts) (hKernelIdeal : Cert.KernelIdeal.Facts) (hReferenceIdeal : Cert.ReferenceIdeal.Facts) (hPre_finite_inputs : Cert.Pre_finite_inputs.Facts),
    frame_Kernel (hKernel := hKernel) (hPre_finite_inputs := hPre_finite_inputs)
    ∧ frame_KernelIdeal (hKernelIdeal := hKernelIdeal) (hPre_finite_inputs := hPre_finite_inputs)
    ∧ frame_ReferenceIdeal (hReferenceIdeal := hReferenceIdeal) (hPre_finite_inputs := hPre_finite_inputs)
    ∧ preserves_Kernel_KernelIdeal
    ∧ algebraic_KernelIdeal_ReferenceIdeal (hKernelIdeal := hKernelIdeal) (hReferenceIdeal := hReferenceIdeal) (hPre_finite_inputs := hPre_finite_inputs)
-- ==== Pre_finite_inputs.lean ====
abbrev S100000x64 : Shape := ⟨2, ![100000, 64]⟩
abbrev S2x1000000 : Shape := ⟨2, ![2, 1000000]⟩
abbrev S100000 : Shape := ⟨1, ![100000]⟩
abbrev S10000 : Shape := ⟨1, ![10000]⟩
abbrev S3x64x64 : Shape := ⟨3, ![3, 64, 64]⟩
abbrev S3x64 : Shape := ⟨2, ![3, 64]⟩
abbrev S64x64 : Shape := ⟨2, ![64, 64]⟩
abbrev S64 : Shape := ⟨1, ![64]⟩
abbrev S64x1 : Shape := ⟨2, ![64, 1]⟩
abbrev S1 : Shape := ⟨1, ![1]⟩
abbrev S_ : Shape := ⟨0, ![]⟩

class Facts : Prop where
  bcast_S_S100000x64 : S_.BroadcastsInDim S100000x64 (![] : Fin 0 → Fin S100000x64.rank)
  reducesTo_S100000x64_S_d0_1 : S100000x64.ReducesTo [0, 1] S_
  h_S_ : 0 < S_.numel
  bcast_S_S3x64x64 : S_.BroadcastsInDim S3x64x64 (![] : Fin 0 → Fin S3x64x64.rank)
  reducesTo_S3x64x64_S_d0_1_2 : S3x64x64.ReducesTo [0, 1, 2] S_
  bcast_S_S3x64 : S_.BroadcastsInDim S3x64 (![] : Fin 0 → Fin S3x64.rank)
  reducesTo_S3x64_S_d0_1 : S3x64.ReducesTo [0, 1] S_
  bcast_S_S64x64 : S_.BroadcastsInDim S64x64 (![] : Fin 0 → Fin S64x64.rank)
  reducesTo_S64x64_S_d0_1 : S64x64.ReducesTo [0, 1] S_
  bcast_S_S64 : S_.BroadcastsInDim S64 (![] : Fin 0 → Fin S64.rank)
  reducesTo_S64_S_d0 : S64.ReducesTo [0] S_
  bcast_S_S64x1 : S_.BroadcastsInDim S64x1 (![] : Fin 0 → Fin S64x1.rank)
  reducesTo_S64x1_S_d0_1 : S64x1.ReducesTo [0, 1] S_
  bcast_S_S1 : S_.BroadcastsInDim S1 (![] : Fin 0 → Fin S1.rank)
  reducesTo_S1_S_d0 : S1.ReducesTo [0] S_

variable [Facts]

def fn_part3 {F : FTy → Type} [FloatOps F] (main_v48 : IVec S_ 1) (main_v49 : FVec F S1 .f32) (main_v50 : FVec F S1 .f32) : IVec S_ 1 :=
  let main_v51 : IVec S1 1 := cmpf .olt main_v49 main_v50
  let main_c_19 : IVec S_ 1 := constantI S_ 1 1#1
  let main_v52 : IVec S_ 1 := (fun x v => Host.reduce IntOp.andi x v reducesTo_S1_S_d0 h_S_) main_v51 main_c_19
  let main_v53 : IVec S_ 1 := andi main_v48 main_v52
  main_v53

def fn_part2 {F : FTy → Type} [FloatOps F] (main_arg10 : FVec F S64x1 .f32) (main_arg11 : FVec F S1 .f32) (main_arg12 : FVec F S64x1 .f32) (main_arg13 : FVec F S1 .f32) (main_v33 : IVec S_ 1) : IVec S_ 1 :=
  let main_v34 : FVec F S64x1 .f32 := Host.absf main_arg10
  let main_cst_12 : FVec F S_ .f32 := constant S_ .f32 0x7F800000#32
  let main_v35 : FVec F S64x1 .f32 := broadcastInDim S64x1 ![] bcast_S_S64x1 main_cst_12
  let main_v36 : IVec S64x1 1 := cmpf .olt main_v34 main_v35
  let main_c_13 : IVec S_ 1 := constantI S_ 1 1#1
  let main_v37 : IVec S_ 1 := (fun x v => Host.reduce IntOp.andi x v reducesTo_S64x1_S_d0_1 h_S_) main_v36 main_c_13
  let main_v38 : IVec S_ 1 := andi main_v33 main_v37
  let main_v39 : FVec F S1 .f32 := Host.absf main_arg11
  let main_cst_14 : FVec F S_ .f32 := constant S_ .f32 0x7F800000#32
  let main_v40 : FVec F S1 .f32 := broadcastInDim S1 ![] bcast_S_S1 main_cst_14
  let main_v41 : IVec S1 1 := cmpf .olt main_v39 main_v40
  let main_c_15 : IVec S_ 1 := constantI S_ 1 1#1
  let main_v42 : IVec S_ 1 := (fun x v => Host.reduce IntOp.andi x v reducesTo_S1_S_d0 h_S_) main_v41 main_c_15
  let main_v43 : IVec S_ 1 := andi main_v38 main_v42
  let main_v44 : FVec F S64x1 .f32 := Host.absf main_arg12
  let main_cst_16 : FVec F S_ .f32 := constant S_ .f32 0x7F800000#32
  let main_v45 : FVec F S64x1 .f32 := broadcastInDim S64x1 ![] bcast_S_S64x1 main_cst_16
  let main_v46 : IVec S64x1 1 := cmpf .olt main_v44 main_v45
  let main_c_17 : IVec S_ 1 := constantI S_ 1 1#1
  let main_v47 : IVec S_ 1 := (fun x v => Host.reduce IntOp.andi x v reducesTo_S64x1_S_d0_1 h_S_) main_v46 main_c_17
  let main_v48 : IVec S_ 1 := andi main_v43 main_v47
  let main_v49 : FVec F S1 .f32 := Host.absf main_arg13
  let main_cst_18 : FVec F S_ .f32 := constant S_ .f32 0x7F800000#32
  let main_v50 : FVec F S1 .f32 := broadcastInDim S1 ![] bcast_S_S1 main_cst_18
  fn_part3 (F := F) main_v48 main_v49 main_v50

def fn_part1 {F : FTy → Type} [FloatOps F] (main_arg7 : FVec F S3x64 .f32) (main_arg8 : FVec F S64x64 .f32) (main_arg9 : FVec F S64 .f32) (main_arg10 : FVec F S64x1 .f32) (main_arg11 : FVec F S1 .f32) (main_arg12 : FVec F S64x1 .f32) (main_arg13 : FVec F S1 .f32) (main_v13 : IVec S_ 1) (main_v16 : IVec S3x64x64 1) : IVec S_ 1 :=
  let main_c_5 : IVec S_ 1 := constantI S_ 1 1#1
  let main_v17 : IVec S_ 1 := (fun x v => Host.reduce IntOp.andi x v reducesTo_S3x64x64_S_d0_1_2 h_S_) main_v16 main_c_5
  let main_v18 : IVec S_ 1 := andi main_v13 main_v17
  let main_v19 : FVec F S3x64 .f32 := Host.absf main_arg7
  let main_cst_6 : FVec F S_ .f32 := constant S_ .f32 0x7F800000#32
  let main_v20 : FVec F S3x64 .f32 := broadcastInDim S3x64 ![] bcast_S_S3x64 main_cst_6
  let main_v21 : IVec S3x64 1 := cmpf .olt main_v19 main_v20
  let main_c_7 : IVec S_ 1 := constantI S_ 1 1#1
  let main_v22 : IVec S_ 1 := (fun x v => Host.reduce IntOp.andi x v reducesTo_S3x64_S_d0_1 h_S_) main_v21 main_c_7
  let main_v23 : IVec S_ 1 := andi main_v18 main_v22
  let main_v24 : FVec F S64x64 .f32 := Host.absf main_arg8
  let main_cst_8 : FVec F S_ .f32 := constant S_ .f32 0x7F800000#32
  let main_v25 : FVec F S64x64 .f32 := broadcastInDim S64x64 ![] bcast_S_S64x64 main_cst_8
  let main_v26 : IVec S64x64 1 := cmpf .olt main_v24 main_v25
  let main_c_9 : IVec S_ 1 := constantI S_ 1 1#1
  let main_v27 : IVec S_ 1 := (fun x v => Host.reduce IntOp.andi x v reducesTo_S64x64_S_d0_1 h_S_) main_v26 main_c_9
  let main_v28 : IVec S_ 1 := andi main_v23 main_v27
  let main_v29 : FVec F S64 .f32 := Host.absf main_arg9
  let main_cst_10 : FVec F S_ .f32 := constant S_ .f32 0x7F800000#32
  let main_v30 : FVec F S64 .f32 := broadcastInDim S64 ![] bcast_S_S64 main_cst_10
  let main_v31 : IVec S64 1 := cmpf .olt main_v29 main_v30
  let main_c_11 : IVec S_ 1 := constantI S_ 1 1#1
  let main_v32 : IVec S_ 1 := (fun x v => Host.reduce IntOp.andi x v reducesTo_S64_S_d0 h_S_) main_v31 main_c_11
  let main_v33 : IVec S_ 1 := andi main_v28 main_v32
  fn_part2 (F := F) main_arg10 main_arg11 main_arg12 main_arg13 main_v33

def fn {F : FTy → Type} [FloatOps F] (main_arg0 : FVec F S100000x64 .f32) (main_arg1 : IVec S2x1000000 32) (main_arg2 : IVec S100000 32) (main_arg3 : IVec S10000 32) (main_arg4 : FVec F S3x64x64 .f32) (main_arg5 : FVec F S3x64 .f32) (main_arg6 : FVec F S3x64x64 .f32) (main_arg7 : FVec F S3x64 .f32) (main_arg8 : FVec F S64x64 .f32) (main_arg9 : FVec F S64 .f32) (main_arg10 : FVec F S64x1 .f32) (main_arg11 : FVec F S1 .f32) (main_arg12 : FVec F S64x1 .f32) (main_arg13 : FVec F S1 .f32) : IVec S_ 1 :=
  let main_v0 : FVec F S100000x64 .f32 := Host.absf main_arg0
  let main_cst : FVec F S_ .f32 := constant S_ .f32 0x7F800000#32
  let main_v1 : FVec F S100000x64 .f32 := broadcastInDim S100000x64 ![] bcast_S_S100000x64 main_cst
  let main_v2 : IVec S100000x64 1 := cmpf .olt main_v0 main_v1
  let main_c : IVec S_ 1 := constantI S_ 1 1#1
  let main_v3 : IVec S_ 1 := (fun x v => Host.reduce IntOp.andi x v reducesTo_S100000x64_S_d0_1 h_S_) main_v2 main_c
  let main_v4 : FVec F S3x64x64 .f32 := Host.absf main_arg4
  let main_cst_0 : FVec F S_ .f32 := constant S_ .f32 0x7F800000#32
  let main_v5 : FVec F S3x64x64 .f32 := broadcastInDim S3x64x64 ![] bcast_S_S3x64x64 main_cst_0
  let main_v6 : IVec S3x64x64 1 := cmpf .olt main_v4 main_v5
  let main_c_1 : IVec S_ 1 := constantI S_ 1 1#1
  let main_v7 : IVec S_ 1 := (fun x v => Host.reduce IntOp.andi x v reducesTo_S3x64x64_S_d0_1_2 h_S_) main_v6 main_c_1
  let main_v8 : IVec S_ 1 := andi main_v3 main_v7
  let main_v9 : FVec F S3x64 .f32 := Host.absf main_arg5
  let main_cst_2 : FVec F S_ .f32 := constant S_ .f32 0x7F800000#32
  let main_v10 : FVec F S3x64 .f32 := broadcastInDim S3x64 ![] bcast_S_S3x64 main_cst_2
  let main_v11 : IVec S3x64 1 := cmpf .olt main_v9 main_v10
  let main_c_3 : IVec S_ 1 := constantI S_ 1 1#1
  let main_v12 : IVec S_ 1 := (fun x v => Host.reduce IntOp.andi x v reducesTo_S3x64_S_d0_1 h_S_) main_v11 main_c_3
  let main_v13 : IVec S_ 1 := andi main_v8 main_v12
  let main_v14 : FVec F S3x64x64 .f32 := Host.absf main_arg6
  let main_cst_4 : FVec F S_ .f32 := constant S_ .f32 0x7F800000#32
  let main_v15 : FVec F S3x64x64 .f32 := broadcastInDim S3x64x64 ![] bcast_S_S3x64x64 main_cst_4
  let main_v16 : IVec S3x64x64 1 := cmpf .olt main_v14 main_v15
  fn_part1 (F := F) main_arg7 main_arg8 main_arg9 main_arg10 main_arg11 main_arg12 main_arg13 main_v13 main_v16
-- ==== Kernel.lean ====
abbrev S100000x64 : Shape := ⟨2, ![100000, 64]⟩
abbrev S2x1000000 : Shape := ⟨2, ![2, 1000000]⟩
abbrev S100000 : Shape := ⟨1, ![100000]⟩
abbrev S10000 : Shape := ⟨1, ![10000]⟩
abbrev S3x64x64 : Shape := ⟨3, ![3, 64, 64]⟩
abbrev S3x64 : Shape := ⟨2, ![3, 64]⟩
abbrev S64x64 : Shape := ⟨2, ![64, 64]⟩
abbrev S64 : Shape := ⟨1, ![64]⟩
abbrev S64x1 : Shape := ⟨2, ![64, 1]⟩
abbrev S1 : Shape := ⟨1, ![1]⟩
abbrev S1x1000000 : Shape := ⟨2, ![1, 1000000]⟩
abbrev S1000000 : Shape := ⟨1, ![1000000]⟩
abbrev S_ : Shape := ⟨0, ![]⟩
abbrev S1000000x1 : Shape := ⟨2, ![1000000, 1]⟩
abbrev S1000000x64 : Shape := ⟨2, ![1000000, 64]⟩
abbrev S1x64x64 : Shape := ⟨3, ![1, 64, 64]⟩
abbrev S1x64 : Shape := ⟨2, ![1, 64]⟩
abbrev S5000x64 : Shape := ⟨2, ![5000, 64]⟩
abbrev S10000x64 : Shape := ⟨2, ![10000, 64]⟩
abbrev S100000x1 : Shape := ⟨2, ![100000, 1]⟩
abbrev S500x64 : Shape := ⟨2, ![500, 64]⟩
abbrev S10000x1 : Shape := ⟨2, ![10000, 1]⟩
abbrev S500x1 : Shape := ⟨2, ![500, 1]⟩
abbrev S1x1 : Shape := ⟨2, ![1, 1]⟩

abbrev nBuf : Space → Nat
  | .hbm => 113
  | .vmem => 30
  | .smem => 0
  | _ => 0

abbrev bufTy : (tb : Table) → Fin (tcTables nBuf tb) → BufTy
  | .hbm, ⟨0, _⟩ => ⟨S100000x64, .f32⟩
  | .hbm, ⟨1, _⟩ => ⟨S2x1000000, .i32⟩
  | .hbm, ⟨2, _⟩ => ⟨S100000, .i32⟩
  | .hbm, ⟨3, _⟩ => ⟨S10000, .i32⟩
  | .hbm, ⟨4, _⟩ => ⟨S3x64x64, .f32⟩
  | .hbm, ⟨5, _⟩ => ⟨S3x64, .f32⟩
  | .hbm, ⟨6, _⟩ => ⟨S3x64x64, .f32⟩
  | .hbm, ⟨7, _⟩ => ⟨S3x64, .f32⟩
  | .hbm, ⟨8, _⟩ => ⟨S64x64, .f32⟩
  | .hbm, ⟨9, _⟩ => ⟨S64, .f32⟩
  | .hbm, ⟨10, _⟩ => ⟨S64x1, .f32⟩
  | .hbm, ⟨11, _⟩ => ⟨S1, .f32⟩
  | .hbm, ⟨12, _⟩ => ⟨S64x1, .f32⟩
  | .hbm, ⟨13, _⟩ => ⟨S1, .f32⟩
  | .hbm, ⟨14, _⟩ => ⟨S1x1000000, .i32⟩
  | .hbm, ⟨15, _⟩ => ⟨S1000000, .i32⟩
  | .hbm, ⟨16, _⟩ => ⟨S1x1000000, .i32⟩
  | .hbm, ⟨17, _⟩ => ⟨S1000000, .i32⟩
  | .hbm, ⟨18, _⟩ => ⟨S_, .i32⟩
  | .hbm, ⟨19, _⟩ => ⟨S1000000, .i32⟩
  | .hbm, ⟨20, _⟩ => ⟨S1000000, .i1⟩
  | .hbm, ⟨21, _⟩ => ⟨S_, .i32⟩
  | .hbm, ⟨22, _⟩ => ⟨S1000000, .i32⟩
  | .hbm, ⟨23, _⟩ => ⟨S1000000, .i32⟩
  | .hbm, ⟨24, _⟩ => ⟨S1000000, .i32⟩
  | .hbm, ⟨25, _⟩ => ⟨S1000000x1, .i32⟩
  | .hbm, ⟨26, _⟩ => ⟨S1000000x64, .f32⟩
  | .hbm, ⟨27, _⟩ => ⟨S_, .f32⟩
  | .hbm, ⟨28, _⟩ => ⟨S100000x64, .f32⟩
  | .hbm, ⟨29, _⟩ => ⟨S1000000x1, .i32⟩
  | .hbm, ⟨30, _⟩ => ⟨S100000x64, .f32⟩
  | .hbm, ⟨31, _⟩ => ⟨S1x64x64, .f32⟩
  | .hbm, ⟨32, _⟩ => ⟨S64x64, .f32⟩
  | .hbm, ⟨33, _⟩ => ⟨S1x64, .f32⟩
  | .hbm, ⟨34, _⟩ => ⟨S64, .f32⟩
  | .hbm, ⟨35, _⟩ => ⟨S1x64x64, .f32⟩
  | .hbm, ⟨36, _⟩ => ⟨S64x64, .f32⟩
  | .hbm, ⟨37, _⟩ => ⟨S1x64, .f32⟩
  | .hbm, ⟨38, _⟩ => ⟨S64, .f32⟩
  | .hbm, ⟨39, _⟩ => ⟨S1x64, .f32⟩
  | .hbm, ⟨40, _⟩ => ⟨S1x64, .f32⟩
  | .hbm, ⟨41, _⟩ => ⟨S100000x64, .f32⟩
  | .hbm, ⟨42, _⟩ => ⟨S_, .i32⟩
  | .hbm, ⟨43, _⟩ => ⟨S1000000, .i32⟩
  | .hbm, ⟨44, _⟩ => ⟨S1000000, .i1⟩
  | .hbm, ⟨45, _⟩ => ⟨S_, .i32⟩
  | .hbm, ⟨46, _⟩ => ⟨S1000000, .i32⟩
  | .hbm, ⟨47, _⟩ => ⟨S1000000, .i32⟩
  | .hbm, ⟨48, _⟩ => ⟨S1000000, .i32⟩
  | .hbm, ⟨49, _⟩ => ⟨S1000000x1, .i32⟩
  | .hbm, ⟨50, _⟩ => ⟨S1000000x64, .f32⟩
  | .hbm, ⟨51, _⟩ => ⟨S_, .f32⟩
  | .hbm, ⟨52, _⟩ => ⟨S100000x64, .f32⟩
  | .hbm, ⟨53, _⟩ => ⟨S1000000x1, .i32⟩
  | .hbm, ⟨54, _⟩ => ⟨S100000x64, .f32⟩
  | .hbm, ⟨55, _⟩ => ⟨S1x64x64, .f32⟩
  | .hbm, ⟨56, _⟩ => ⟨S64x64, .f32⟩
  | .hbm, ⟨57, _⟩ => ⟨S1x64, .f32⟩
  | .hbm, ⟨58, _⟩ => ⟨S64, .f32⟩
  | .hbm, ⟨59, _⟩ => ⟨S1x64x64, .f32⟩
  | .hbm, ⟨60, _⟩ => ⟨S64x64, .f32⟩
  | .hbm, ⟨61, _⟩ => ⟨S1x64, .f32⟩
  | .hbm, ⟨62, _⟩ => ⟨S64, .f32⟩
  | .hbm, ⟨63, _⟩ => ⟨S1x64, .f32⟩
  | .hbm, ⟨64, _⟩ => ⟨S1x64, .f32⟩
  | .hbm, ⟨65, _⟩ => ⟨S100000x64, .f32⟩
  | .hbm, ⟨66, _⟩ => ⟨S_, .i32⟩
  | .hbm, ⟨67, _⟩ => ⟨S1000000, .i32⟩
  | .hbm, ⟨68, _⟩ => ⟨S1000000, .i1⟩
  | .hbm, ⟨69, _⟩ => ⟨S_, .i32⟩
  | .hbm, ⟨70, _⟩ => ⟨S1000000, .i32⟩
  | .hbm, ⟨71, _⟩ => ⟨S1000000, .i32⟩
  | .hbm, ⟨72, _⟩ => ⟨S1000000, .i32⟩
  | .hbm, ⟨73, _⟩ => ⟨S1000000x1, .i32⟩
  | .hbm, ⟨74, _⟩ => ⟨S1000000x64, .f32⟩
  | .hbm, ⟨75, _⟩ => ⟨S_, .f32⟩
  | .hbm, ⟨76, _⟩ => ⟨S100000x64, .f32⟩
  | .hbm, ⟨77, _⟩ => ⟨S1000000x1, .i32⟩
  | .hbm, ⟨78, _⟩ => ⟨S100000x64, .f32⟩
  | .hbm, ⟨79, _⟩ => ⟨S1x64x64, .f32⟩
  | .hbm, ⟨80, _⟩ => ⟨S64x64, .f32⟩
  | .hbm, ⟨81, _⟩ => ⟨S1x64, .f32⟩
  | .hbm, ⟨82, _⟩ => ⟨S64, .f32⟩
  | .hbm, ⟨83, _⟩ => ⟨S1x64x64, .f32⟩
  | .hbm, ⟨84, _⟩ => ⟨S64x64, .f32⟩
  | .hbm, ⟨85, _⟩ => ⟨S1x64, .f32⟩
  | .hbm, ⟨86, _⟩ => ⟨S64, .f32⟩
  | .hbm, ⟨87, _⟩ => ⟨S1x64, .f32⟩
  | .hbm, ⟨88, _⟩ => ⟨S1x64, .f32⟩
  | .hbm, ⟨89, _⟩ => ⟨S100000x64, .f32⟩
  | .hbm, ⟨90, _⟩ => ⟨S_, .f32⟩
  | .hbm, ⟨91, _⟩ => ⟨S10000x64, .f32⟩
  | .hbm, ⟨92, _⟩ => ⟨S100000x1, .i32⟩
  | .hbm, ⟨93, _⟩ => ⟨S10000x64, .f32⟩
  | .hbm, ⟨94, _⟩ => ⟨S_, .f32⟩
  | .hbm, ⟨95, _⟩ => ⟨S500x64, .f32⟩
  | .hbm, ⟨96, _⟩ => ⟨S10000x1, .i32⟩
  | .hbm, ⟨97, _⟩ => ⟨S500x64, .f32⟩
  | .hbm, ⟨98, _⟩ => ⟨S500x64, .f32⟩
  | .hbm, ⟨99, _⟩ => ⟨S1x64, .f32⟩
  | .hbm, ⟨100, _⟩ => ⟨S500x64, .f32⟩
  | .hbm, ⟨101, _⟩ => ⟨S500x64, .f32⟩
  | .hbm, ⟨102, _⟩ => ⟨S_, .f32⟩
  | .hbm, ⟨103, _⟩ => ⟨S500x64, .f32⟩
  | .hbm, ⟨104, _⟩ => ⟨S500x64, .f32⟩
  | .hbm, ⟨105, _⟩ => ⟨S500x1, .f32⟩
  | .hbm, ⟨106, _⟩ => ⟨S1x1, .f32⟩
  | .hbm, ⟨107, _⟩ => ⟨S500x1, .f32⟩
  | .hbm, ⟨108, _⟩ => ⟨S500x1, .f32⟩
  | .hbm, ⟨109, _⟩ => ⟨S500x1, .f32⟩
  | .hbm, ⟨110, _⟩ => ⟨S1x1, .f32⟩
  | .hbm, ⟨111, _⟩ => ⟨S500x1, .f32⟩
  | .hbm, ⟨112, _⟩ => ⟨S500x1, .f32⟩
  | .local _ .vmem, ⟨0, _⟩ => ⟨S5000x64, .f32⟩
  | .local _ .vmem, ⟨1, _⟩ => ⟨S5000x64, .f32⟩
  | .local _ .vmem, ⟨2, _⟩ => ⟨S5000x64, .f32⟩
  | .local _ .vmem, ⟨3, _⟩ => ⟨S5000x64, .f32⟩
  | .local _ .vmem, ⟨4, _⟩ => ⟨S64x64, .f32⟩
  | .local _ .vmem, ⟨5, _⟩ => ⟨S1x64, .f32⟩
  | .local _ .vmem, ⟨6, _⟩ => ⟨S64x64, .f32⟩
  | .local _ .vmem, ⟨7, _⟩ => ⟨S1x64, .f32⟩
  | .local _ .vmem, ⟨8, _⟩ => ⟨S5000x64, .f32⟩
  | .local _ .vmem, ⟨9, _⟩ => ⟨S5000x64, .f32⟩
  | .local _ .vmem, ⟨10, _⟩ => ⟨S5000x64, .f32⟩
  | .local _ .vmem, ⟨11, _⟩ => ⟨S5000x64, .f32⟩
  | .local _ .vmem, ⟨12, _⟩ => ⟨S5000x64, .f32⟩
  | .local _ .vmem, ⟨13, _⟩ => ⟨S5000x64, .f32⟩
  | .local _ .vmem, ⟨14, _⟩ => ⟨S64x64, .f32⟩
  | .local _ .vmem, ⟨15, _⟩ => ⟨S1x64, .f32⟩
  | .local _ .vmem, ⟨16, _⟩ => ⟨S64x64, .f32⟩
  | .local _ .vmem, ⟨17, _⟩ => ⟨S1x64, .f32⟩
  | .local _ .vmem, ⟨18, _⟩ => ⟨S5000x64, .f32⟩
  | .local _ .vmem, ⟨19, _⟩ => ⟨S5000x64, .f32⟩
  | .local _ .vmem, ⟨20, _⟩ => ⟨S5000x64, .f32⟩
  | .local _ .vmem, ⟨21, _⟩ => ⟨S5000x64, .f32⟩
  | .local _ .vmem, ⟨22, _⟩ => ⟨S5000x64, .f32⟩
  | .local _ .vmem, ⟨23, _⟩ => ⟨S5000x64, .f32⟩
  | .local _ .vmem, ⟨24, _⟩ => ⟨S64x64, .f32⟩
  | .local _ .vmem, ⟨25, _⟩ => ⟨S1x64, .f32⟩
  | .local _ .vmem, ⟨26, _⟩ => ⟨S64x64, .f32⟩
  | .local _ .vmem, ⟨27, _⟩ => ⟨S1x64, .f32⟩
  | .local _ .vmem, ⟨28, _⟩ => ⟨S5000x64, .f32⟩
  | .local _ .vmem, ⟨29, _⟩ => ⟨S5000x64, .f32⟩
  | _, _ => ⟨S100000x64, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | .vmem, ⟨17, _⟩ => true
  | .vmem, ⟨18, _⟩ => true
  | .vmem, ⟨19, _⟩ => true
  | .vmem, ⟨20, _⟩ => true
  | .vmem, ⟨21, _⟩ => true
  | .vmem, ⟨22, _⟩ => true
  | .vmem, ⟨23, _⟩ => true
  | .vmem, ⟨24, _⟩ => true
  | .vmem, ⟨25, _⟩ => true
  | .vmem, ⟨26, _⟩ => true
  | .vmem, ⟨27, _⟩ => true
  | .vmem, ⟨28, _⟩ => true
  | .vmem, ⟨29, _⟩ => true
  | _, _ => false

abbrev semScoped : Fin 0 → Bool
  | ⟨_, h⟩ => absurd h (Nat.not_lt_zero _)

abbrev dmaSemScoped : Fin 30 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | ⟨18, _⟩ => true
  | ⟨19, _⟩ => true
  | ⟨20, _⟩ => true
  | ⟨21, _⟩ => true
  | ⟨22, _⟩ => true
  | ⟨23, _⟩ => true
  | ⟨24, _⟩ => true
  | ⟨25, _⟩ => true
  | ⟨26, _⟩ => true
  | ⟨27, _⟩ => true
  | ⟨28, _⟩ => true
  | ⟨29, _⟩ => true
  | _ => false

abbrev sig : RefSig :=
  ofTc nBuf bufTy 0 30 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_arg9 : Ref sig .tc := ⟨.hbm, 9, rfl⟩
abbrev main_arg10 : Ref sig .tc := ⟨.hbm, 10, rfl⟩
abbrev main_arg11 : Ref sig .tc := ⟨.hbm, 11, rfl⟩
abbrev main_arg12 : Ref sig .tc := ⟨.hbm, 12, rfl⟩
abbrev main_arg13 : Ref sig .tc := ⟨.hbm, 13, rfl⟩
abbrev main_v0 : Ref sig .tc := ⟨.hbm, 14, rfl⟩
abbrev main_v1 : Ref sig .tc := ⟨.hbm, 15, rfl⟩
abbrev main_v2 : Ref sig .tc := ⟨.hbm, 16, rfl⟩
abbrev main_v3 : Ref sig .tc := ⟨.hbm, 17, rfl⟩
abbrev main_c : Ref sig .tc := ⟨.hbm, 18, rfl⟩
abbrev main_v4 : Ref sig .tc := ⟨.hbm, 19, rfl⟩
abbrev main_v5 : Ref sig .tc := ⟨.hbm, 20, rfl⟩
abbrev main_c_0 : Ref sig .tc := ⟨.hbm, 21, rfl⟩
abbrev main_v6 : Ref sig .tc := ⟨.hbm, 22, rfl⟩
abbrev main_v7 : Ref sig .tc := ⟨.hbm, 23, rfl⟩
abbrev main_v8 : Ref sig .tc := ⟨.hbm, 24, rfl⟩
abbrev main_v9 : Ref sig .tc := ⟨.hbm, 25, rfl⟩
abbrev main_v10 : Ref sig .tc := ⟨.hbm, 26, rfl⟩
abbrev main_cst : Ref sig .tc := ⟨.hbm, 27, rfl⟩
abbrev main_v11 : Ref sig .tc := ⟨.hbm, 28, rfl⟩
abbrev main_v12 : Ref sig .tc := ⟨.hbm, 29, rfl⟩
abbrev main_v13 : Ref sig .tc := ⟨.hbm, 30, rfl⟩
abbrev main_v14 : Ref sig .tc := ⟨.hbm, 31, rfl⟩
abbrev main_v15 : Ref sig .tc := ⟨.hbm, 32, rfl⟩
abbrev main_v16 : Ref sig .tc := ⟨.hbm, 33, rfl⟩
abbrev main_v17 : Ref sig .tc := ⟨.hbm, 34, rfl⟩
abbrev main_v18 : Ref sig .tc := ⟨.hbm, 35, rfl⟩
abbrev main_v19 : Ref sig .tc := ⟨.hbm, 36, rfl⟩
abbrev main_v20 : Ref sig .tc := ⟨.hbm, 37, rfl⟩
abbrev main_v21 : Ref sig .tc := ⟨.hbm, 38, rfl⟩
abbrev main_v22 : Ref sig .tc := ⟨.hbm, 39, rfl⟩
abbrev main_v23 : Ref sig .tc := ⟨.hbm, 40, rfl⟩
abbrev main_v24 : Ref sig .tc := ⟨.hbm, 41, rfl⟩
abbrev main_c_1 : Ref sig .tc := ⟨.hbm, 42, rfl⟩
abbrev main_v25 : Ref sig .tc := ⟨.hbm, 43, rfl⟩
abbrev main_v26 : Ref sig .tc := ⟨.hbm, 44, rfl⟩
abbrev main_c_2 : Ref sig .tc := ⟨.hbm, 45, rfl⟩
abbrev main_v27 : Ref sig .tc := ⟨.hbm, 46, rfl⟩
abbrev main_v28 : Ref sig .tc := ⟨.hbm, 47, rfl⟩
abbrev main_v29 : Ref sig .tc := ⟨.hbm, 48, rfl⟩
abbrev main_v30 : Ref sig .tc := ⟨.hbm, 49, rfl⟩
abbrev main_v31 : Ref sig .tc := ⟨.hbm, 50, rfl⟩
abbrev main_cst_3 : Ref sig .tc := ⟨.hbm, 51, rfl⟩
abbrev main_v32 : Ref sig .tc := ⟨.hbm, 52, rfl⟩
abbrev main_v33 : Ref sig .tc := ⟨.hbm, 53, rfl⟩
abbrev main_v34 : Ref sig .tc := ⟨.hbm, 54, rfl⟩
abbrev main_v35 : Ref sig .tc := ⟨.hbm, 55, rfl⟩
abbrev main_v36 : Ref sig .tc := ⟨.hbm, 56, rfl⟩
abbrev main_v37 : Ref sig .tc := ⟨.hbm, 57, rfl⟩
abbrev main_v38 : Ref sig .tc := ⟨.hbm, 58, rfl⟩
abbrev main_v39 : Ref sig .tc := ⟨.hbm, 59, rfl⟩
abbrev main_v40 : Ref sig .tc := ⟨.hbm, 60, rfl⟩
abbrev main_v41 : Ref sig .tc := ⟨.hbm, 61, rfl⟩
abbrev main_v42 : Ref sig .tc := ⟨.hbm, 62, rfl⟩
abbrev main_v43 : Ref sig .tc := ⟨.hbm, 63, rfl⟩
abbrev main_v44 : Ref sig .tc := ⟨.hbm, 64, rfl⟩
abbrev main_v45 : Ref sig .tc := ⟨.hbm, 65, rfl⟩
abbrev main_c_4 : Ref sig .tc := ⟨.hbm, 66, rfl⟩
abbrev main_v46 : Ref sig .tc := ⟨.hbm, 67, rfl⟩
abbrev main_v47 : Ref sig .tc := ⟨.hbm, 68, rfl⟩
abbrev main_c_5 : Ref sig .tc := ⟨.hbm, 69, rfl⟩
abbrev main_v48 : Ref sig .tc := ⟨.hbm, 70, rfl⟩
abbrev main_v49 : Ref sig .tc := ⟨.hbm, 71, rfl⟩
abbrev main_v50 : Ref sig .tc := ⟨.hbm, 72, rfl⟩
abbrev main_v51 : Ref sig .tc := ⟨.hbm, 73, rfl⟩
abbrev main_v52 : Ref sig .tc := ⟨.hbm, 74, rfl⟩
abbrev main_cst_6 : Ref sig .tc := ⟨.hbm, 75, rfl⟩
abbrev main_v53 : Ref sig .tc := ⟨.hbm, 76, rfl⟩
abbrev main_v54 : Ref sig .tc := ⟨.hbm, 77, rfl⟩
abbrev main_v55 : Ref sig .tc := ⟨.hbm, 78, rfl⟩
abbrev main_v56 : Ref sig .tc := ⟨.hbm, 79, rfl⟩
abbrev main_v57 : Ref sig .tc := ⟨.hbm, 80, rfl⟩
abbrev main_v58 : Ref sig .tc := ⟨.hbm, 81, rfl⟩
abbrev main_v59 : Ref sig .tc := ⟨.hbm, 82, rfl⟩
abbrev main_v60 : Ref sig .tc := ⟨.hbm, 83, rfl⟩
abbrev main_v61 : Ref sig .tc := ⟨.hbm, 84, rfl⟩
abbrev main_v62 : Ref sig .tc := ⟨.hbm, 85, rfl⟩
abbrev main_v63 : Ref sig .tc := ⟨.hbm, 86, rfl⟩
abbrev main_v64 : Ref sig .tc := ⟨.hbm, 87, rfl⟩
abbrev main_v65 : Ref sig .tc := ⟨.hbm, 88, rfl⟩
abbrev main_v66 : Ref sig .tc := ⟨.hbm, 89, rfl⟩
abbrev main_cst_7 : Ref sig .tc := ⟨.hbm, 90, rfl⟩
abbrev main_v67 : Ref sig .tc := ⟨.hbm, 91, rfl⟩
abbrev main_v68 : Ref sig .tc := ⟨.hbm, 92, rfl⟩
abbrev main_v69 : Ref sig .tc := ⟨.hbm, 93, rfl⟩
abbrev main_cst_8 : Ref sig .tc := ⟨.hbm, 94, rfl⟩
abbrev main_v70 : Ref sig .tc := ⟨.hbm, 95, rfl⟩
abbrev main_v71 : Ref sig .tc := ⟨.hbm, 96, rfl⟩
abbrev main_v72 : Ref sig .tc := ⟨.hbm, 97, rfl⟩
abbrev main_v73 : Ref sig .tc := ⟨.hbm, 98, rfl⟩
abbrev main_v74 : Ref sig .tc := ⟨.hbm, 99, rfl⟩
abbrev main_v75 : Ref sig .tc := ⟨.hbm, 100, rfl⟩
abbrev main_v76 : Ref sig .tc := ⟨.hbm, 101, rfl⟩
abbrev main_call0_cst : Ref sig .tc := ⟨.hbm, 102, rfl⟩
abbrev main_call0_v0 : Ref sig .tc := ⟨.hbm, 103, rfl⟩
abbrev main_v77 : Ref sig .tc := ⟨.hbm, 104, rfl⟩
abbrev main_v78 : Ref sig .tc := ⟨.hbm, 105, rfl⟩
abbrev main_v79 : Ref sig .tc := ⟨.hbm, 106, rfl⟩
abbrev main_v80 : Ref sig .tc := ⟨.hbm, 107, rfl⟩
abbrev main_v81 : Ref sig .tc := ⟨.hbm, 108, rfl⟩
abbrev main_v82 : Ref sig .tc := ⟨.hbm, 109, rfl⟩
abbrev main_v83 : Ref sig .tc := ⟨.hbm, 110, rfl⟩
abbrev main_v84 : Ref sig .tc := ⟨.hbm, 111, rfl⟩
abbrev main_v85 : Ref sig .tc := ⟨.hbm, 112, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg3_0 : Ref sig .tc := ⟨.vmem, 5, rfl⟩
abbrev cc0_stg4_0 : Ref sig .tc := ⟨.vmem, 6, rfl⟩
abbrev cc0_stg5_0 : Ref sig .tc := ⟨.vmem, 7, rfl⟩
abbrev cc0_stg6_0 : Ref sig .tc := ⟨.vmem, 8, rfl⟩
abbrev cc0_stg6_1 : Ref sig .tc := ⟨.vmem, 9, rfl⟩
abbrev cc1_stg0_0 : Ref sig .tc := ⟨.vmem, 10, rfl⟩
abbrev cc1_stg0_1 : Ref sig .tc := ⟨.vmem, 11, rfl⟩
abbrev cc1_stg1_0 : Ref sig .tc := ⟨.vmem, 12, rfl⟩
abbrev cc1_stg1_1 : Ref sig .tc := ⟨.vmem, 13, rfl⟩
abbrev cc1_stg2_0 : Ref sig .tc := ⟨.vmem, 14, rfl⟩
abbrev cc1_stg3_0 : Ref sig .tc := ⟨.vmem, 15, rfl⟩
abbrev cc1_stg4_0 : Ref sig .tc := ⟨.vmem, 16, rfl⟩
abbrev cc1_stg5_0 : Ref sig .tc := ⟨.vmem, 17, rfl⟩
abbrev cc1_stg6_0 : Ref sig .tc := ⟨.vmem, 18, rfl⟩
abbrev cc1_stg6_1 : Ref sig .tc := ⟨.vmem, 19, rfl⟩
abbrev cc2_stg0_0 : Ref sig .tc := ⟨.vmem, 20, rfl⟩
abbrev cc2_stg0_1 : Ref sig .tc := ⟨.vmem, 21, rfl⟩
abbrev cc2_stg1_0 : Ref sig .tc := ⟨.vmem, 22, rfl⟩
abbrev cc2_stg1_1 : Ref sig .tc := ⟨.vmem, 23, rfl⟩
abbrev cc2_stg2_0 : Ref sig .tc := ⟨.vmem, 24, rfl⟩
abbrev cc2_stg3_0 : Ref sig .tc := ⟨.vmem, 25, rfl⟩
abbrev cc2_stg4_0 : Ref sig .tc := ⟨.vmem, 26, rfl⟩
abbrev cc2_stg5_0 : Ref sig .tc := ⟨.vmem, 27, rfl⟩
abbrev cc2_stg6_0 : Ref sig .tc := ⟨.vmem, 28, rfl⟩
abbrev cc2_stg6_1 : Ref sig .tc := ⟨.vmem, 29, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem3_0 : DmaSem sig := 5
abbrev cc0_sem4_0 : DmaSem sig := 6
abbrev cc0_sem5_0 : DmaSem sig := 7
abbrev cc0_sem6_0 : DmaSem sig := 8
abbrev cc0_sem6_1 : DmaSem sig := 9
abbrev cc1_sem0_0 : DmaSem sig := 10
abbrev cc1_sem0_1 : DmaSem sig := 11
abbrev cc1_sem1_0 : DmaSem sig := 12
abbrev cc1_sem1_1 : DmaSem sig := 13
abbrev cc1_sem2_0 : DmaSem sig := 14
abbrev cc1_sem3_0 : DmaSem sig := 15
abbrev cc1_sem4_0 : DmaSem sig := 16
abbrev cc1_sem5_0 : DmaSem sig := 17
abbrev cc1_sem6_0 : DmaSem sig := 18
abbrev cc1_sem6_1 : DmaSem sig := 19
abbrev cc2_sem0_0 : DmaSem sig := 20
abbrev cc2_sem0_1 : DmaSem sig := 21
abbrev cc2_sem1_0 : DmaSem sig := 22
abbrev cc2_sem1_1 : DmaSem sig := 23
abbrev cc2_sem2_0 : DmaSem sig := 24
abbrev cc2_sem3_0 : DmaSem sig := 25
abbrev cc2_sem4_0 : DmaSem sig := 26
abbrev cc2_sem5_0 : DmaSem sig := 27
abbrev cc2_sem6_0 : DmaSem sig := 28
abbrev cc2_sem6_1 : DmaSem sig := 29

abbrev nD : Nat := 1
abbrev τ : Topo := Topo.v7x

variable {F : FTy → Type} [FloatOps F]

abbrev grid0 : Pipeline.Grid := ⟨1, ![20], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_2 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_3 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_4 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_5 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_6 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S5000x64 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 2 → Memref sig .tc .vmem S5000x64 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 1 → Memref sig .tc .vmem S64x64 .f32 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![false]

abbrev stage0_3 : Fin 1 → Memref sig .tc .vmem S1x64 .f32 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![false]

abbrev stage0_4 : Fin 1 → Memref sig .tc .vmem S64x64 .f32 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))
abbrev reads0_4 : Fin grid0.rank → Bool := ![false]

abbrev stage0_5 : Fin 1 → Memref sig .tc .vmem S1x64 .f32 := fun | 0 => Memref.whole cc0_stg5_0 | ⟨_ + 1, h⟩ => absurd h (Nat.not_lt.2 (Nat.le_add_left _ _))
abbrev sem0_5 : Fin 1 → DmaSem sig := fun | 0 => cc0_sem5_0 | ⟨_ + 1, h⟩ => absurd h (Nat.not_lt.2 (Nat.le_add_left _ _))
abbrev reads0_5 : Fin grid0.rank → Bool := ![false]

abbrev stage0_6 : Fin 2 → Memref sig .tc .vmem S5000x64 .f32 := fun | 0 => Memref.whole cc0_stg6_0 | 1 => Memref.whole cc0_stg6_1 | ⟨_ + 2, h⟩ => absurd h (Nat.not_lt.2 (Nat.le_add_left _ _))
abbrev sem0_6 : Fin 2 → DmaSem sig := fun | 0 => cc0_sem6_0 | 1 => cc0_sem6_1 | ⟨_ + 2, h⟩ => absurd h (Nat.not_lt.2 (Nat.le_add_left _ _))
abbrev reads0_6 : Fin grid0.rank → Bool := ![true]

abbrev grid1 : Pipeline.Grid := ⟨1, ![20], ![false]⟩

def cc1_transform_0 (i : grid1.Coords) : Fin 2 → Nat :=
  let arg0 : BitVec 32 := BitVec.ofNat 32 (i 0).val
  let c0_i32 : BitVec 32 := 0#32
  let c0_i32_0 : BitVec 32 := 0#32
  ![arg0.toNat, c0_i32.toNat]

def cc1_transform_1 (i : grid1.Coords) : Fin 2 → Nat :=
  let arg0 : BitVec 32 := BitVec.ofNat 32 (i 0).val
  let c0_i32 : BitVec 32 := 0#32
  let c0_i32_0 : BitVec 32 := 0#32
  ![arg0.toNat, c0_i32.toNat]

def cc1_transform_2 (i : grid1.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc1_transform_3 (i : grid1.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc1_transform_4 (i : grid1.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc1_transform_5 (i : grid1.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc1_transform_6 (i : grid1.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage1_0 : Fin 2 → Memref sig .tc .vmem S5000x64 .f32 := fun | 0 => Memref.whole cc1_stg0_0 | 1 => Memref.whole cc1_stg0_1 | ⟨_ + 2, h⟩ => absurd h (Nat.not_lt.2 (Nat.le_add_left _ _))
abbrev sem1_0 : Fin 2 → DmaSem sig := fun | 0 => cc1_sem0_0 | 1 => cc1_sem0_1 | ⟨_ + 2, h⟩ => absurd h (Nat.not_lt.2 (Nat.le_add_left _ _))
abbrev reads1_0 : Fin grid1.rank → Bool := ![true]

abbrev stage1_1 : Fin 2 → Memref sig .tc .vmem S5000x64 .f32 := fun | 0 => Memref.whole cc1_stg1_0 | 1 => Memref.whole cc1_stg1_1 | ⟨_ + 2, h⟩ => absurd h (Nat.not_lt.2 (Nat.le_add_left _ _))
abbrev sem1_1 : Fin 2 → DmaSem sig := fun | 0 => cc1_sem1_0 | 1 => cc1_sem1_1 | ⟨_ + 2, h⟩ => absurd h (Nat.not_lt.2 (Nat.le_add_left _ _))
abbrev reads1_1 : Fin grid1.rank → Bool := ![true]

abbrev stage1_2 : Fin 1 → Memref sig .tc .vmem S64x64 .f32 := fun | 0 => Memref.whole cc1_stg2_0 | ⟨_ + 1, h⟩ => absurd h (Nat.not_lt.2 (Nat.le_add_left _ _))
abbrev sem1_2 : Fin 1 → DmaSem sig := fun | 0 => cc1_sem2_0 | ⟨_ + 1, h⟩ => absurd h (Nat.not_lt.2 (Nat.le_add_left _ _))
abbrev reads1_2 : Fin grid1.rank → Bool := ![false]

abbrev stage1_3 : Fin 1 → Memref sig .tc .vmem S1x64 .f32 := fun | 0 => Memref.whole cc1_stg3_0 | ⟨_ + 1, h⟩ => absurd h (Nat.not_lt.2 (Nat.le_add_left _ _))
abbrev sem1_3 : Fin 1 → DmaSem sig := fun | 0 => cc1_sem3_0 | ⟨_ + 1, h⟩ => absurd h (Nat.not_lt.2 (Nat.le_add_left _ _))
abbrev reads1_3 : Fin grid1.rank → Bool := ![false]

abbrev stage1_4 : Fin 1 → Memref sig .tc .vmem S64x64 .f32 := fun | 0 => Memref.whole cc1_stg4_0 | ⟨_ + 1, h⟩ => absurd h (Nat.not_lt.2 (Nat.le_add_left _ _))
abbrev sem1_4 : Fin 1 → DmaSem sig := fun | 0 => cc1_sem4_0 | ⟨_ + 1, h⟩ => absurd h (Nat.not_lt.2 (Nat.le_add_left _ _))
abbrev reads1_4 : Fin grid1.rank → Bool := ![false]

abbrev stage1_5 : Fin 1 → Memref sig .tc .vmem S1x64 .f32 := fun | 0 => Memref.whole cc1_stg5_0 | ⟨_ + 1, h⟩ => absurd h (Nat.not_lt.2 (Nat.le_add_left _ _))
abbrev sem1_5 : Fin 1 → DmaSem sig := fun | 0 => cc1_sem5_0 | ⟨_ + 1, h⟩ => absurd h (Nat.not_lt.2 (Nat.le_add_left _ _))
abbrev reads1_5 : Fin grid1.rank → Bool := ![false]

abbrev stage1_6 : Fin 2 → Memref sig .tc .vmem S5000x64 .f32 := fun | 0 => Memref.whole cc1_stg6_0 | 1 => Memref.whole cc1_stg6_1 | ⟨_ + 2, h⟩ => absurd h (Nat.not_lt.2 (Nat.le_add_left _ _))
abbrev sem1_6 : Fin 2 → DmaSem sig := fun | 0 => cc1_sem6_0 | 1 => cc1_sem6_1 | ⟨_ + 2, h⟩ => absurd h (Nat.not_lt.2 (Nat.le_add_left _ _))
abbrev reads1_6 : Fin grid1.rank → Bool := ![true]

abbrev grid2 : Pipeline.Grid := ⟨1, ![20], ![false]⟩

def cc2_transform_0 (i : grid2.Coords) : Fin 2 → Nat :=
  let arg0 : BitVec 32 := BitVec.ofNat 32 (i 0).val
  let c0_i32 : BitVec 32 := 0#32
  let c0_i32_0 : BitVec 32 := 0#32
  ![arg0.toNat, c0_i32.toNat]

def cc2_transform_1 (i : grid2.Coords) : Fin 2 → Nat :=
  let arg0 : BitVec 32 := BitVec.ofNat 32 (i 0).val
  let c0_i32 : BitVec 32 := 0#32
  let c0_i32_0 : BitVec 32 := 0#32
  ![arg0.toNat, c0_i32.toNat]

def cc2_transform_2 (i : grid2.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc2_transform_3 (i : grid2.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc2_transform_4 (i : grid2.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc2_transform_5 (i : grid2.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc2_transform_6 (i : grid2.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage2_0 : Fin 2 → Memref sig .tc .vmem S5000x64 .f32 := fun | 0 => Memref.whole cc2_stg0_0 | 1 => Memref.whole cc2_stg0_1 | ⟨_ + 2, h⟩ => absurd h (Nat.not_lt.2 (Nat.le_add_left _ _))
abbrev sem2_0 : Fin 2 → DmaSem sig := fun | 0 => cc2_sem0_0 | 1 => cc2_sem0_1 | ⟨_ + 2, h⟩ => absurd h (Nat.not_lt.2 (Nat.le_add_left _ _))
abbrev reads2_0 : Fin grid2.rank → Bool := ![true]

abbrev stage2_1 : Fin 2 → Memref sig .tc .vmem S5000x64 .f32 := fun | 0 => Memref.whole cc2_stg1_0 | 1 => Memref.whole cc2_stg1_1 | ⟨_ + 2, h⟩ => absurd h (Nat.not_lt.2 (Nat.le_add_left _ _))
abbrev sem2_1 : Fin 2 → DmaSem sig := fun | 0 => cc2_sem1_0 | 1 => cc2_sem1_1 | ⟨_ + 2, h⟩ => absurd h (Nat.not_lt.2 (Nat.le_add_left _ _))
abbrev reads2_1 : Fin grid2.rank → Bool := ![true]

abbrev stage2_2 : Fin 1 → Memref sig .tc .vmem S64x64 .f32 := fun | 0 => Memref.whole cc2_stg2_0 | ⟨_ + 1, h⟩ => absurd h (Nat.not_lt.2 (Nat.le_add_left _ _))
abbrev sem2_2 : Fin 1 → DmaSem sig := fun | 0 => cc2_sem2_0 | ⟨_ + 1, h⟩ => absurd h (Nat.not_lt.2 (Nat.le_add_left _ _))
abbrev reads2_2 : Fin grid2.rank → Bool := ![false]

abbrev stage2_3 : Fin 1 → Memref sig .tc .vmem S1x64 .f32 := fun | 0 => Memref.whole cc2_stg3_0 | ⟨_ + 1, h⟩ => absurd h (Nat.not_lt.2 (Nat.le_add_left _ _))
abbrev sem2_3 : Fin 1 → DmaSem sig := fun | 0 => cc2_sem3_0 | ⟨_ + 1, h⟩ => absurd h (Nat.not_lt.2 (Nat.le_add_left _ _))
abbrev reads2_3 : Fin grid2.rank → Bool := ![false]

abbrev stage2_4 : Fin 1 → Memref sig .tc .vmem S64x64 .f32 := fun | 0 => Memref.whole cc2_stg4_0 | ⟨_ + 1, h⟩ => absurd h (Nat.not_lt.2 (Nat.le_add_left _ _))
abbrev sem2_4 : Fin 1 → DmaSem sig := fun | 0 => cc2_sem4_0 | ⟨_ + 1, h⟩ => absurd h (Nat.not_lt.2 (Nat.le_add_left _ _))
abbrev reads2_4 : Fin grid2.rank → Bool := ![false]

abbrev stage2_5 : Fin 1 → Memref sig .tc .vmem S1x64 .f32 := fun | 0 => Memref.whole cc2_stg5_0 | ⟨_ + 1, h⟩ => absurd h (Nat.not_lt.2 (Nat.le_add_left _ _))
abbrev sem2_5 : Fin 1 → DmaSem sig := fun | 0 => cc2_sem5_0 | ⟨_ + 1, h⟩ => absurd h (Nat.not_lt.2 (Nat.le_add_left _ _))
abbrev reads2_5 : Fin grid2.rank → Bool := ![false]

abbrev stage2_6 : Fin 2 → Memref sig .tc .vmem S5000x64 .f32 := fun | 0 => Memref.whole cc2_stg6_0 | 1 => Memref.whole cc2_stg6_1 | ⟨_ + 2, h⟩ => absurd h (Nat.not_lt.2 (Nat.le_add_left _ _))
abbrev sem2_6 : Fin 2 → DmaSem sig := fun | 0 => cc2_sem6_0 | 1 => cc2_sem6_1 | ⟨_ + 2, h⟩ => absurd h (Nat.not_lt.2 (Nat.le_add_left _ _))
abbrev reads2_6 : Fin grid2.rank → Bool := ![true]

class Facts₀ : Prop where
  slices_S2x1000000_S1x1000000_0_0 : S2x1000000.Slices ![0, 0] S1x1000000
  shapeCasts_S1x1000000_S1000000 : S1x1000000.ShapeCasts S1000000
  slices_S2x1000000_S1x1000000_1_0 : S2x1000000.Slices ![1, 0] S1x1000000
  bcast_S_S1000000 : S_.BroadcastsInDim S1000000 (![] : Fin 0 → Fin S1000000.rank)
  bcast_S1000000_S1000000x1_0 : S1000000.BroadcastsInDim S1000000x1 (![0] : Fin 1 → Fin S1000000x1.rank)
  bcast_S_S100000x64 : S_.BroadcastsInDim S100000x64 (![] : Fin 0 → Fin S100000x64.rank)
  slices_S3x64x64_S1x64x64_0_0_0 : S3x64x64.Slices ![0, 0, 0] S1x64x64
  shapeCasts_S1x64x64_S64x64 : S1x64x64.ShapeCasts S64x64
  slices_S3x64_S1x64_0_0 : S3x64.Slices ![0, 0] S1x64
  shapeCasts_S1x64_S64 : S1x64.ShapeCasts S64
  shapeCasts_S64_S1x64 : S64.ShapeCasts S1x64
  inb_S5000x64_S5000x64_0_0 : ∀ a, (![0, 0] : Fin 2 → Nat) a + S5000x64.size a ≤ S5000x64.size a
  h_S5000x64 : 0 < S5000x64.numel
  shapeCasts_S5000x64_S5000x64 : S5000x64.ShapeCasts S5000x64
  bitsLt_bf16_f32 : FTy.bits .bf16 < FTy.bits .f32
  inb_S64x64_S64x64_0_0 : ∀ a, (![0, 0] : Fin 2 → Nat) a + S64x64.size a ≤ S64x64.size a
  h_S64x64 : 0 < S64x64.numel
  shapeCasts_S64x64_S64x64 : S64x64.ShapeCasts S64x64
  inb_S1x64_S1x64_0_0 : ∀ a, (![0, 0] : Fin 2 → Nat) a + S1x64.size a ≤ S1x64.size a
  h_S1x64 : 0 < S1x64.numel
  shapeCasts_S1x64_S1x64 : S1x64.ShapeCasts S1x64
  broadcasts_S1x64_S5000x64 : S1x64.Broadcasts S5000x64
  slices_S3x64x64_S1x64x64_1_0_0 : S3x64x64.Slices ![1, 0, 0] S1x64x64
  slices_S3x64_S1x64_1_0 : S3x64.Slices ![1, 0] S1x64
  slices_S3x64x64_S1x64x64_2_0_0 : S3x64x64.Slices ![2, 0, 0] S1x64x64
  slices_S3x64_S1x64_2_0 : S3x64.Slices ![2, 0] S1x64
  bcast_S_S10000x64 : S_.BroadcastsInDim S10000x64 (![] : Fin 0 → Fin S10000x64.rank)
  bcast_S100000_S100000x1_0 : S100000.BroadcastsInDim S100000x1 (![0] : Fin 1 → Fin S100000x1.rank)
  bcast_S_S500x64 : S_.BroadcastsInDim S500x64 (![] : Fin 0 → Fin S500x64.rank)
  bcast_S10000_S10000x1_0 : S10000.BroadcastsInDim S10000x1 (![0] : Fin 1 → Fin S10000x1.rank)
  bcast_S64_S1x64_1 : S64.BroadcastsInDim S1x64 (![1] : Fin 1 → Fin S1x64.rank)
  bcast_S1x64_S500x64_0_1 : S1x64.BroadcastsInDim S500x64 (![0, 1] : Fin 2 → Fin S500x64.rank)
  bcast_S1_S1x1_1 : S1.BroadcastsInDim S1x1 (![1] : Fin 1 → Fin S1x1.rank)
  bcast_S1x1_S500x1_0_1 : S1x1.BroadcastsInDim S500x1 (![0, 1] : Fin 2 → Fin S500x1.rank)
  gather_S100000x64_S1000000x1_S1000000x64_1_0_n_n_0_1_164_wf : GatherDims.WF S100000x64 S1000000x1 S1000000x64 [1] [0] [] [0] [] 1 ![1, 64]
  scatter_S100000x64_S1000000x1_S1000000x64_1_0_0_1_wf : ScatterDims.WF S100000x64 S1000000x1 S1000000x64 [1] [0] [0] 1
  dot_S5000x64_S64x64_S5000x64_1_0_0_1_n_n_wf : DotDims.WF S5000x64 S64x64 S5000x64 [1] [0] [0] [1] [] []
  scatter_S10000x64_S100000x1_S100000x64_1_0_0_1_wf : ScatterDims.WF S10000x64 S100000x1 S100000x64 [1] [0] [0] 1
  scatter_S500x64_S10000x1_S10000x64_1_0_0_1_wf : ScatterDims.WF S500x64 S10000x1 S10000x64 [1] [0] [0] 1
  dot_S500x64_S64x64_S500x64_1_0_0_1_n_n_wf : DotDims.WF S500x64 S64x64 S500x64 [1] [0] [0] [1] [] []
  dot_S500x64_S64x1_S500x1_1_0_0_1_n_n_wf : DotDims.WF S500x64 S64x1 S500x1 [1] [0] [0] [1] [] []
  hrank0 : 0 < grid0.rank
  hstage0_0 : ∀ j, (stage0_0 j).IsWhole
  nbuf0_0 : grid0.bufCount reads0_0 false = 2
  hreads0_0 : ∀ i i' : grid0.Coords, (∀ a, reads0_0 a = true → i a = i' a) → cc0_transform_0 i = cc0_transform_0 i'
  hinb0_0 : ∀ (i : grid0.Coords) a, (cc0_transform_0 i a + 1) * S5000x64.size a ≤ S100000x64.size a
  hwx0_0 : ∀ i : grid0.Coords, EltTy.bits .f32 = 32 ∨ (Rect.block (s := S100000x64) S5000x64.size (cc0_transform_0 i) (hinb0_0 i)).WholeWords (EltTy.packing .f32)
  hstage0_1 : ∀ j, (stage0_1 j).IsWhole
  nbuf0_1 : grid0.bufCount reads0_1 false = 2
  hreads0_1 : ∀ i i' : grid0.Coords, (∀ a, reads0_1 a = true → i a = i' a) → cc0_transform_1 i = cc0_transform_1 i'
  hinb0_1 : ∀ (i : grid0.Coords) a, (cc0_transform_1 i a + 1) * S5000x64.size a ≤ S100000x64.size a
  hwx0_1 : ∀ i : grid0.Coords, EltTy.bits .f32 = 32 ∨ (Rect.block (s := S100000x64) S5000x64.size (cc0_transform_1 i) (hinb0_1 i)).WholeWords (EltTy.packing .f32)
  hstage0_2 : ∀ j, (stage0_2 j).IsWhole
  nbuf0_2 : grid0.bufCount reads0_2 true = 1
  hreads0_2 : ∀ i i' : grid0.Coords, (∀ a, reads0_2 a = true → i a = i' a) → cc0_transform_2 i = cc0_transform_2 i'
  hinb0_2 : ∀ (i : grid0.Coords) a, (cc0_transform_2 i a + 1) * S64x64.size a ≤ S64x64.size a
  hwx0_2 : ∀ i : grid0.Coords, EltTy.bits .f32 = 32 ∨ (Rect.block (s := S64x64) S64x64.size (cc0_transform_2 i) (hinb0_2 i)).WholeWords (EltTy.packing .f32)
  hstage0_3 : ∀ j, (stage0_3 j).IsWhole
  nbuf0_3 : grid0.bufCount reads0_3 true = 1
  hreads0_3 : ∀ i i' : grid0.Coords, (∀ a, reads0_3 a = true → i a = i' a) → cc0_transform_3 i = cc0_transform_3 i'
  hinb0_3 : ∀ (i : grid0.Coords) a, (cc0_transform_3 i a + 1) * S1x64.size a ≤ S1x64.size a
  hwx0_3 : ∀ i : grid0.Coords, EltTy.bits .f32 = 32 ∨ (Rect.block (s := S1x64) S1x64.size (cc0_transform_3 i) (hinb0_3 i)).WholeWords (EltTy.packing .f32)
  hstage0_4 : ∀ j, (stage0_4 j).IsWhole
  nbuf0_4 : grid0.bufCount reads0_4 true = 1
  hreads0_4 : ∀ i i' : grid0.Coords, (∀ a, reads0_4 a = true → i a = i' a) → cc0_transform_4 i = cc0_transform_4 i'
  hinb0_4 : ∀ (i : grid0.Coords) a, (cc0_transform_4 i a + 1) * S64x64.size a ≤ S64x64.size a
  hwx0_4 : ∀ i : grid0.Coords, EltTy.bits .f32 = 32 ∨ (Rect.block (s := S64x64) S64x64.size (cc0_transform_4 i) (hinb0_4 i)).WholeWords (EltTy.packing .f32)
  hstage0_5 : ∀ j, (stage0_5 j).IsWhole
  nbuf0_5 : grid0.bufCount reads0_5 true = 1
  hreads0_5 : ∀ i i' : grid0.Coords, (∀ a, reads0_5 a = true → i a = i' a) → cc0_transform_5 i = cc0_transform_5 i'
  hinb0_5 : ∀ (i : grid0.Coords) a, (cc0_transform_5 i a + 1) * S1x64.size a ≤ S1x64.size a
  hwx0_5 : ∀ i : grid0.Coords, EltTy.bits .f32 = 32 ∨ (Rect.block (s := S1x64) S1x64.size (cc0_transform_5 i) (hinb0_5 i)).WholeWords (EltTy.packing .f32)
  hstage0_6 : ∀ j, (stage0_6 j).IsWhole
  nbuf0_6 : grid0.bufCount reads0_6 false = 2
  hreads0_6 : ∀ i i' : grid0.Coords, (∀ a, reads0_6 a = true → i a = i' a) → cc0_transform_6 i = cc0_transform_6 i'
  hinb0_6 : ∀ (i : grid0.Coords) a, (cc0_transform_6 i a + 1) * S5000x64.size a ≤ S100000x64.size a
  hwx0_6 : ∀ i : grid0.Coords, EltTy.bits .f32 = 32 ∨ (Rect.block (s := S100000x64) S5000x64.size (cc0_transform_6 i) (hinb0_6 i)).WholeWords (EltTy.packing .f32)
  hrank1 : 0 < grid1.rank
  hstage1_0 : ∀ j, (stage1_0 j).IsWhole
  nbuf1_0 : grid1.bufCount reads1_0 false = 2
  hreads1_0 : ∀ i i' : grid1.Coords, (∀ a, reads1_0 a = true → i a = i' a) → cc1_transform_0 i = cc1_transform_0 i'
  hinb1_0 : ∀ (i : grid1.Coords) a, (cc1_transform_0 i a + 1) * S5000x64.size a ≤ S100000x64.size a
  hwx1_0 : ∀ i : grid1.Coords, EltTy.bits .f32 = 32 ∨ (Rect.block (s := S100000x64) S5000x64.size (cc1_transform_0 i) (hinb1_0 i)).WholeWords (EltTy.packing .f32)
  hstage1_1 : ∀ j, (stage1_1 j).IsWhole
  nbuf1_1 : grid1.bufCount reads1_1 false = 2
  hreads1_1 : ∀ i i' : grid1.Coords, (∀ a, reads1_1 a = true → i a = i' a) → cc1_transform_1 i = cc1_transform_1 i'
  hinb1_1 : ∀ (i : grid1.Coords) a, (cc1_transform_1 i a + 1) * S5000x64.size a ≤ S100000x64.size a
  hwx1_1 : ∀ i : grid1.Coords, EltTy.bits .f32 = 32 ∨ (Rect.block (s := S100000x64) S5000x64.size (cc1_transform_1 i) (hinb1_1 i)).WholeWords (EltTy.packing .f32)
  hstage1_2 : ∀ j, (stage1_2 j).IsWhole
  nbuf1_2 : grid1.bufCount reads1_2 true = 1
  hreads1_2 : ∀ i i' : grid1.Coords, (∀ a, reads1_2 a = true → i a = i' a) → cc1_transform_2 i = cc1_transform_2 i'
  hinb1_2 : ∀ (i : grid1.Coords) a, (cc1_transform_2 i a + 1) * S64x64.size a ≤ S64x64.size a
  hwx1_2 : ∀ i : grid1.Coords, EltTy.bits .f32 = 32 ∨ (Rect.block (s := S64x64) S64x64.size (cc1_transform_2 i) (hinb1_2 i)).WholeWords (EltTy.packing .f32)
  hstage1_3 : ∀ j, (stage1_3 j).IsWhole
  nbuf1_3 : grid1.bufCount reads1_3 true = 1
  hreads1_3 : ∀ i i' : grid1.Coords, (∀ a, reads1_3 a = true → i a = i' a) → cc1_transform_3 i = cc1_transform_3 i'
  hinb1_3 : ∀ (i : grid1.Coords) a, (cc1_transform_3 i a + 1) * S1x64.size a ≤ S1x64.size a
  hwx1_3 : ∀ i : grid1.Coords, EltTy.bits .f32 = 32 ∨ (Rect.block (s := S1x64) S1x64.size (cc1_transform_3 i) (hinb1_3 i)).WholeWords (EltTy.packing .f32)
  hstage1_4 : ∀ j, (stage1_4 j).IsWhole
  nbuf1_4 : grid1.bufCount reads1_4 true = 1
  hreads1_4 : ∀ i i' : grid1.Coords, (∀ a, reads1_4 a = true → i a = i' a) → cc1_transform_4 i = cc1_transform_4 i'
  hinb1_4 : ∀ (i : grid1.Coords) a, (cc1_transform_4 i a + 1) * S64x64.size a ≤ S64x64.size a
  hwx1_4 : ∀ i : grid1.Coords, EltTy.bits .f32 = 32 ∨ (Rect.block (s := S64x64) S64x64.size (cc1_transform_4 i) (hinb1_4 i)).WholeWords (EltTy.packing .f32)
  hstage1_5 : ∀ j, (stage1_5 j).IsWhole
  nbuf1_5 : grid1.bufCount reads1_5 true = 1
  hreads1_5 : ∀ i i' : grid1.Coords, (∀ a, reads1_5 a = true → i a = i' a) → cc1_transform_5 i = cc1_transform_5 i'
  hinb1_5 : ∀ (i : grid1.Coords) a, (cc1_transform_5 i a + 1) * S1x64.size a ≤ S1x64.size a
  hwx1_5 : ∀ i : grid1.Coords, EltTy.bits .f32 = 32 ∨ (Rect.block (s := S1x64) S1x64.size (cc1_transform_5 i) (hinb1_5 i)).WholeWords (EltTy.packing .f32)
  hstage1_6 : ∀ j, (stage1_6 j).IsWhole
  nbuf1_6 : grid1.bufCount reads1_6 false = 2
  hreads1_6 : ∀ i i' : grid1.Coords, (∀ a, reads1_6 a = true → i a = i' a) → cc1_transform_6 i = cc1_transform_6 i'
  hinb1_6 : ∀ (i : grid1.Coords) a, (cc1_transform_6 i a + 1) * S5000x64.size a ≤ S100000x64.size a
  hwx1_6 : ∀ i : grid1.Coords, EltTy.bits .f32 = 32 ∨ (Rect.block (s := S100000x64) S5000x64.size (cc1_transform_6 i) (hinb1_6 i)).WholeWords (EltTy.packing .f32)
  hrank2 : 0 < grid2.rank
  hstage2_0 : ∀ j, (stage2_0 j).IsWhole
  nbuf2_0 : grid2.bufCount reads2_0 false = 2
  hreads2_0 : ∀ i i' : grid2.Coords, (∀ a, reads2_0 a = true → i a = i' a) → cc2_transform_0 i = cc2_transform_0 i'
  hinb2_0 : ∀ (i : grid2.Coords) a, (cc2_transform_0 i a + 1) * S5000x64.size a ≤ S100000x64.size a
  hwx2_0 : ∀ i : grid2.Coords, EltTy.bits .f32 = 32 ∨ (Rect.block (s := S100000x64) S5000x64.size (cc2_transform_0 i) (hinb2_0 i)).WholeWords (EltTy.packing .f32)
  hstage2_1 : ∀ j, (stage2_1 j).IsWhole
  nbuf2_1 : grid2.bufCount reads2_1 false = 2
  hreads2_1 : ∀ i i' : grid2.Coords, (∀ a, reads2_1 a = true → i a = i' a) → cc2_transform_1 i = cc2_transform_1 i'
  hinb2_1 : ∀ (i : grid2.Coords) a, (cc2_transform_1 i a + 1) * S5000x64.size a ≤ S100000x64.size a
  hwx2_1 : ∀ i : grid2.Coords, EltTy.bits .f32 = 32 ∨ (Rect.block (s := S100000x64) S5000x64.size (cc2_transform_1 i) (hinb2_1 i)).WholeWords (EltTy.packing .f32)
  hstage2_2 : ∀ j, (stage2_2 j).IsWhole
  nbuf2_2 : grid2.bufCount reads2_2 true = 1
  hreads2_2 : ∀ i i' : grid2.Coords, (∀ a, reads2_2 a = true → i a = i' a) → cc2_transform_2 i = cc2_transform_2 i'
  hinb2_2 : ∀ (i : grid2.Coords) a, (cc2_transform_2 i a + 1) * S64x64.size a ≤ S64x64.size a
  hwx2_2 : ∀ i : grid2.Coords, EltTy.bits .f32 = 32 ∨ (Rect.block (s := S64x64) S64x64.size (cc2_transform_2 i) (hinb2_2 i)).WholeWords (EltTy.packing .f32)
  hstage2_3 : ∀ j, (stage2_3 j).IsWhole
  nbuf2_3 : grid2.bufCount reads2_3 true = 1
  hreads2_3 : ∀ i i' : grid2.Coords, (∀ a, reads2_3 a = true → i a = i' a) → cc2_transform_3 i = cc2_transform_3 i'
  hinb2_3 : ∀ (i : grid2.Coords) a, (cc2_transform_3 i a + 1) * S1x64.size a ≤ S1x64.size a
  hwx2_3 : ∀ i : grid2.Coords, EltTy.bits .f32 = 32 ∨ (Rect.block (s := S1x64) S1x64.size (cc2_transform_3 i) (hinb2_3 i)).WholeWords (EltTy.packing .f32)
  hstage2_4 : ∀ j, (stage2_4 j).IsWhole
  nbuf2_4 : grid2.bufCount reads2_4 true = 1
  hreads2_4 : ∀ i i' : grid2.Coords, (∀ a, reads2_4 a = true → i a = i' a) → cc2_transform_4 i = cc2_transform_4 i'
  hinb2_4 : ∀ (i : grid2.Coords) a, (cc2_transform_4 i a + 1) * S64x64.size a ≤ S64x64.size a
  hwx2_4 : ∀ i : grid2.Coords, EltTy.bits .f32 = 32 ∨ (Rect.block (s := S64x64) S64x64.size (cc2_transform_4 i) (hinb2_4 i)).WholeWords (EltTy.packing .f32)
  hstage2_5 : ∀ j, (stage2_5 j).IsWhole
  nbuf2_5 : grid2.bufCount reads2_5 true = 1
  hreads2_5 : ∀ i i' : grid2.Coords, (∀ a, reads2_5 a = true → i a = i' a) → cc2_transform_5 i = cc2_transform_5 i'
  hinb2_5 : ∀ (i : grid2.Coords) a, (cc2_transform_5 i a + 1) * S1x64.size a ≤ S1x64.size a
  hwx2_5 : ∀ i : grid2.Coords, EltTy.bits .f32 = 32 ∨ (Rect.block (s := S1x64) S1x64.size (cc2_transform_5 i) (hinb2_5 i)).WholeWords (EltTy.packing .f32)
  hstage2_6 : ∀ j, (stage2_6 j).IsWhole
  nbuf2_6 : grid2.bufCount reads2_6 false = 2
  hreads2_6 : ∀ i i' : grid2.Coords, (∀ a, reads2_6 a = true → i a = i' a) → cc2_transform_6 i = cc2_transform_6 i'
  hinb2_6 : ∀ (i : grid2.Coords) a, (cc2_transform_6 i a + 1) * S5000x64.size a ≤ S100000x64.size a
  hwx2_6 : ∀ i : grid2.Coords, EltTy.bits .f32 = 32 ∨ (Rect.block (s := S100000x64) S5000x64.size (cc2_transform_6 i) (hinb2_6 i)).WholeWords (EltTy.packing .f32)

variable [Facts₀]

def gather_S100000x64_S1000000x1_S1000000x64_1_0_n_n_0_1_164 : GatherDims S100000x64 S1000000x1 S1000000x64 where
  offsetDims := [1]
  collapsedSliceDims := [0]
  operandBatchingDims := []
  startIndicesBatchingDims := []
  startIndexMap := [0]
  indexVectorDim := 1
  sliceSizes := ![1, 64]
  wf := gather_S100000x64_S1000000x1_S1000000x64_1_0_n_n_0_1_164_wf
def scatter_S100000x64_S1000000x1_S1000000x64_1_0_0_1 : ScatterDims S100000x64 S1000000x1 S1000000x64 where
  updateWindowDims := [1]
  insertedWindowDims := [0]
  scatterDimsToOperandDims := [0]
  indexVectorDim := 1
  wf := scatter_S100000x64_S1000000x1_S1000000x64_1_0_0_1_wf
def dot_S5000x64_S64x64_S5000x64_1_0_0_1_n_n : DotDims S5000x64 S64x64 S5000x64 where
  lhsContracting := [1]
  rhsContracting := [0]
  lhsNonContracting := [0]
  rhsNonContracting := [1]
  lhsBatch := []
  rhsBatch := []
  wf := dot_S5000x64_S64x64_S5000x64_1_0_0_1_n_n_wf
def scatter_S10000x64_S100000x1_S100000x64_1_0_0_1 : ScatterDims S10000x64 S100000x1 S100000x64 where
  updateWindowDims := [1]
  insertedWindowDims := [0]
  scatterDimsToOperandDims := [0]
  indexVectorDim := 1
  wf := scatter_S10000x64_S100000x1_S100000x64_1_0_0_1_wf
def scatter_S500x64_S10000x1_S10000x64_1_0_0_1 : ScatterDims S500x64 S10000x1 S10000x64 where
  updateWindowDims := [1]
  insertedWindowDims := [0]
  scatterDimsToOperandDims := [0]
  indexVectorDim := 1
  wf := scatter_S500x64_S10000x1_S10000x64_1_0_0_1_wf
def dot_S500x64_S64x64_S500x64_1_0_0_1_n_n : DotDims S500x64 S64x64 S500x64 where
  lhsContracting := [1]
  rhsContracting := [0]
  lhsNonContracting := [0]
  rhsNonContracting := [1]
  lhsBatch := []
  rhsBatch := []
  wf := dot_S500x64_S64x64_S500x64_1_0_0_1_n_n_wf
def dot_S500x64_S64x1_S500x1_1_0_0_1_n_n : DotDims S500x64 S64x1 S500x1 where
  lhsContracting := [1]
  rhsContracting := [0]
  lhsNonContracting := [0]
  rhsNonContracting := [1]
  lhsBatch := []
  rhsBatch := []
  wf := dot_S500x64_S64x1_S500x1_1_0_0_1_n_n_wf

abbrev win0_0 : Pipeline.Window sig grid0 :=
  Pipeline.Window.ofSpec (Memref.whole main_arg0) S5000x64.size cc0_transform_0 reads0_0 false false 2 stage0_0 sem0_0
    hrank0 hreads0_0 hinb0_0 nbuf0_0 (Memref.isWhole_whole _) hwx0_0 hstage0_0

abbrev win0_1 : Pipeline.Window sig grid0 :=
  Pipeline.Window.ofSpec (Memref.whole main_v13) S5000x64.size cc0_transform_1 reads0_1 false false 2 stage0_1 sem0_1
    hrank0 hreads0_1 hinb0_1 nbuf0_1 (Memref.isWhole_whole _) hwx0_1 hstage0_1

abbrev win0_2 : Pipeline.Window sig grid0 :=
  Pipeline.Window.ofSpec (Memref.whole main_v15) S64x64.size cc0_transform_2 reads0_2 false true 1 stage0_2 sem0_2
    hrank0 hreads0_2 hinb0_2 nbuf0_2 (Memref.isWhole_whole _) hwx0_2 hstage0_2

abbrev win0_3 : Pipeline.Window sig grid0 :=
  Pipeline.Window.ofSpec (Memref.whole main_v22) S1x64.size cc0_transform_3 reads0_3 false true 1 stage0_3 sem0_3
    hrank0 hreads0_3 hinb0_3 nbuf0_3 (Memref.isWhole_whole _) hwx0_3 hstage0_3

abbrev win0_4 : Pipeline.Window sig grid0 :=
  Pipeline.Window.ofSpec (Memref.whole main_v19) S64x64.size cc0_transform_4 reads0_4 false true 1 stage0_4 sem0_4
    hrank0 hreads0_4 hinb0_4 nbuf0_4 (Memref.isWhole_whole _) hwx0_4 hstage0_4

abbrev win0_5 : Pipeline.Window sig grid0 :=
  Pipeline.Window.ofSpec (Memref.whole main_v23) S1x64.size cc0_transform_5 reads0_5 false true 1 stage0_5 sem0_5
    hrank0 hreads0_5 hinb0_5 nbuf0_5 (Memref.isWhole_whole _) hwx0_5 hstage0_5

abbrev win0_6 : Pipeline.Window sig grid0 :=
  Pipeline.Window.ofSpec (Memref.whole main_v24) S5000x64.size cc0_transform_6 reads0_6 true false 2 stage0_6 sem0_6
    hrank0 hreads0_6 hinb0_6 nbuf0_6 (Memref.isWhole_whole _) hwx0_6 hstage0_6

abbrev win0 : Fin 7 → Pipeline.Window sig grid0 := fun | 0 => win0_0 | 1 => win0_1 | 2 => win0_2 | 3 => win0_3 | 4 => win0_4 | 5 => win0_5 | 6 => win0_6 | ⟨_ + 7, h⟩ => absurd h (Nat.not_lt.2 (Nat.le_add_left _ _))
abbrev spec0 : Fin 7 → Pipeline.WinSpec sig grid0.rank := fun w => (win0 w).toWinSpec

abbrev win1_0 : Pipeline.Window sig grid1 :=
  Pipeline.Window.ofSpec (Memref.whole main_v24) S5000x64.size cc1_transform_0 reads1_0 false false 2 stage1_0 sem1_0
    hrank1 hreads1_0 hinb1_0 nbuf1_0 (Memref.isWhole_whole _) hwx1_0 hstage1_0

abbrev win1_1 : Pipeline.Window sig grid1 :=
  Pipeline.Window.ofSpec (Memref.whole main_v34) S5000x64.size cc1_transform_1 reads1_1 false false 2 stage1_1 sem1_1
    hrank1 hreads1_1 hinb1_1 nbuf1_1 (Memref.isWhole_whole _) hwx1_1 hstage1_1

abbrev win1_2 : Pipeline.Window sig grid1 :=
  Pipeline.Window.ofSpec (Memref.whole main_v36) S64x64.size cc1_transform_2 reads1_2 false true 1 stage1_2 sem1_2
    hrank1 hreads1_2 hinb1_2 nbuf1_2 (Memref.isWhole_whole _) hwx1_2 hstage1_2

abbrev win1_3 : Pipeline.Window sig grid1 :=
  Pipeline.Window.ofSpec (Memref.whole main_v43) S1x64.size cc1_transform_3 reads1_3 false true 1 stage1_3 sem1_3
    hrank1 hreads1_3 hinb1_3 nbuf1_3 (Memref.isWhole_whole _) hwx1_3 hstage1_3

abbrev win1_4 : Pipeline.Window sig grid1 :=
  Pipeline.Window.ofSpec (Memref.whole main_v40) S64x64.size cc1_transform_4 reads1_4 false true 1 stage1_4 sem1_4
    hrank1 hreads1_4 hinb1_4 nbuf1_4 (Memref.isWhole_whole _) hwx1_4 hstage1_4

abbrev win1_5 : Pipeline.Window sig grid1 :=
  Pipeline.Window.ofSpec (Memref.whole main_v44) S1x64.size cc1_transform_5 reads1_5 false true 1 stage1_5 sem1_5
    hrank1 hreads1_5 hinb1_5 nbuf1_5 (Memref.isWhole_whole _) hwx1_5 hstage1_5

abbrev win1_6 : Pipeline.Window sig grid1 :=
  Pipeline.Window.ofSpec (Memref.whole main_v45) S5000x64.size cc1_transform_6 reads1_6 true false 2 stage1_6 sem1_6
    hrank1 hreads1_6 hinb1_6 nbuf1_6 (Memref.isWhole_whole _) hwx1_6 hstage1_6

abbrev win1 : Fin 7 → Pipeline.Window sig grid1 := fun | 0 => win1_0 | 1 => win1_1 | 2 => win1_2 | 3 => win1_3 | 4 => win1_4 | 5 => win1_5 | 6 => win1_6 | ⟨_ + 7, h⟩ => absurd h (Nat.not_lt.2 (Nat.le_add_left _ _))
abbrev spec1 : Fin 7 → Pipeline.WinSpec sig grid1.rank := fun w => (win1 w).toWinSpec

abbrev win2_0 : Pipeline.Window sig grid2 :=
  Pipeline.Window.ofSpec (Memref.whole main_v45) S5000x64.size cc2_transform_0 reads2_0 false false 2 stage2_0 sem2_0
    hrank2 hreads2_0 hinb2_0 nbuf2_0 (Memref.isWhole_whole _) hwx2_0 hstage2_0

abbrev win2_1 : Pipeline.Window sig grid2 :=
  Pipeline.Window.ofSpec (Memref.whole main_v55) S5000x64.size cc2_transform_1 reads2_1 false false 2 stage2_1 sem2_1
    hrank2 hreads2_1 hinb2_1 nbuf2_1 (Memref.isWhole_whole _) hwx2_1 hstage2_1

abbrev win2_2 : Pipeline.Window sig grid2 :=
  Pipeline.Window.ofSpec (Memref.whole main_v57) S64x64.size cc2_transform_2 reads2_2 false true 1 stage2_2 sem2_2
    hrank2 hreads2_2 hinb2_2 nbuf2_2 (Memref.isWhole_whole _) hwx2_2 hstage2_2

abbrev win2_3 : Pipeline.Window sig grid2 :=
  Pipeline.Window.ofSpec (Memref.whole main_v64) S1x64.size cc2_transform_3 reads2_3 false true 1 stage2_3 sem2_3
    hrank2 hreads2_3 hinb2_3 nbuf2_3 (Memref.isWhole_whole _) hwx2_3 hstage2_3

abbrev win2_4 : Pipeline.Window sig grid2 :=
  Pipeline.Window.ofSpec (Memref.whole main_v61) S64x64.size cc2_transform_4 reads2_4 false true 1 stage2_4 sem2_4
    hrank2 hreads2_4 hinb2_4 nbuf2_4 (Memref.isWhole_whole _) hwx2_4 hstage2_4

abbrev win2_5 : Pipeline.Window sig grid2 :=
  Pipeline.Window.ofSpec (Memref.whole main_v65) S1x64.size cc2_transform_5 reads2_5 false true 1 stage2_5 sem2_5
    hrank2 hreads2_5 hinb2_5 nbuf2_5 (Memref.isWhole_whole _) hwx2_5 hstage2_5

abbrev win2_6 : Pipeline.Window sig grid2 :=
  Pipeline.Window.ofSpec (Memref.whole main_v66) S5000x64.size cc2_transform_6 reads2_6 true false 2 stage2_6 sem2_6
    hrank2 hreads2_6 hinb2_6 nbuf2_6 (Memref.isWhole_whole _) hwx2_6 hstage2_6

abbrev win2 : Fin 7 → Pipeline.Window sig grid2 := fun | 0 => win2_0 | 1 => win2_1 | 2 => win2_2 | 3 => win2_3 | 4 => win2_4 | 5 => win2_5 | 6 => win2_6 | ⟨_ + 7, h⟩ => absurd h (Nat.not_lt.2 (Nat.le_add_left _ _))
abbrev spec2 : Fin 7 → Pipeline.WinSpec sig grid2.rank := fun w => (win2 w).toWinSpec

class Facts : Prop extends Facts₀ where

variable [Facts]
-- ==== ReferenceIdeal.lean ====
abbrev S100000x64 : Shape := ⟨2, ![100000, 64]⟩
abbrev S2x1000000 : Shape := ⟨2, ![2, 1000000]⟩
abbrev S100000 : Shape := ⟨1, ![100000]⟩
abbrev S10000 : Shape := ⟨1, ![10000]⟩
abbrev S3x64x64 : Shape := ⟨3, ![3, 64, 64]⟩
abbrev S3x64 : Shape := ⟨2, ![3, 64]⟩
abbrev S64x64 : Shape := ⟨2, ![64, 64]⟩
abbrev S64 : Shape := ⟨1, ![64]⟩
abbrev S64x1 : Shape := ⟨2, ![64, 1]⟩
abbrev S1 : Shape := ⟨1, ![1]⟩
abbrev S1x1000000 : Shape := ⟨2, ![1, 1000000]⟩
abbrev S1000000 : Shape := ⟨1, ![1000000]⟩
abbrev S_ : Shape := ⟨0, ![]⟩
abbrev S1000000x1 : Shape := ⟨2, ![1000000, 1]⟩
abbrev S1000000x64 : Shape := ⟨2, ![1000000, 64]⟩
abbrev S1x64x64 : Shape := ⟨3, ![1, 64, 64]⟩
abbrev S1x64 : Shape := ⟨2, ![1, 64]⟩
abbrev S10000x64 : Shape := ⟨2, ![10000, 64]⟩
abbrev S100000x1 : Shape := ⟨2, ![100000, 1]⟩
abbrev S500x64 : Shape := ⟨2, ![500, 64]⟩
abbrev S10000x1 : Shape := ⟨2, ![10000, 1]⟩
abbrev S500x1 : Shape := ⟨2, ![500, 1]⟩
abbrev S1x1 : Shape := ⟨2, ![1, 1]⟩

abbrev nBuf : Space → Nat
  | .hbm => 140
  | .vmem => 0
  | .smem => 0
  | _ => 0

abbrev hbmTy0_0 (i : Nat) : BufTy := match i % 128 with
  | 0 => ⟨S100000x64, .f32⟩
  | 1 => ⟨S2x1000000, .i32⟩
  | 2 => ⟨S100000, .i32⟩
  | 3 => ⟨S10000, .i32⟩
  | 4 => ⟨S3x64x64, .f32⟩
  | 5 => ⟨S3x64, .f32⟩
  | 6 => ⟨S3x64x64, .f32⟩
  | 7 => ⟨S3x64, .f32⟩
  | 8 => ⟨S64x64, .f32⟩
  | 9 => ⟨S64, .f32⟩
  | 10 => ⟨S64x1, .f32⟩
  | 11 => ⟨S1, .f32⟩
  | 12 => ⟨S64x1, .f32⟩
  | 13 => ⟨S1, .f32⟩
  | 14 => ⟨S1x1000000, .i32⟩
  | 15 => ⟨S1000000, .i32⟩
  | 16 => ⟨S1x1000000, .i32⟩
  | 17 => ⟨S1000000, .i32⟩
  | 18 => ⟨S_, .i32⟩
  | 19 => ⟨S1000000, .i32⟩
  | 20 => ⟨S1000000, .i1⟩
  | 21 => ⟨S_, .i32⟩
  | 22 => ⟨S1000000, .i32⟩
  | 23 => ⟨S1000000, .i32⟩
  | 24 => ⟨S1000000, .i32⟩
  | 25 => ⟨S1000000x1, .i32⟩
  | 26 => ⟨S1000000x64, .f32⟩
  | 27 => ⟨S_, .f32⟩
  | 28 => ⟨S100000x64, .f32⟩
  | 29 => ⟨S1000000x1, .i32⟩
  | 30 => ⟨S100000x64, .f32⟩
  | 31 => ⟨S100000x64, .f32⟩
  | 32 => ⟨S1x64x64, .f32⟩
  | 33 => ⟨S64x64, .f32⟩
  | 34 => ⟨S100000x64, .f32⟩
  | 35 => ⟨S1x64, .f32⟩
  | 36 => ⟨S64, .f32⟩
  | 37 => ⟨S1x64, .f32⟩
  | 38 => ⟨S100000x64, .f32⟩
  | 39 => ⟨S100000x64, .f32⟩
  | 40 => ⟨S_, .f32⟩
  | 41 => ⟨S100000x64, .f32⟩
  | 42 => ⟨S100000x64, .f32⟩
  | 43 => ⟨S1x64x64, .f32⟩
  | 44 => ⟨S64x64, .f32⟩
  | 45 => ⟨S100000x64, .f32⟩
  | 46 => ⟨S1x64, .f32⟩
  | 47 => ⟨S64, .f32⟩
  | 48 => ⟨S1x64, .f32⟩
  | 49 => ⟨S100000x64, .f32⟩
  | 50 => ⟨S100000x64, .f32⟩
  | 51 => ⟨S_, .i32⟩
  | 52 => ⟨S1000000, .i32⟩
  | 53 => ⟨S1000000, .i1⟩
  | 54 => ⟨S_, .i32⟩
  | 55 => ⟨S1000000, .i32⟩
  | 56 => ⟨S1000000, .i32⟩
  | 57 => ⟨S1000000, .i32⟩
  | 58 => ⟨S1000000x1, .i32⟩
  | 59 => ⟨S1000000x64, .f32⟩
  | 60 => ⟨S_, .f32⟩
  | 61 => ⟨S100000x64, .f32⟩
  | 62 => ⟨S1000000x1, .i32⟩
  | 63 => ⟨S100000x64, .f32⟩
  | 64 => ⟨S100000x64, .f32⟩
  | 65 => ⟨S1x64x64, .f32⟩
  | 66 => ⟨S64x64, .f32⟩
  | 67 => ⟨S100000x64, .f32⟩
  | 68 => ⟨S1x64, .f32⟩
  | 69 => ⟨S64, .f32⟩
  | 70 => ⟨S1x64, .f32⟩
  | 71 => ⟨S100000x64, .f32⟩
  | 72 => ⟨S100000x64, .f32⟩
  | 73 => ⟨S_, .f32⟩
  | 74 => ⟨S100000x64, .f32⟩
  | 75 => ⟨S100000x64, .f32⟩
  | 76 => ⟨S1x64x64, .f32⟩
  | 77 => ⟨S64x64, .f32⟩
  | 78 => ⟨S100000x64, .f32⟩
  | 79 => ⟨S1x64, .f32⟩
  | 80 => ⟨S64, .f32⟩
  | 81 => ⟨S1x64, .f32⟩
  | 82 => ⟨S100000x64, .f32⟩
  | 83 => ⟨S100000x64, .f32⟩
  | 84 => ⟨S_, .i32⟩
  | 85 => ⟨S1000000, .i32⟩
  | 86 => ⟨S1000000, .i1⟩
  | 87 => ⟨S_, .i32⟩
  | 88 => ⟨S1000000, .i32⟩
  | 89 => ⟨S1000000, .i32⟩
  | 90 => ⟨S1000000, .i32⟩
  | 91 => ⟨S1000000x1, .i32⟩
  | 92 => ⟨S1000000x64, .f32⟩
  | 93 => ⟨S_, .f32⟩
  | 94 => ⟨S100000x64, .f32⟩
  | 95 => ⟨S1000000x1, .i32⟩
  | 96 => ⟨S100000x64, .f32⟩
  | 97 => ⟨S100000x64, .f32⟩
  | 98 => ⟨S1x64x64, .f32⟩
  | 99 => ⟨S64x64, .f32⟩
  | 100 => ⟨S100000x64, .f32⟩
  | 101 => ⟨S1x64, .f32⟩
  | 102 => ⟨S64, .f32⟩
  | 103 => ⟨S1x64, .f32⟩
  | 104 => ⟨S100000x64, .f32⟩
  | 105 => ⟨S100000x64, .f32⟩
  | 106 => ⟨S_, .f32⟩
  | 107 => ⟨S100000x64, .f32⟩
  | 108 => ⟨S100000x64, .f32⟩
  | 109 => ⟨S1x64x64, .f32⟩
  | 110 => ⟨S64x64, .f32⟩
  | 111 => ⟨S100000x64, .f32⟩
  | 112 => ⟨S1x64, .f32⟩
  | 113 => ⟨S64, .f32⟩
  | 114 => ⟨S1x64, .f32⟩
  | 115 => ⟨S100000x64, .f32⟩
  | 116 => ⟨S100000x64, .f32⟩
  | 117 => ⟨S_, .f32⟩
  | 118 => ⟨S10000x64, .f32⟩
  | 119 => ⟨S100000x1, .i32⟩
  | 120 => ⟨S10000x64, .f32⟩
  | 121 => ⟨S_, .f32⟩
  | 122 => ⟨S500x64, .f32⟩
  | 123 => ⟨S10000x1, .i32⟩
  | 124 => ⟨S500x64, .f32⟩
  | 125 => ⟨S500x64, .f32⟩
  | 126 => ⟨S1x64, .f32⟩
  | 127 => ⟨S500x64, .f32⟩
  | _ => ⟨S100000x64, .f32⟩

abbrev hbmTy0_1 (i : Nat) : BufTy := match i % 128 with
  | 0 => ⟨S500x64, .f32⟩
  | 1 => ⟨S_, .f32⟩
  | 2 => ⟨S500x64, .f32⟩
  | 3 => ⟨S500x64, .f32⟩
  | 4 => ⟨S500x1, .f32⟩
  | 5 => ⟨S1x1, .f32⟩
  | 6 => ⟨S500x1, .f32⟩
  | 7 => ⟨S500x1, .f32⟩
  | 8 => ⟨S500x1, .f32⟩
  | 9 => ⟨S1x1, .f32⟩
  | 10 => ⟨S500x1, .f32⟩
  | 11 => ⟨S500x1, .f32⟩
  | _ => ⟨S100000x64, .f32⟩

abbrev hbmTy (i : Nat) : BufTy := match i / 128 with
  | 0 => hbmTy0_0 i
  | 1 => hbmTy0_1 i
  | _ => ⟨S100000x64, .f32⟩

abbrev bufTy : (tb : Table) → Fin (tcTables nBuf tb) → BufTy
  | .hbm, ⟨i, _⟩ => hbmTy i
  | _, _ => ⟨S100000x64, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_arg9 : Ref sig .tc := ⟨.hbm, 9, rfl⟩
abbrev main_arg10 : Ref sig .tc := ⟨.hbm, 10, rfl⟩
abbrev main_arg11 : Ref sig .tc := ⟨.hbm, 11, rfl⟩
abbrev main_arg12 : Ref sig .tc := ⟨.hbm, 12, rfl⟩
abbrev main_arg13 : Ref sig .tc := ⟨.hbm, 13, rfl⟩
abbrev main_v0 : Ref sig .tc := ⟨.hbm, 14, rfl⟩
abbrev main_v1 : Ref sig .tc := ⟨.hbm, 15, rfl⟩
abbrev main_v2 : Ref sig .tc := ⟨.hbm, 16, rfl⟩
abbrev main_v3 : Ref sig .tc := ⟨.hbm, 17, rfl⟩
abbrev main_c : Ref sig .tc := ⟨.hbm, 18, rfl⟩
abbrev main_v4 : Ref sig .tc := ⟨.hbm, 19, rfl⟩
abbrev main_v5 : Ref sig .tc := ⟨.hbm, 20, rfl⟩
abbrev main_c_0 : Ref sig .tc := ⟨.hbm, 21, rfl⟩
abbrev main_v6 : Ref sig .tc := ⟨.hbm, 22, rfl⟩
abbrev main_v7 : Ref sig .tc := ⟨.hbm, 23, rfl⟩
abbrev main_v8 : Ref sig .tc := ⟨.hbm, 24, rfl⟩
abbrev main_v9 : Ref sig .tc := ⟨.hbm, 25, rfl⟩
abbrev main_v10 : Ref sig .tc := ⟨.hbm, 26, rfl⟩
abbrev main_cst : Ref sig .tc := ⟨.hbm, 27, rfl⟩
abbrev main_v11 : Ref sig .tc := ⟨.hbm, 28, rfl⟩
abbrev main_v12 : Ref sig .tc := ⟨.hbm, 29, rfl⟩
abbrev main_v13 : Ref sig .tc := ⟨.hbm, 30, rfl⟩
abbrev main_v14 : Ref sig .tc := ⟨.hbm, 31, rfl⟩
abbrev main_v15 : Ref sig .tc := ⟨.hbm, 32, rfl⟩
abbrev main_v16 : Ref sig .tc := ⟨.hbm, 33, rfl⟩
abbrev main_v17 : Ref sig .tc := ⟨.hbm, 34, rfl⟩
abbrev main_v18 : Ref sig .tc := ⟨.hbm, 35, rfl⟩
abbrev main_v19 : Ref sig .tc := ⟨.hbm, 36, rfl⟩
abbrev main_v20 : Ref sig .tc := ⟨.hbm, 37, rfl⟩
abbrev main_v21 : Ref sig .tc := ⟨.hbm, 38, rfl⟩
abbrev main_v22 : Ref sig .tc := ⟨.hbm, 39, rfl⟩
abbrev main_call0_cst : Ref sig .tc := ⟨.hbm, 40, rfl⟩
abbrev main_call0_v0 : Ref sig .tc := ⟨.hbm, 41, rfl⟩
abbrev main_v23 : Ref sig .tc := ⟨.hbm, 42, rfl⟩
abbrev main_v24 : Ref sig .tc := ⟨.hbm, 43, rfl⟩
abbrev main_v25 : Ref sig .tc := ⟨.hbm, 44, rfl⟩
abbrev main_v26 : Ref sig .tc := ⟨.hbm, 45, rfl⟩
abbrev main_v27 : Ref sig .tc := ⟨.hbm, 46, rfl⟩
abbrev main_v28 : Ref sig .tc := ⟨.hbm, 47, rfl⟩
abbrev main_v29 : Ref sig .tc := ⟨.hbm, 48, rfl⟩
abbrev main_v30 : Ref sig .tc := ⟨.hbm, 49, rfl⟩
abbrev main_v31 : Ref sig .tc := ⟨.hbm, 50, rfl⟩
abbrev main_c_1 : Ref sig .tc := ⟨.hbm, 51, rfl⟩
abbrev main_v32 : Ref sig .tc := ⟨.hbm, 52, rfl⟩
abbrev main_v33 : Ref sig .tc := ⟨.hbm, 53, rfl⟩
abbrev main_c_2 : Ref sig .tc := ⟨.hbm, 54, rfl⟩
abbrev main_v34 : Ref sig .tc := ⟨.hbm, 55, rfl⟩
abbrev main_v35 : Ref sig .tc := ⟨.hbm, 56, rfl⟩
abbrev main_v36 : Ref sig .tc := ⟨.hbm, 57, rfl⟩
abbrev main_v37 : Ref sig .tc := ⟨.hbm, 58, rfl⟩
abbrev main_v38 : Ref sig .tc := ⟨.hbm, 59, rfl⟩
abbrev main_cst_3 : Ref sig .tc := ⟨.hbm, 60, rfl⟩
abbrev main_v39 : Ref sig .tc := ⟨.hbm, 61, rfl⟩
abbrev main_v40 : Ref sig .tc := ⟨.hbm, 62, rfl⟩
abbrev main_v41 : Ref sig .tc := ⟨.hbm, 63, rfl⟩
abbrev main_v42 : Ref sig .tc := ⟨.hbm, 64, rfl⟩
abbrev main_v43 : Ref sig .tc := ⟨.hbm, 65, rfl⟩
abbrev main_v44 : Ref sig .tc := ⟨.hbm, 66, rfl⟩
abbrev main_v45 : Ref sig .tc := ⟨.hbm, 67, rfl⟩
abbrev main_v46 : Ref sig .tc := ⟨.hbm, 68, rfl⟩
abbrev main_v47 : Ref sig .tc := ⟨.hbm, 69, rfl⟩
abbrev main_v48 : Ref sig .tc := ⟨.hbm, 70, rfl⟩
abbrev main_v49 : Ref sig .tc := ⟨.hbm, 71, rfl⟩
abbrev main_v50 : Ref sig .tc := ⟨.hbm, 72, rfl⟩
abbrev main_call1_cst : Ref sig .tc := ⟨.hbm, 73, rfl⟩
abbrev main_call1_v0 : Ref sig .tc := ⟨.hbm, 74, rfl⟩
abbrev main_v51 : Ref sig .tc := ⟨.hbm, 75, rfl⟩
abbrev main_v52 : Ref sig .tc := ⟨.hbm, 76, rfl⟩
abbrev main_v53 : Ref sig .tc := ⟨.hbm, 77, rfl⟩
abbrev main_v54 : Ref sig .tc := ⟨.hbm, 78, rfl⟩
abbrev main_v55 : Ref sig .tc := ⟨.hbm, 79, rfl⟩
abbrev main_v56 : Ref sig .tc := ⟨.hbm, 80, rfl⟩
abbrev main_v57 : Ref sig .tc := ⟨.hbm, 81, rfl⟩
abbrev main_v58 : Ref sig .tc := ⟨.hbm, 82, rfl⟩
abbrev main_v59 : Ref sig .tc := ⟨.hbm, 83, rfl⟩
abbrev main_c_4 : Ref sig .tc := ⟨.hbm, 84, rfl⟩
abbrev main_v60 : Ref sig .tc := ⟨.hbm, 85, rfl⟩
abbrev main_v61 : Ref sig .tc := ⟨.hbm, 86, rfl⟩
abbrev main_c_5 : Ref sig .tc := ⟨.hbm, 87, rfl⟩
abbrev main_v62 : Ref sig .tc := ⟨.hbm, 88, rfl⟩
abbrev main_v63 : Ref sig .tc := ⟨.hbm, 89, rfl⟩
abbrev main_v64 : Ref sig .tc := ⟨.hbm, 90, rfl⟩
abbrev main_v65 : Ref sig .tc := ⟨.hbm, 91, rfl⟩
abbrev main_v66 : Ref sig .tc := ⟨.hbm, 92, rfl⟩
abbrev main_cst_6 : Ref sig .tc := ⟨.hbm, 93, rfl⟩
abbrev main_v67 : Ref sig .tc := ⟨.hbm, 94, rfl⟩
abbrev main_v68 : Ref sig .tc := ⟨.hbm, 95, rfl⟩
abbrev main_v69 : Ref sig .tc := ⟨.hbm, 96, rfl⟩
abbrev main_v70 : Ref sig .tc := ⟨.hbm, 97, rfl⟩
abbrev main_v71 : Ref sig .tc := ⟨.hbm, 98, rfl⟩
abbrev main_v72 : Ref sig .tc := ⟨.hbm, 99, rfl⟩
abbrev main_v73 : Ref sig .tc := ⟨.hbm, 100, rfl⟩
abbrev main_v74 : Ref sig .tc := ⟨.hbm, 101, rfl⟩
abbrev main_v75 : Ref sig .tc := ⟨.hbm, 102, rfl⟩
abbrev main_v76 : Ref sig .tc := ⟨.hbm, 103, rfl⟩
abbrev main_v77 : Ref sig .tc := ⟨.hbm, 104, rfl⟩
abbrev main_v78 : Ref sig .tc := ⟨.hbm, 105, rfl⟩
abbrev main_call2_cst : Ref sig .tc := ⟨.hbm, 106, rfl⟩
abbrev main_call2_v0 : Ref sig .tc := ⟨.hbm, 107, rfl⟩
abbrev main_v79 : Ref sig .tc := ⟨.hbm, 108, rfl⟩
abbrev main_v80 : Ref sig .tc := ⟨.hbm, 109, rfl⟩
abbrev main_v81 : Ref sig .tc := ⟨.hbm, 110, rfl⟩
abbrev main_v82 : Ref sig .tc := ⟨.hbm, 111, rfl⟩
abbrev main_v83 : Ref sig .tc := ⟨.hbm, 112, rfl⟩
abbrev main_v84 : Ref sig .tc := ⟨.hbm, 113, rfl⟩
abbrev main_v85 : Ref sig .tc := ⟨.hbm, 114, rfl⟩
abbrev main_v86 : Ref sig .tc := ⟨.hbm, 115, rfl⟩
abbrev main_v87 : Ref sig .tc := ⟨.hbm, 116, rfl⟩
abbrev main_cst_7 : Ref sig .tc := ⟨.hbm, 117, rfl⟩
abbrev main_v88 : Ref sig .tc := ⟨.hbm, 118, rfl⟩
abbrev main_v89 : Ref sig .tc := ⟨.hbm, 119, rfl⟩
abbrev main_v90 : Ref sig .tc := ⟨.hbm, 120, rfl⟩
abbrev main_cst_8 : Ref sig .tc := ⟨.hbm, 121, rfl⟩
abbrev main_v91 : Ref sig .tc := ⟨.hbm, 122, rfl⟩
abbrev main_v92 : Ref sig .tc := ⟨.hbm, 123, rfl⟩
abbrev main_v93 : Ref sig .tc := ⟨.hbm, 124, rfl⟩
abbrev main_v94 : Ref sig .tc := ⟨.hbm, 125, rfl⟩
abbrev main_v95 : Ref sig .tc := ⟨.hbm, 126, rfl⟩
abbrev main_v96 : Ref sig .tc := ⟨.hbm, 127, rfl⟩
abbrev main_v97 : Ref sig .tc := ⟨.hbm, 128, rfl⟩
abbrev main_call3_cst : Ref sig .tc := ⟨.hbm, 129, rfl⟩
abbrev main_call3_v0 : Ref sig .tc := ⟨.hbm, 130, rfl⟩
abbrev main_v98 : Ref sig .tc := ⟨.hbm, 131, rfl⟩
abbrev main_v99 : Ref sig .tc := ⟨.hbm, 132, rfl⟩
abbrev main_v100 : Ref sig .tc := ⟨.hbm, 133, rfl⟩
abbrev main_v101 : Ref sig .tc := ⟨.hbm, 134, rfl⟩
abbrev main_v102 : Ref sig .tc := ⟨.hbm, 135, rfl⟩
abbrev main_v103 : Ref sig .tc := ⟨.hbm, 136, rfl⟩
abbrev main_v104 : Ref sig .tc := ⟨.hbm, 137, rfl⟩
abbrev main_v105 : Ref sig .tc := ⟨.hbm, 138, rfl⟩
abbrev main_v106 : Ref sig .tc := ⟨.hbm, 139, rfl⟩

abbrev nD : Nat := 1
abbrev τ : Topo := Topo.v7x

variable {F : FTy → Type} [FloatOps F]

class Facts₀ : Prop where
  slices_S2x1000000_S1x1000000_0_0 : S2x1000000.Slices ![0, 0] S1x1000000
  shapeCasts_S1x1000000_S1000000 : S1x1000000.ShapeCasts S1000000
  slices_S2x1000000_S1x1000000_1_0 : S2x1000000.Slices ![1, 0] S1x1000000
  bcast_S_S1000000 : S_.BroadcastsInDim S1000000 (![] : Fin 0 → Fin S1000000.rank)
  bcast_S1000000_S1000000x1_0 : S1000000.BroadcastsInDim S1000000x1 (![0] : Fin 1 → Fin S1000000x1.rank)
  bcast_S_S100000x64 : S_.BroadcastsInDim S100000x64 (![] : Fin 0 → Fin S100000x64.rank)
  slices_S3x64x64_S1x64x64_0_0_0 : S3x64x64.Slices ![0, 0, 0] S1x64x64
  shapeCasts_S1x64x64_S64x64 : S1x64x64.ShapeCasts S64x64
  slices_S3x64_S1x64_0_0 : S3x64.Slices ![0, 0] S1x64
  shapeCasts_S1x64_S64 : S1x64.ShapeCasts S64
  bcast_S64_S1x64_1 : S64.BroadcastsInDim S1x64 (![1] : Fin 1 → Fin S1x64.rank)
  bcast_S1x64_S100000x64_0_1 : S1x64.BroadcastsInDim S100000x64 (![0, 1] : Fin 2 → Fin S100000x64.rank)
  slices_S3x64x64_S1x64x64_1_0_0 : S3x64x64.Slices ![1, 0, 0] S1x64x64
  slices_S3x64_S1x64_1_0 : S3x64.Slices ![1, 0] S1x64
  slices_S3x64x64_S1x64x64_2_0_0 : S3x64x64.Slices ![2, 0, 0] S1x64x64
  slices_S3x64_S1x64_2_0 : S3x64.Slices ![2, 0] S1x64
  bcast_S_S10000x64 : S_.BroadcastsInDim S10000x64 (![] : Fin 0 → Fin S10000x64.rank)
  bcast_S100000_S100000x1_0 : S100000.BroadcastsInDim S100000x1 (![0] : Fin 1 → Fin S100000x1.rank)
  bcast_S_S500x64 : S_.BroadcastsInDim S500x64 (![] : Fin 0 → Fin S500x64.rank)
  bcast_S10000_S10000x1_0 : S10000.BroadcastsInDim S10000x1 (![0] : Fin 1 → Fin S10000x1.rank)
  bcast_S1x64_S500x64_0_1 : S1x64.BroadcastsInDim S500x64 (![0, 1] : Fin 2 → Fin S500x64.rank)
  bcast_S1_S1x1_1 : S1.BroadcastsInDim S1x1 (![1] : Fin 1 → Fin S1x1.rank)
  bcast_S1x1_S500x1_0_1 : S1x1.BroadcastsInDim S500x1 (![0, 1] : Fin 2 → Fin S500x1.rank)
  gather_S100000x64_S1000000x1_S1000000x64_1_0_n_n_0_1_164_wf : GatherDims.WF S100000x64 S1000000x1 S1000000x64 [1] [0] [] [0] [] 1 ![1, 64]
  scatter_S100000x64_S1000000x1_S1000000x64_1_0_0_1_wf : ScatterDims.WF S100000x64 S1000000x1 S1000000x64 [1] [0] [0] 1
  dot_S100000x64_S64x64_S100000x64_1_0_0_1_n_n_wf : DotDims.WF S100000x64 S64x64 S100000x64 [1] [0] [0] [1] [] []
  scatter_S10000x64_S100000x1_S100000x64_1_0_0_1_wf : ScatterDims.WF S10000x64 S100000x1 S100000x64 [1] [0] [0] 1
  scatter_S500x64_S10000x1_S10000x64_1_0_0_1_wf : ScatterDims.WF S500x64 S10000x1 S10000x64 [1] [0] [0] 1
  dot_S500x64_S64x64_S500x64_1_0_0_1_n_n_wf : DotDims.WF S500x64 S64x64 S500x64 [1] [0] [0] [1] [] []
  dot_S500x64_S64x1_S500x1_1_0_0_1_n_n_wf : DotDims.WF S500x64 S64x1 S500x1 [1] [0] [0] [1] [] []

variable [Facts₀]

def gather_S100000x64_S1000000x1_S1000000x64_1_0_n_n_0_1_164 : GatherDims S100000x64 S1000000x1 S1000000x64 where
  offsetDims := [1]
  collapsedSliceDims := [0]
  operandBatchingDims := []
  startIndicesBatchingDims := []
  startIndexMap := [0]
  indexVectorDim := 1
  sliceSizes := ![1, 64]
  wf := gather_S100000x64_S1000000x1_S1000000x64_1_0_n_n_0_1_164_wf
def scatter_S100000x64_S1000000x1_S1000000x64_1_0_0_1 : ScatterDims S100000x64 S1000000x1 S1000000x64 where
  updateWindowDims := [1]
  insertedWindowDims := [0]
  scatterDimsToOperandDims := [0]
  indexVectorDim := 1
  wf := scatter_S100000x64_S1000000x1_S1000000x64_1_0_0_1_wf
def dot_S100000x64_S64x64_S100000x64_1_0_0_1_n_n : DotDims S100000x64 S64x64 S100000x64 where
  lhsContracting := [1]
  rhsContracting := [0]
  lhsNonContracting := [0]
  rhsNonContracting := [1]
  lhsBatch := []
  rhsBatch := []
  wf := dot_S100000x64_S64x64_S100000x64_1_0_0_1_n_n_wf
def scatter_S10000x64_S100000x1_S100000x64_1_0_0_1 : ScatterDims S10000x64 S100000x1 S100000x64 where
  updateWindowDims := [1]
  insertedWindowDims := [0]
  scatterDimsToOperandDims := [0]
  indexVectorDim := 1
  wf := scatter_S10000x64_S100000x1_S100000x64_1_0_0_1_wf
def scatter_S500x64_S10000x1_S10000x64_1_0_0_1 : ScatterDims S500x64 S10000x1 S10000x64 where
  updateWindowDims := [1]
  insertedWindowDims := [0]
  scatterDimsToOperandDims := [0]
  indexVectorDim := 1
  wf := scatter_S500x64_S10000x1_S10000x64_1_0_0_1_wf
def dot_S500x64_S64x64_S500x64_1_0_0_1_n_n : DotDims S500x64 S64x64 S500x64 where
  lhsContracting := [1]
  rhsContracting := [0]
  lhsNonContracting := [0]
  rhsNonContracting := [1]
  lhsBatch := []
  rhsBatch := []
  wf := dot_S500x64_S64x64_S500x64_1_0_0_1_n_n_wf
def dot_S500x64_S64x1_S500x1_1_0_0_1_n_n : DotDims S500x64 S64x1 S500x1 where
  lhsContracting := [1]
  rhsContracting := [0]
  lhsNonContracting := [0]
  rhsNonContracting := [1]
  lhsBatch := []
  rhsBatch := []
  wf := dot_S500x64_S64x1_S500x1_1_0_0_1_n_n_wf

class Facts : Prop extends Facts₀ where

variable [Facts]
-- ==== Proof.KRun.lean ====
/-
  The three-layer program's run, with its two results kept.

  The program is nine segments: host operations, a layer kernel, host operations, a layer kernel, host operations,
  a layer kernel, and three stretches of host operations that pool the node features and apply the output heads.
  Every weakly fair execution runs through them in order; the buffer contents after the last segment are a fold
  through the segments from the launch memory, in which a kernel region leaves its output array at what its grid
  points wrote back and every other buffer as it found it.  The run below states each result buffer, and each
  argument, at its contents in that fold.
-/
import proofs.«124465_j37830071943189_1_alg».proof.Proof.Gen.KernelIdeal.Frame

set_option maxRecDepth 16384

noncomputable section

namespace Cert.KernelIdeal.Net

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (m : (ℓ : Loc nD τ sig) → Buf (Elt F) ℓ) (ρ : Dev nD → PrngReg)

set_option backward.isDefEq.respectTransparency.types false in
/-- Every weakly fair execution terminates without a fault; the two results end at the last boundary's contents and
    the arguments end as launched. -/
theorem run_results : θ_run defs (onTc (τ := τ) (main (F := F))) ⟨m, fun _ => 0, ρ⟩ (fun r => ∀ c : Dev nD,
      r.2.mem ((c.tc : Thread nD τ).loc main_v81) = W9 m ρ c (Proc.devRef .tc main_v81)
      ∧ r.2.mem ((c.tc : Thread nD τ).loc main_v85) = W9 m ρ c (Proc.devRef .tc main_v85)
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)
      ∧ r.2.mem ((c.tc : Thread nD τ).loc main_arg6) = m ((c.tc : Thread nD τ).loc main_arg6)
      ∧ r.2.mem ((c.tc : Thread nD τ).loc main_arg7) = m ((c.tc : Thread nD τ).loc main_arg7)
      ∧ r.2.mem ((c.tc : Thread nD τ).loc main_arg8) = m ((c.tc : Thread nD τ).loc main_arg8)
      ∧ r.2.mem ((c.tc : Thread nD τ).loc main_arg9) = m ((c.tc : Thread nD τ).loc main_arg9)
      ∧ r.2.mem ((c.tc : Thread nD τ).loc main_arg10) = m ((c.tc : Thread nD τ).loc main_arg10)
      ∧ r.2.mem ((c.tc : Thread nD τ).loc main_arg11) = m ((c.tc : Thread nD τ).loc main_arg11)
      ∧ r.2.mem ((c.tc : Thread nD τ).loc main_arg12) = m ((c.tc : Thread nD τ).loc main_arg12)
      ∧ r.2.mem ((c.tc : Thread nD τ).loc main_arg13) = m ((c.tc : Thread nD τ).loc main_arg13)) :=
  Pipeline.θ_run_regions_kit (pcfgs (F := F)) adm (pdats m ρ) () cellOf_inj emb₁ defs₀ 𝒱₀ L lv m ρ main (segs m ρ)
    (fun c Q => by rw [main_run m ρ c])
    (by simp only [segs, Pipeline.Seg.pipes_host, Pipeline.Seg.pipes_region, Pipeline.Seg.pipes_nil]; decide)
    (O₀ := 0) (hL := fun _ _ => rfl) (G := fun _ => iprop(emp))
    (u₀ := initOf (Pipeline.cells cfgs cellOf_inj) (Pipeline.launchToks cfgs cellOf_inj))
    (hu₀ := by
      iintro Hu; imodintro
      isplitl [Hu]
      · iapply (show (ownU (initOf (Pipeline.cells cfgs cellOf_inj) (Pipeline.launchToks cfgs cellOf_inj)) : sProp 𝕄)
            ⊢ BI.own (emb₁ (initOf (Pipeline.cells cfgs cellOf_inj) (Pipeline.launchToks cfgs cellOf_inj))) from .rfl)
        iexact Hu
      iapply (show (BI.emp : sProp 𝕄) ⊢ bigSep Finset.univ (fun _ : Dev nD => (BI.emp : sProp 𝕄)) from by rw [BI.bigSep_emp_const])
      iempintro)
    (T₀ := fun c => iprop(StableHlo.held (c : Thread nD τ) (Pipeline.ucRefs τ sig) (W0 m ρ c) ∗ R c)) (Tₙ := Tₙ m ρ)
    (hch := ⟨fun _ => .rfl, fun _ => .rfl, fun _ => .rfl, fun _ => .rfl, fun _ => .rfl, fun _ => .rfl, fun _ => .rfl, fun _ => .rfl, fun _ => .rfl, fun c => by
      dsimp only [Pipeline.Seg.post, hseg, Pipeline.HostSeg.ofOps]
      iintro ⟨Hh, Hp, HO⟩
      isplitl [Hh Hp]
      · isplitl [Hh]; · iexact Hh
        iexact Hp
      iexact HO⟩)
    (hinit := by
      refine Pipeline.initEach L lv fun c => ?_
      rw [show unscopedBufs c (fun b => m ((c : Thread nD τ).loc b)) = StableHlo.held (c : Thread nD τ) (Pipeline.ucRefs τ sig) (W0 m ρ c)
        from Pipeline.unscopedBufs_held c (W0 m ρ c)]
      iintro ⟨⟨Hh, -, HO, -, Hp, -⟩, -⟩
      imodintro
      isplitl [Hh]; · iexact Hh
      isplitl [Hp]; · iexists _; iexact Hp
      iexists ∅; iexact HO)
    (QY := fun c s => ∀ b ∈ Pipeline.ucRefs τ sig, s.mem (((c : Thread nD τ)).1, b) = W9 m ρ c b)
    (hfin := fun c s' => by
      iintro ⟨⟨Hh, -⟩, HSI⟩
      unfold StableHlo.held
      imodintro
      iapply (pointsTo_read_all (Pipeline.ucRefs τ sig) (fun b => (((c : Thread nD τ)).1, b)) (W9 m ρ c) s')
      isplitl [Hh] <;> iassumption)
    (hQ := fun s h c =>
      ⟨h c _ (mem_uc main_v81 (by decide)),
       h c _ (mem_uc main_v85 (by decide)),
       (h c _ (mem_uc main_arg0 (by decide))).trans (W9_main_arg0 m ρ c),
       (h c _ (mem_uc main_arg1 (by decide))).trans (W9_main_arg1 m ρ c),
       (h c _ (mem_uc main_arg2 (by decide))).trans (W9_main_arg2 m ρ c),
       (h c _ (mem_uc main_arg3 (by decide))).trans (W9_main_arg3 m ρ c),
       (h c _ (mem_uc main_arg4 (by decide))).trans (W9_main_arg4 m ρ c),
       (h c _ (mem_uc main_arg5 (by decide))).trans (W9_main_arg5 m ρ c),
       (h c _ (mem_uc main_arg6 (by decide))).trans (W9_main_arg6 m ρ c),
       (h c _ (mem_uc main_arg7 (by decide))).trans (W9_main_arg7 m ρ c),
       (h c _ (mem_uc main_arg8 (by decide))).trans (W9_main_arg8 m ρ c),
       (h c _ (mem_uc main_arg9 (by decide))).trans (W9_main_arg9 m ρ c),
       (h c _ (mem_uc main_arg10 (by decide))).trans (W9_main_arg10 m ρ c),
       (h c _ (mem_uc main_arg11 (by decide))).trans (W9_main_arg11 m ρ c),
       (h c _ (mem_uc main_arg12 (by decide))).trans (W9_main_arg12 m ρ c),
       (h c _ (mem_uc main_arg13 (by decide))).trans (W9_main_arg13 m ρ c)⟩)

end Cert.KernelIdeal.Net

end
-- ==== Proof.LibDot.lean ====
/-
  A plain matrix product read at an entry.  For dimension numbers that contract the left operand's axis 1 with the right
  operand's axis 0 and have no batch axis, both the matrix unit's product into a zero accumulator and the host's
  dot_general are, at the ideal reading, the textbook sum Σ_i lhs (p, i) · rhs (i, q): the contraction index is its one
  coordinate, and the operand indices at (p, q) and i are (p, i) and (i, q).
-/
import Idealize.ShloMosaic.PureOps.Ideal.Laws
import Idealize.ShloMosaic.Lib.ValueIdx

noncomputable section

namespace Cert.LibDot

open Idealize.ShloMosaic Idealize.ShloMosaic.ValueIdx
open scoped BigOperators

variable {a k b : ℕ} (D : DotDims ⟨2, ![a, k]⟩ ⟨2, ![k, b]⟩ ⟨2, ![a, b]⟩) (hr : D.contr.rank = 1)
  (hs : D.contr.size ⟨0, by omega⟩ = k)
  (hl0 : ∀ j q, (D.lhsIdx j q 0).val = (j 0).val) (hl1 : ∀ j q, (D.lhsIdx j q 1).val = (q ⟨0, by omega⟩).val)
  (hr0 : ∀ j q, (D.rhsIdx j q 0).val = (q ⟨0, by omega⟩).val) (hr1 : ∀ j q, (D.rhsIdx j q 1).val = (j 1).val)

include hr hs hl0 hl1 hr0 hr1

/-- The sum over the contraction index is the sum over its one coordinate, the operands read at (p, i) and (i, q). -/
theorem sum_plain (lhs : (⟨2, ![a, k]⟩ : Shape).Idx → EReal) (rhs : (⟨2, ![k, b]⟩ : Shape).Idx → EReal) (p : Fin a) (q : Fin b) :
    (∑ c : D.contr.Idx, lhs (D.lhsIdx (ix2 p q) c) * rhs (D.rhsIdx (ix2 p q) c)) = ∑ i : Fin k, lhs (ix2 p i) * rhs (ix2 i q) := by
  rw [← Equiv.sum_comp (contrEquiv1 D k hr hs).symm]
  refine Finset.sum_congr rfl fun i _ => ?_
  have hk := contrEquiv1_symm_val D k hr hs i
  have el : D.lhsIdx (ix2 p q) ((contrEquiv1 D k hr hs).symm i) = ix2 p i := funext fun ax => Fin.ext (by
    match ax with
    | ⟨0, _⟩ => exact hl0 _ _
    | ⟨1, _⟩ => exact (hl1 _ _).trans hk)
  have er : D.rhsIdx (ix2 p q) ((contrEquiv1 D k hr hs).symm i) = ix2 i q := funext fun ax => Fin.ext (by
    match ax with
    | ⟨0, _⟩ => exact (hr0 _ _).trans hk
    | ⟨1, _⟩ => exact hr1 _ _)
  rw [el, er]

/-- The matrix unit's product into a zero accumulator, at entry (p, q). -/
theorem matmul_zero_apply {φ₁ φ₂ : FTy} (prec : Option ContractPrecision) (lhs : FVec Ideal ⟨2, ![a, k]⟩ φ₁)
    (rhs : FVec Ideal ⟨2, ![k, b]⟩ φ₂) (p : Fin a) (q : Fin b) :
    FloatOps.matmul D prec lhs rhs (constant ⟨2, ![a, b]⟩ .f32 0x00000000#32) (ix2 p q) = ∑ i : Fin k, lhs (ix2 p i) * rhs (ix2 i q) :=
  (Ideal.matmul_constant_zero_apply D prec lhs rhs (ix2 p q)).trans (sum_plain D hr hs hl0 hl1 hr0 hr1 lhs rhs p q)

/-- The host's dot_general, at entry (p, q). -/
theorem dotGeneral_apply {φ₁ φ₂ : FTy} (prec : Option ContractPrecision) (sched : HostSchedule) (lhs : FVec Ideal ⟨2, ![a, k]⟩ φ₁)
    (rhs : FVec Ideal ⟨2, ![k, b]⟩ φ₂) (p : Fin a) (q : Fin b) :
    FloatOps.dotGeneral D prec sched lhs rhs (ix2 p q) = ∑ i : Fin k, lhs (ix2 p i) * rhs (ix2 i q) :=
  (Ideal.dotGeneral_apply D prec sched lhs rhs (ix2 p q)).trans (sum_plain D hr hs hl0 hl1 hr0 hr1 lhs rhs p q)

end Cert.LibDot

end
-- ==== Proof.LibMatRows.lean ====
/-
  Matrices over the extended reals as whole arrays, generic in the extents.
  `prod x w`: the product of an [n, k] matrix with a [k, b] matrix, entry (p, q) = Σ_j x (p, j) · w (j, q). For dimension numbers
  that contract the left operand's axis 1 with the right operand's axis 0 and have no batch axis, a host dot_general IS this
  array (`hostDot_eq`) and the matrix unit's product into a zero accumulator has its entries (`matmul_zero_apply`); the two
  sum readings are LibDot's, which this file imports.
  `under B`: a [1, c] row laid under every row of an [n, c] matrix; `plusRow X B`: the matrix plus that row;
  `act X B`: the rectified sum max (X + row, 0) against the f32 zero word. `plusRow_congr` and `act_mul_congr` read a row sum, or
  one term of the product of a rectified sum with a matrix, at two places that hold the same entries — what a block of rows
  of such an array needs when it is compared with the whole array.
-/
import proofs.«124465_j37830071943189_1_alg».proof.Proof.LibDot

noncomputable section

namespace Cert.LibMatRows

open Idealize.ShloMosaic Idealize.ShloMosaic.ValueIdx
open scoped BigOperators

/-- The matrix product, entry by entry. -/
def prod {n k b : ℕ} (x : (⟨2, ![n, k]⟩ : Shape).Idx → EReal) (w : (⟨2, ![k, b]⟩ : Shape).Idx → EReal) :
    (⟨2, ![n, b]⟩ : Shape).Idx → EReal :=
  fun i => ∑ j : Fin k, x (ix2 (n0 := n) (n1 := k) (i 0) j) * w (ix2 (n0 := k) (n1 := b) j (i 1))

theorem prod_apply {n k b : ℕ} (x : (⟨2, ![n, k]⟩ : Shape).Idx → EReal) (w : (⟨2, ![k, b]⟩ : Shape).Idx → EReal)
    (p : Fin n) (q : Fin b) : prod x w (ix2 p q) = ∑ j : Fin k, x (ix2 p j) * w (ix2 j q) := rfl

/-- A [1, c] row laid under every row of an [n, c] matrix: entry (p, j) is the row's entry j. -/
def under {n c : ℕ} (B : (⟨2, ![1, c]⟩ : Shape).Idx → EReal) : (⟨2, ![n, c]⟩ : Shape).Idx → EReal :=
  fun i => B (ix2 (n0 := 1) (n1 := c) (0 : Fin 1) (i 1))

/-- The matrix plus the row under every row. -/
def plusRow {n c : ℕ} (X : (⟨2, ![n, c]⟩ : Shape).Idx → EReal) (B : (⟨2, ![1, c]⟩ : Shape).Idx → EReal) :
    (⟨2, ![n, c]⟩ : Shape).Idx → EReal := fun i => X i + under (n := n) B i

/-- The rectified sum max (X + row, 0). -/
def act {n c : ℕ} (X : (⟨2, ![n, c]⟩ : Shape).Idx → EReal) (B : (⟨2, ![1, c]⟩ : Shape).Idx → EReal) :
    (⟨2, ![n, c]⟩ : Shape).Idx → EReal := fun i => max (plusRow X B i) (Ideal.ofBits .f32 0x00000000#32)

/-- The row sum read at two places that hold the same entries. -/
theorem plusRow_congr {n n' c : ℕ} (X : (⟨2, ![n, c]⟩ : Shape).Idx → EReal) (B : (⟨2, ![1, c]⟩ : Shape).Idx → EReal)
    (X' : (⟨2, ![n', c]⟩ : Shape).Idx → EReal) (B' : (⟨2, ![1, c]⟩ : Shape).Idx → EReal) (p : Fin n) (p' : Fin n') (k k' : Fin c)
    (hx : X (ix2 p k) = X' (ix2 p' k')) (hb : B (ix2 (0 : Fin 1) k) = B' (ix2 (0 : Fin 1) k')) :
    plusRow X B (ix2 p k) = plusRow X' B' (ix2 p' k') := by
  show X (ix2 p k) + B (ix2 (0 : Fin 1) k) = X' (ix2 p' k') + B' (ix2 (0 : Fin 1) k')
  rw [hx, hb]

/-- One term of the product of a rectified sum with a matrix, read at two places that hold the same entries. -/
theorem act_mul_congr {n n' c b b' : ℕ} (X : (⟨2, ![n, c]⟩ : Shape).Idx → EReal) (B : (⟨2, ![1, c]⟩ : Shape).Idx → EReal)
    (W : (⟨2, ![c, b]⟩ : Shape).Idx → EReal) (X' : (⟨2, ![n', c]⟩ : Shape).Idx → EReal) (B' : (⟨2, ![1, c]⟩ : Shape).Idx → EReal)
    (W' : (⟨2, ![c, b']⟩ : Shape).Idx → EReal) (p : Fin n) (p' : Fin n') (k : Fin c) (q : Fin b) (q' : Fin b')
    (hx : X (ix2 p k) = X' (ix2 p' k)) (hb : B (ix2 (0 : Fin 1) k) = B' (ix2 (0 : Fin 1) k))
    (hw : W (ix2 k q) = W' (ix2 k q')) :
    act X B (ix2 p k) * W (ix2 k q) = act X' B' (ix2 p' k) * W' (ix2 k q') := by
  show max (X (ix2 p k) + B (ix2 (0 : Fin 1) k)) _ * W (ix2 k q) = max (X' (ix2 p' k) + B' (ix2 (0 : Fin 1) k)) _ * W' (ix2 k q')
  rw [hx, hb, hw]

variable {n k b : ℕ} (D : DotDims ⟨2, ![n, k]⟩ ⟨2, ![k, b]⟩ ⟨2, ![n, b]⟩) (hr : D.contr.rank = 1)
  (hs : D.contr.size ⟨0, by omega⟩ = k)
  (hl0 : ∀ j q, (D.lhsIdx j q 0).val = (j 0).val) (hl1 : ∀ j q, (D.lhsIdx j q 1).val = (q ⟨0, by omega⟩).val)
  (hr0 : ∀ j q, (D.rhsIdx j q 0).val = (q ⟨0, by omega⟩).val) (hr1 : ∀ j q, (D.rhsIdx j q 1).val = (j 1).val)

include hr hs hl0 hl1 hr0 hr1

/-- The host's dot_general is the matrix product. -/
theorem hostDot_eq {φ₁ φ₂ : FTy} (prec : Option ContractPrecision) (lhs : FVec Ideal ⟨2, ![n, k]⟩ φ₁)
    (rhs : FVec Ideal ⟨2, ![k, b]⟩ φ₂) : Host.dotGeneral D prec lhs rhs = prod lhs rhs := by
  funext i
  rw [eq_ix2 i]
  exact Cert.LibDot.dotGeneral_apply D hr hs hl0 hl1 hr0 hr1 prec .single lhs rhs (i 0) (i 1)

/-- The matrix unit's product into a zero accumulator, at an entry, is the matrix product's entry. -/
theorem matmul_zero_apply {φ₁ φ₂ : FTy} (prec : Option ContractPrecision) (lhs : FVec Ideal ⟨2, ![n, k]⟩ φ₁)
    (rhs : FVec Ideal ⟨2, ![k, b]⟩ φ₂) (p : Fin n) (q : Fin b) :
    FloatOps.matmul D prec lhs rhs (constant ⟨2, ![n, b]⟩ .f32 0x00000000#32) (ix2 p q) = prod lhs rhs (ix2 p q) :=
  Cert.LibDot.matmul_zero_apply D hr hs hl0 hl1 hr0 hr1 prec lhs rhs p q

end Cert.LibMatRows

end
-- ==== Proof.Layer.lean ====
/-
  One graph-isomorphism layer on whole arrays of extended reals.

  For node features h and aggregated neighbour features agg, both of shape [n, 64], weight matrices w1, w2 of shape
  [64, 64] and bias rows b1, b2 of shape [1, 64], the layer is

      layer h agg w1 b1 w2 b2 = max ((h + agg) · w1 + b1, 0) · w2 + b2,

  entry (p, q) = Σ_k max (Σ_j (h (p, j) + agg (p, j)) · w1 (j, k) + b1 (0, k), 0) · w2 (k, q) + b2 (0, q).
  Entry (p, q) reads row p of h and of agg only, so a block of rows of the layer's result is the layer of that block of
  rows of h and agg (`layer_congr_rows`).  Nothing is rearranged and no sum is split: no finiteness of the data is used.
-/
import proofs.«124465_j37830071943189_1_alg».proof.Proof.LibMatRows

noncomputable section

namespace Cert.GinLayer

open Idealize.ShloMosaic Idealize.ShloMosaic.ValueIdx Cert.LibMatRows
open scoped BigOperators

/-- The layer max ((h + agg) · w1 + b1, 0) · w2 + b2 as an array of shape [n, 64]. -/
def layer {n : ℕ} (h agg : (⟨2, ![n, 64]⟩ : Shape).Idx → EReal) (w1 : (⟨2, ![64, 64]⟩ : Shape).Idx → EReal)
    (b1 : (⟨2, ![1, 64]⟩ : Shape).Idx → EReal) (w2 : (⟨2, ![64, 64]⟩ : Shape).Idx → EReal)
    (b2 : (⟨2, ![1, 64]⟩ : Shape).Idx → EReal) : (⟨2, ![n, 64]⟩ : Shape).Idx → EReal :=
  plusRow (prod (act (prod (fun i => h i + agg i) w1) b1) w2) b2

/-- The layer's entry (p, q), written out. -/
theorem layer_apply {n : ℕ} (h agg : (⟨2, ![n, 64]⟩ : Shape).Idx → EReal) (w1 : (⟨2, ![64, 64]⟩ : Shape).Idx → EReal)
    (b1 : (⟨2, ![1, 64]⟩ : Shape).Idx → EReal) (w2 : (⟨2, ![64, 64]⟩ : Shape).Idx → EReal)
    (b2 : (⟨2, ![1, 64]⟩ : Shape).Idx → EReal) (p : Fin n) (q : Fin 64) :
    layer h agg w1 b1 w2 b2 (ix2 p q)
      = (∑ k : Fin 64, max ((∑ j : Fin 64, (h (ix2 p j) + agg (ix2 p j)) * w1 (ix2 j k)) + b1 (ix2 (0 : Fin 1) k))
            (Ideal.ofBits .f32 0x00000000#32) * w2 (ix2 k q)) + b2 (ix2 (0 : Fin 1) q) := rfl

/-- Entry (p, q) of the layer depends on h and agg through their row p only: two pairs of arrays, of any two row counts,
    that hold the same entries in row p' and row p give the same entry. -/
theorem layer_congr_rows {n n' : ℕ} (h agg : (⟨2, ![n, 64]⟩ : Shape).Idx → EReal) (h' agg' : (⟨2, ![n', 64]⟩ : Shape).Idx → EReal)
    (w1 : (⟨2, ![64, 64]⟩ : Shape).Idx → EReal) (b1 : (⟨2, ![1, 64]⟩ : Shape).Idx → EReal)
    (w2 : (⟨2, ![64, 64]⟩ : Shape).Idx → EReal) (b2 : (⟨2, ![1, 64]⟩ : Shape).Idx → EReal) (p : Fin n) (p' : Fin n') (q : Fin 64)
    (hh : ∀ j : Fin 64, h' (ix2 p' j) = h (ix2 p j)) (ha : ∀ j : Fin 64, agg' (ix2 p' j) = agg (ix2 p j)) :
    layer h' agg' w1 b1 w2 b2 (ix2 p' q) = layer h agg w1 b1 w2 b2 (ix2 p q) := by
  rw [layer_apply, layer_apply]
  simp only [hh, ha]

end Cert.GinLayer

end
-- ==== Proof.KernelBody.lean ====
/-
  What the three kernel bodies compute on one block of rows.

  Each body loads a block of 5000 rows of h and of agg, the two [64, 64] weight matrices and the two [1, 64] bias rows,
  and stores   max ((h + agg) · w1 + b1, 0) · w2 + b2   of them: the sum of the two blocks, its product with w1 on
  the matrix unit into a zero accumulator, the bias row laid under every row, the maximum with zero, the product
  with w2, the second bias row.  On the extended reals a change of float format is the identity, a cast of a shape
  to itself is the identity and the matrix unit's product into a zero accumulator is the textbook sum, so the stored
  block is the layer of the loaded blocks, entry by entry.
-/
import proofs.«124465_j37830071943189_1_alg».proof.Proof.Gen.KernelIdeal.Skeleton
import proofs.«124465_j37830071943189_1_alg».proof.Proof.Layer
import Idealize.ShloMosaic.Lib.ValueLayout
import Idealize.ShloMosaic.Lib.Pipeline.Value

noncomputable section

namespace Cert.KernelIdeal.Body

open Cert.KernelIdeal Cert.KernelIdeal.Gen Idealize.ShloMosaic Idealize.ShloMosaic.ValueIdx Cert.GinLayer Cert.LibMatRows
open scoped BigOperators

/-- The matrix unit's product of a block of rows with a [64, 64] matrix into a zero accumulator, at an entry. -/
theorem unit_entry {φ₁ φ₂ : FTy} (x : FVec Ideal S5000x64 φ₁) (w : FVec Ideal S64x64 φ₂) (p : Fin 5000) (q : Fin 64) :
    matmul dot_S5000x64_S64x64_S5000x64_1_0_0_1_n_n none x w (constant S5000x64 .f32 0x00000000#32) (ix2 p q)
      = ∑ j : Fin 64, x (ix2 p j) * w (ix2 j q) :=
  Cert.LibMatRows.matmul_zero_apply dot_S5000x64_S64x64_S5000x64_1_0_0_1_n_n rfl rfl (fun _ _ => rfl) (fun _ _ => rfl)
    (fun _ _ => rfl) (fun _ _ => rfl) none x w p q

/-- The layer's entry from the sum block s = h + agg already formed. -/
theorem entry_of_sum (s : FVec Ideal S5000x64 .f32) (x2 : FVec Ideal S64x64 .f32) (x3 : FVec Ideal S1x64 .f32)
    (x4 : FVec Ideal S64x64 .f32) (x5 : FVec Ideal S1x64 .f32) (p : Fin 5000) (q : Fin 64) :
    addf (matmul dot_S5000x64_S64x64_S5000x64_1_0_0_1_n_n none
        (truncf .bf16 (maximumf (addf (matmul dot_S5000x64_S64x64_S5000x64_1_0_0_1_n_n none (truncf .bf16 s bitsLt_bf16_f32)
            (truncf .bf16 x2 bitsLt_bf16_f32) (constant S5000x64 .f32 0x00000000#32))
          (broadcastTo S5000x64 x3 broadcasts_S1x64_S5000x64)) (broadcast S5000x64 (Scalar.ofBits .f32 0x00000000#32))) bitsLt_bf16_f32)
        (truncf .bf16 x4 bitsLt_bf16_f32) (constant S5000x64 .f32 0x00000000#32))
      (broadcastTo S5000x64 x5 broadcasts_S1x64_S5000x64) (ix2 p q)
    = (∑ k : Fin 64, max ((∑ j : Fin 64, s (ix2 p j) * x2 (ix2 j k)) + x3 (ix2 (0 : Fin 1) k))
            (Ideal.ofBits .f32 0x00000000#32) * x4 (ix2 k q)) + x5 (ix2 (0 : Fin 1) q) := by
  refine (congrArg₂ (· + ·) (unit_entry _ _ p q) (broadcastTo_1b_ab_apply x5 _ p q)).trans ?_
  refine congrArg (· + x5 (ix2 (0 : Fin 1) q)) (Finset.sum_congr rfl fun k _ => ?_)
  refine congrArg (· * x4 (ix2 k q)) ?_
  exact congrArg₂ max (congrArg₂ (· + ·) (unit_entry _ _ p k) (broadcastTo_1b_ab_apply x3 _ p k)) rfl

/-- The first kernel's stored block is the layer of its loaded blocks. -/
theorem pay0_eq (x0 x1 : FVec Ideal S5000x64 .f32) (x2 : FVec Ideal S64x64 .f32) (x3 : FVec Ideal S1x64 .f32)
    (x4 : FVec Ideal S64x64 .f32) (x5 : FVec Ideal S1x64 .f32) :
    k0_pay1 (F := Ideal) x0 x1 x2 x3 x4 x5 = layer x0 x1 x2 x3 x4 x5 := by
  funext i
  obtain ⟨p, q, rfl⟩ : ∃ (p : Fin 5000) (q : Fin 64), i = ix2 p q := ⟨i 0, i 1, eq_ix2 i⟩
  unfold k0_pay1
  simp only [shapeCast_self]
  exact entry_of_sum (addf x0 x1) x2 x3 x4 x5 p q

/-- The second kernel's stored block is the layer of its loaded blocks. -/
theorem pay1_eq (x0 x1 : FVec Ideal S5000x64 .f32) (x2 : FVec Ideal S64x64 .f32) (x3 : FVec Ideal S1x64 .f32)
    (x4 : FVec Ideal S64x64 .f32) (x5 : FVec Ideal S1x64 .f32) :
    k1_pay1 (F := Ideal) x0 x1 x2 x3 x4 x5 = layer x0 x1 x2 x3 x4 x5 := by
  funext i
  obtain ⟨p, q, rfl⟩ : ∃ (p : Fin 5000) (q : Fin 64), i = ix2 p q := ⟨i 0, i 1, eq_ix2 i⟩
  unfold k1_pay1
  simp only [shapeCast_self]
  exact entry_of_sum (addf x0 x1) x2 x3 x4 x5 p q

/-- The third kernel's stored block is the layer of its loaded blocks. -/
theorem pay2_eq (x0 x1 : FVec Ideal S5000x64 .f32) (x2 : FVec Ideal S64x64 .f32) (x3 : FVec Ideal S1x64 .f32)
    (x4 : FVec Ideal S64x64 .f32) (x5 : FVec Ideal S1x64 .f32) :
    k2_pay1 (F := Ideal) x0 x1 x2 x3 x4 x5 = layer x0 x1 x2 x3 x4 x5 := by
  funext i
  obtain ⟨p, q, rfl⟩ : ∃ (p : Fin 5000) (q : Fin 64), i = ix2 p q := ⟨i 0, i 1, eq_ix2 i⟩
  unfold k2_pay1
  simp only [shapeCast_self]
  exact entry_of_sum (addf x0 x1) x2 x3 x4 x5 p q

end Cert.KernelIdeal.Body

end
-- ==== Proof.Region0.lean ====
/-
  What layer kernel 0 leaves in its output array, from the arrays it is entered with.

  The kernel sweeps the 100000 rows in 20 blocks of 5000.  At grid point t it stages rows 5000 t … 5000 t + 4999 of the
  node features and of the aggregated features, the whole of both weight matrices and both bias rows, and writes back
  the layer of those blocks as rows 5000 t … 5000 t + 4999 of the result.  An entry of the layer reads one row of the
  features only, so the written block is that block of rows of the layer of the WHOLE arrays; the 20 blocks cover the
  result, which therefore ends as the layer of the arrays the kernel was entered with.
-/
import proofs.«124465_j37830071943189_1_alg».proof.Proof.Gen.KernelIdeal.Frame
import proofs.«124465_j37830071943189_1_alg».proof.Proof.KernelBody
import Idealize.ShloMosaic.Lib.Pipeline.Value

set_option maxRecDepth 16384

noncomputable section

namespace Cert.KernelIdeal.Region0

open Cert.KernelIdeal Cert.KernelIdeal.Gen Idealize.ShloMosaic Idealize.ShloMosaic.TcCoe Idealize.SL.Sem
open Idealize.ShloMosaic.ValueIdx Cert.GinLayer
open Idealize.ShloMosaic.Pipeline (Dat)

variable (V : (c : Dev nD) → (b : Ref sig .tc) → Buf (Elt Ideal) ((c : Thread nD τ).loc b))

theorem hz : (![0, 0] : Fin 2 → Nat) = fun _ => 0 := funext fun a => by fin_cases a <;> rfl

/-- The layer of the whole arrays the region is entered with. -/
abbrev whole (c : Dev nD) : S100000x64.Idx → EReal :=
  layer (n := 100000) (V c main_arg0) (V c main_v13) (V c main_v15) (V c main_v22) (V c main_v19) (V c main_v23)

/-- The printed index maps over the grid: the two feature windows and the result window sit at block row t, column
    block 0; the weight and bias windows at block (0, 0). -/
theorem idx_facts : ∀ t : Fin cfg0.N,
    win0_0.index t (0 : Fin 2) = t.val ∧ win0_0.index t (1 : Fin 2) = 0
    ∧ win0_1.index t (0 : Fin 2) = t.val ∧ win0_1.index t (1 : Fin 2) = 0
    ∧ win0_2.index t (0 : Fin 2) = 0 ∧ win0_2.index t (1 : Fin 2) = 0
    ∧ win0_3.index t (0 : Fin 2) = 0 ∧ win0_3.index t (1 : Fin 2) = 0
    ∧ win0_4.index t (0 : Fin 2) = 0 ∧ win0_4.index t (1 : Fin 2) = 0
    ∧ win0_5.index t (0 : Fin 2) = 0 ∧ win0_5.index t (1 : Fin 2) = 0
    ∧ win0_6.index t (0 : Fin 2) = t.val ∧ win0_6.index t (1 : Fin 2) = 0 :=
  (by decide +kernel : ∀ t : Fin grid0.N, _)

/-- A block of rows of the layer: an entry of the layer of two row blocks whose row r holds row p of the whole
    feature arrays is the layer of the whole arrays at (p, q). -/
theorem block_entry {n : ℕ} (H A : (⟨2, ![n, 64]⟩ : Shape).Idx → EReal) (h' a' : (⟨2, ![5000, 64]⟩ : Shape).Idx → EReal)
    (w1 : (⟨2, ![64, 64]⟩ : Shape).Idx → EReal) (b1 : (⟨2, ![1, 64]⟩ : Shape).Idx → EReal)
    (w2 : (⟨2, ![64, 64]⟩ : Shape).Idx → EReal) (b2 : (⟨2, ![1, 64]⟩ : Shape).Idx → EReal)
    (j : (⟨2, ![5000, 64]⟩ : Shape).Idx) (i : (⟨2, ![n, 64]⟩ : Shape).Idx) (hq : (i 1).val = (j 1).val)
    (hh : ∀ k : Fin 64, h' (ix2 (j 0) k) = H (ix2 (i 0) k)) (ha : ∀ k : Fin 64, a' (ix2 (j 0) k) = A (ix2 (i 0) k)) :
    layer h' a' w1 b1 w2 b2 j = layer H A w1 b1 w2 b2 i := by
  have e : i 1 = j 1 := Fin.ext hq
  rw [eq_ix2 j, eq_ix2 i, e]
  exact layer_congr_rows H A h' a' w1 b1 w2 b2 (i 0) (j 0) (j 1) hh ha

set_option maxHeartbeats 2000000 in
/-- What grid point t writes back is its block of rows of the layer of the whole arrays. -/
theorem flushed_eq (c : Dev nD) (t : Fin cfg0.N) :
    (dat0 V c).flushed 6 t = ((cfg0.win 6).blk t).view.read (Elt Ideal) (whole V c) := by
  show (cfg0.win 6).cut (grid0.coords t) ((dat0 V c).after 6 t) = _
  rw [after0_6]
  unfold out0_6
  rw [View.canon_unit_zero hz]
  simp only [View.ld_unit_zero (S := S5000x64) hz, View.ld_unit_zero (S := S64x64) hz, View.ld_unit_zero (S := S1x64) hz]
  rw [Cert.KernelIdeal.Body.pay0_eq]
  obtain ⟨e00, e01, e10, e11, e20, e21, e30, e31, e40, e41, e50, e51, e60, e61⟩ := idx_facts t
  have w2 : iblk0 V c 2 t = V c main_v15 := by
    funext y
    show V c main_v15 (((cfg0.win 2).blk t).view.emb y) = V c main_v15 y
    refine congrArg _ (funext fun a => Fin.ext ?_)
    match a with
    | ⟨0, _⟩ => show win0_2.index t (0 : Fin 2) * 64 + 1 * (y 0).val = (y 0).val; omega
    | ⟨1, _⟩ => show win0_2.index t (1 : Fin 2) * 64 + 1 * (y 1).val = (y 1).val; omega
  have w3 : iblk0 V c 3 t = V c main_v22 := by
    funext y
    show V c main_v22 (((cfg0.win 3).blk t).view.emb y) = V c main_v22 y
    refine congrArg _ (funext fun a => Fin.ext ?_)
    match a with
    | ⟨0, _⟩ => show win0_3.index t (0 : Fin 2) * 1 + 1 * (y 0).val = (y 0).val; omega
    | ⟨1, _⟩ => show win0_3.index t (1 : Fin 2) * 64 + 1 * (y 1).val = (y 1).val; omega
  have w4 : iblk0 V c 4 t = V c main_v19 := by
    funext y
    show V c main_v19 (((cfg0.win 4).blk t).view.emb y) = V c main_v19 y
    refine congrArg _ (funext fun a => Fin.ext ?_)
    match a with
    | ⟨0, _⟩ => show win0_4.index t (0 : Fin 2) * 64 + 1 * (y 0).val = (y 0).val; omega
    | ⟨1, _⟩ => show win0_4.index t (1 : Fin 2) * 64 + 1 * (y 1).val = (y 1).val; omega
  have w5 : iblk0 V c 5 t = V c main_v23 := by
    funext y
    show V c main_v23 (((cfg0.win 5).blk t).view.emb y) = V c main_v23 y
    refine congrArg _ (funext fun a => Fin.ext ?_)
    match a with
    | ⟨0, _⟩ => show win0_5.index t (0 : Fin 2) * 1 + 1 * (y 0).val = (y 0).val; omega
    | ⟨1, _⟩ => show win0_5.index t (1 : Fin 2) * 64 + 1 * (y 1).val = (y 1).val; omega
  rw [w2, w3, w4, w5]
  funext j
  show layer (iblk0 V c 0 t) (iblk0 V c 1 t) (V c main_v15) (V c main_v22) (V c main_v19) (V c main_v23) j
    = layer (n := 100000) (V c main_arg0) (V c main_v13) (V c main_v15) (V c main_v22) (V c main_v19) (V c main_v23)
        (((cfg0.win 6).blk t).view.emb j)
  refine block_entry _ _ _ _ _ _ _ _ j _ ?_ (fun k => ?_) (fun k => ?_)
  · show win0_6.index t (1 : Fin 2) * 64 + 1 * (j 1).val = (j 1).val
    omega
  · show V c main_arg0 (((cfg0.win 0).blk t).view.emb (ix2 (j 0) k)) = V c main_arg0 (ix2 ((((cfg0.win 6).blk t).view.emb j) 0) k)
    refine congrArg _ (funext fun a => Fin.ext ?_)
    match a with
    | ⟨0, _⟩ => show win0_0.index t (0 : Fin 2) * 5000 + 1 * (j 0).val = win0_6.index t (0 : Fin 2) * 5000 + 1 * (j 0).val; omega
    | ⟨1, _⟩ => show win0_0.index t (1 : Fin 2) * 64 + 1 * k.val = k.val; omega
  · show V c main_v13 (((cfg0.win 1).blk t).view.emb (ix2 (j 0) k)) = V c main_v13 (ix2 ((((cfg0.win 6).blk t).view.emb j) 0) k)
    refine congrArg _ (funext fun a => Fin.ext ?_)
    match a with
    | ⟨0, _⟩ => show win0_1.index t (0 : Fin 2) * 5000 + 1 * (j 0).val = win0_6.index t (0 : Fin 2) * 5000 + 1 * (j 0).val; omega
    | ⟨1, _⟩ => show win0_1.index t (1 : Fin 2) * 64 + 1 * k.val = k.val; omega

/-- An index of the result array is in point t's block iff each coordinate is in the block's range on its axis. -/
theorem mem_blk (t : Fin cfg0.N) (i : S100000x64.Idx) :
    i ∈ ((cfg0.win 6).blk t).view.set ↔ ∀ a : Fin 2, win0_6.index t a * S5000x64.size a ≤ (i a).val ∧ (i a).val < win0_6.index t a * S5000x64.size a + S5000x64.size a := by
  show i ∈ ((View.whole main_v24).slice (win0_6.rect t)).set ↔ _
  rw [View.set_slice_whole, Rect.mem_set_unit]
  exact Iff.rfl

/-- Row p of the result is in the block of point p / 5000. -/
theorem cover (i : S100000x64.Idx) : ∃ t : Fin cfg0.N, (cfg0.win 6).flush t = true ∧ i ∈ ((cfg0.win 6).blk t).view.set := by
  have hi0 : (i 0).val < 100000 := (i 0).isLt
  have hi1 : (i 1).val < 64 := (i 1).isLt
  have hN : cfg0.N = 20 := N_0
  let t : Fin cfg0.N := ⟨(i 0).val / 5000, by rw [hN]; omega⟩
  have ht : t.val = (i 0).val / 5000 := rfl
  obtain ⟨e00, e01, e10, e11, e20, e21, e30, e31, e40, e41, e50, e51, e60, e61⟩ := idx_facts t
  refine ⟨t, flush0_6 t, ?_⟩
  rw [mem_blk]
  intro a
  match a with
  | ⟨0, _⟩ => show win0_6.index t (0 : Fin 2) * 5000 ≤ (i 0).val ∧ (i 0).val < win0_6.index t (0 : Fin 2) * 5000 + 5000; omega
  | ⟨1, _⟩ => show win0_6.index t (1 : Fin 2) * 64 ≤ (i 1).val ∧ (i 1).val < win0_6.index t (1 : Fin 2) * 64 + 64; omega

/-- The result array after the region: the layer of the arrays the region was entered with. -/
theorem final (c : Dev nD) : (dat0 V c).arrAt 6 cfg0.N = whole V c :=
  (dat0 V c).arrAt_eq_of_cover 6 (whole V c) (fun t _ => flushed_eq V c t) cover

end Cert.KernelIdeal.Region0

end
-- ==== Proof.Region1.lean ====
/-
  What layer kernel 1 leaves in its output array, from the arrays it is entered with.

  The kernel sweeps the 100000 rows in 20 blocks of 5000.  At grid point t it stages rows 5000 t … 5000 t + 4999 of the
  node features and of the aggregated features, the whole of both weight matrices and both bias rows, and writes back
  the layer of those blocks as rows 5000 t … 5000 t + 4999 of the result.  An entry of the layer reads one row of the
  features only, so the written block is that block of rows of the layer of the WHOLE arrays; the 20 blocks cover the
  result, which therefore ends as the layer of the arrays the kernel was entered with.
-/
import proofs.«124465_j37830071943189_1_alg».proof.Proof.Gen.KernelIdeal.Frame
import proofs.«124465_j37830071943189_1_alg».proof.Proof.KernelBody
import Idealize.ShloMosaic.Lib.Pipeline.Value

set_option maxRecDepth 16384

noncomputable section

namespace Cert.KernelIdeal.Region1

open Cert.KernelIdeal Cert.KernelIdeal.Gen Idealize.ShloMosaic Idealize.ShloMosaic.TcCoe Idealize.SL.Sem
open Idealize.ShloMosaic.ValueIdx Cert.GinLayer
open Idealize.ShloMosaic.Pipeline (Dat)

variable (V : (c : Dev nD) → (b : Ref sig .tc) → Buf (Elt Ideal) ((c : Thread nD τ).loc b))

theorem hz : (![0, 0] : Fin 2 → Nat) = fun _ => 0 := funext fun a => by fin_cases a <;> rfl

/-- The layer of the whole arrays the region is entered with. -/
abbrev whole (c : Dev nD) : S100000x64.Idx → EReal :=
  layer (n := 100000) (V c main_v24) (V c main_v34) (V c main_v36) (V c main_v43) (V c main_v40) (V c main_v44)

/-- The printed index maps over the grid: the two feature windows and the result window sit at block row t, column
    block 0; the weight and bias windows at block (0, 0). -/
theorem idx_facts : ∀ t : Fin cfg1.N,
    win1_0.index t (0 : Fin 2) = t.val ∧ win1_0.index t (1 : Fin 2) = 0
    ∧ win1_1.index t (0 : Fin 2) = t.val ∧ win1_1.index t (1 : Fin 2) = 0
    ∧ win1_2.index t (0 : Fin 2) = 0 ∧ win1_2.index t (1 : Fin 2) = 0
    ∧ win1_3.index t (0 : Fin 2) = 0 ∧ win1_3.index t (1 : Fin 2) = 0
    ∧ win1_4.index t (0 : Fin 2) = 0 ∧ win1_4.index t (1 : Fin 2) = 0
    ∧ win1_5.index t (0 : Fin 2) = 0 ∧ win1_5.index t (1 : Fin 2) = 0
    ∧ win1_6.index t (0 : Fin 2) = t.val ∧ win1_6.index t (1 : Fin 2) = 0 :=
  (by decide +kernel : ∀ t : Fin grid1.N, _)

/-- A block of rows of the layer: an entry of the layer of two row blocks whose row r holds row p of the whole
    feature arrays is the layer of the whole arrays at (p, q). -/
theorem block_entry {n : ℕ} (H A : (⟨2, ![n, 64]⟩ : Shape).Idx → EReal) (h' a' : (⟨2, ![5000, 64]⟩ : Shape).Idx → EReal)
    (w1 : (⟨2, ![64, 64]⟩ : Shape).Idx → EReal) (b1 : (⟨2, ![1, 64]⟩ : Shape).Idx → EReal)
    (w2 : (⟨2, ![64, 64]⟩ : Shape).Idx → EReal) (b2 : (⟨2, ![1, 64]⟩ : Shape).Idx → EReal)
    (j : (⟨2, ![5000, 64]⟩ : Shape).Idx) (i : (⟨2, ![n, 64]⟩ : Shape).Idx) (hq : (i 1).val = (j 1).val)
    (hh : ∀ k : Fin 64, h' (ix2 (j 0) k) = H (ix2 (i 0) k)) (ha : ∀ k : Fin 64, a' (ix2 (j 0) k) = A (ix2 (i 0) k)) :
    layer h' a' w1 b1 w2 b2 j = layer H A w1 b1 w2 b2 i := by
  have e : i 1 = j 1 := Fin.ext hq
  rw [eq_ix2 j, eq_ix2 i, e]
  exact layer_congr_rows H A h' a' w1 b1 w2 b2 (i 0) (j 0) (j 1) hh ha

set_option maxHeartbeats 2000000 in
/-- What grid point t writes back is its block of rows of the layer of the whole arrays. -/
theorem flushed_eq (c : Dev nD) (t : Fin cfg1.N) :
    (dat1 V c).flushed 6 t = ((cfg1.win 6).blk t).view.read (Elt Ideal) (whole V c) := by
  show (cfg1.win 6).cut (grid1.coords t) ((dat1 V c).after 6 t) = _
  rw [after1_6]
  unfold out1_6
  rw [View.canon_unit_zero hz]
  simp only [View.ld_unit_zero (S := S5000x64) hz, View.ld_unit_zero (S := S64x64) hz, View.ld_unit_zero (S := S1x64) hz]
  rw [Cert.KernelIdeal.Body.pay1_eq]
  obtain ⟨e00, e01, e10, e11, e20, e21, e30, e31, e40, e41, e50, e51, e60, e61⟩ := idx_facts t
  have w2 : iblk1 V c 2 t = V c main_v36 := by
    funext y
    show V c main_v36 (((cfg1.win 2).blk t).view.emb y) = V c main_v36 y
    refine congrArg _ (funext fun a => Fin.ext ?_)
    match a with
    | ⟨0, _⟩ => show win1_2.index t (0 : Fin 2) * 64 + 1 * (y 0).val = (y 0).val; omega
    | ⟨1, _⟩ => show win1_2.index t (1 : Fin 2) * 64 + 1 * (y 1).val = (y 1).val; omega
  have w3 : iblk1 V c 3 t = V c main_v43 := by
    funext y
    show V c main_v43 (((cfg1.win 3).blk t).view.emb y) = V c main_v43 y
    refine congrArg _ (funext fun a => Fin.ext ?_)
    match a with
    | ⟨0, _⟩ => show win1_3.index t (0 : Fin 2) * 1 + 1 * (y 0).val = (y 0).val; omega
    | ⟨1, _⟩ => show win1_3.index t (1 : Fin 2) * 64 + 1 * (y 1).val = (y 1).val; omega
  have w4 : iblk1 V c 4 t = V c main_v40 := by
    funext y
    show V c main_v40 (((cfg1.win 4).blk t).view.emb y) = V c main_v40 y
    refine congrArg _ (funext fun a => Fin.ext ?_)
    match a with
    | ⟨0, _⟩ => show win1_4.index t (0 : Fin 2) * 64 + 1 * (y 0).val = (y 0).val; omega
    | ⟨1, _⟩ => show win1_4.index t (1 : Fin 2) * 64 + 1 * (y 1).val = (y 1).val; omega
  have w5 : iblk1 V c 5 t = V c main_v44 := by
    funext y
    show V c main_v44 (((cfg1.win 5).blk t).view.emb y) = V c main_v44 y
    refine congrArg _ (funext fun a => Fin.ext ?_)
    match a with
    | ⟨0, _⟩ => show win1_5.index t (0 : Fin 2) * 1 + 1 * (y 0).val = (y 0).val; omega
    | ⟨1, _⟩ => show win1_5.index t (1 : Fin 2) * 64 + 1 * (y 1).val = (y 1).val; omega
  rw [w2, w3, w4, w5]
  funext j
  show layer (iblk1 V c 0 t) (iblk1 V c 1 t) (V c main_v36) (V c main_v43) (V c main_v40) (V c main_v44) j
    = layer (n := 100000) (V c main_v24) (V c main_v34) (V c main_v36) (V c main_v43) (V c main_v40) (V c main_v44)
        (((cfg1.win 6).blk t).view.emb j)
  refine block_entry _ _ _ _ _ _ _ _ j _ ?_ (fun k => ?_) (fun k => ?_)
  · show win1_6.index t (1 : Fin 2) * 64 + 1 * (j 1).val = (j 1).val
    omega
  · show V c main_v24 (((cfg1.win 0).blk t).view.emb (ix2 (j 0) k)) = V c main_v24 (ix2 ((((cfg1.win 6).blk t).view.emb j) 0) k)
    refine congrArg _ (funext fun a => Fin.ext ?_)
    match a with
    | ⟨0, _⟩ => show win1_0.index t (0 : Fin 2) * 5000 + 1 * (j 0).val = win1_6.index t (0 : Fin 2) * 5000 + 1 * (j 0).val; omega
    | ⟨1, _⟩ => show win1_0.index t (1 : Fin 2) * 64 + 1 * k.val = k.val; omega
  · show V c main_v34 (((cfg1.win 1).blk t).view.emb (ix2 (j 0) k)) = V c main_v34 (ix2 ((((cfg1.win 6).blk t).view.emb j) 0) k)
    refine congrArg _ (funext fun a => Fin.ext ?_)
    match a with
    | ⟨0, _⟩ => show win1_1.index t (0 : Fin 2) * 5000 + 1 * (j 0).val = win1_6.index t (0 : Fin 2) * 5000 + 1 * (j 0).val; omega
    | ⟨1, _⟩ => show win1_1.index t (1 : Fin 2) * 64 + 1 * k.val = k.val; omega

/-- An index of the result array is in point t's block iff each coordinate is in the block's range on its axis. -/
theorem mem_blk (t : Fin cfg1.N) (i : S100000x64.Idx) :
    i ∈ ((cfg1.win 6).blk t).view.set ↔ ∀ a : Fin 2, win1_6.index t a * S5000x64.size a ≤ (i a).val ∧ (i a).val < win1_6.index t a * S5000x64.size a + S5000x64.size a := by
  show i ∈ ((View.whole main_v45).slice (win1_6.rect t)).set ↔ _
  rw [View.set_slice_whole, Rect.mem_set_unit]
  exact Iff.rfl

/-- Row p of the result is in the block of point p / 5000. -/
theorem cover (i : S100000x64.Idx) : ∃ t : Fin cfg1.N, (cfg1.win 6).flush t = true ∧ i ∈ ((cfg1.win 6).blk t).view.set := by
  have hi0 : (i 0).val < 100000 := (i 0).isLt
  have hi1 : (i 1).val < 64 := (i 1).isLt
  have hN : cfg1.N = 20 := N_1
  let t : Fin cfg1.N := ⟨(i 0).val / 5000, by rw [hN]; omega⟩
  have ht : t.val = (i 0).val / 5000 := rfl
  obtain ⟨e00, e01, e10, e11, e20, e21, e30, e31, e40, e41, e50, e51, e60, e61⟩ := idx_facts t
  refine ⟨t, flush1_6 t, ?_⟩
  rw [mem_blk]
  intro a
  match a with
  | ⟨0, _⟩ => show win1_6.index t (0 : Fin 2) * 5000 ≤ (i 0).val ∧ (i 0).val < win1_6.index t (0 : Fin 2) * 5000 + 5000; omega
  | ⟨1, _⟩ => show win1_6.index t (1 : Fin 2) * 64 ≤ (i 1).val ∧ (i 1).val < win1_6.index t (1 : Fin 2) * 64 + 64; omega

/-- The result array after the region: the layer of the arrays the region was entered with. -/
theorem final (c : Dev nD) : (dat1 V c).arrAt 6 cfg1.N = whole V c :=
  (dat1 V c).arrAt_eq_of_cover 6 (whole V c) (fun t _ => flushed_eq V c t) cover

end Cert.KernelIdeal.Region1

end
-- ==== Proof.Region2.lean ====
/-
  What layer kernel 2 leaves in its output array, from the arrays it is entered with.

  The kernel sweeps the 100000 rows in 20 blocks of 5000.  At grid point t it stages rows 5000 t … 5000 t + 4999 of the
  node features and of the aggregated features, the whole of both weight matrices and both bias rows, and writes back
  the layer of those blocks as rows 5000 t … 5000 t + 4999 of the result.  An entry of the layer reads one row of the
  features only, so the written block is that block of rows of the layer of the WHOLE arrays; the 20 blocks cover the
  result, which therefore ends as the layer of the arrays the kernel was entered with.
-/
import proofs.«124465_j37830071943189_1_alg».proof.Proof.Gen.KernelIdeal.Frame
import proofs.«124465_j37830071943189_1_alg».proof.Proof.KernelBody
import Idealize.ShloMosaic.Lib.Pipeline.Value

set_option maxRecDepth 16384

noncomputable section

namespace Cert.KernelIdeal.Region2

open Cert.KernelIdeal Cert.KernelIdeal.Gen Idealize.ShloMosaic Idealize.ShloMosaic.TcCoe Idealize.SL.Sem
open Idealize.ShloMosaic.ValueIdx Cert.GinLayer
open Idealize.ShloMosaic.Pipeline (Dat)

variable (V : (c : Dev nD) → (b : Ref sig .tc) → Buf (Elt Ideal) ((c : Thread nD τ).loc b))

theorem hz : (![0, 0] : Fin 2 → Nat) = fun _ => 0 := funext fun a => by fin_cases a <;> rfl

/-- The layer of the whole arrays the region is entered with. -/
abbrev whole (c : Dev nD) : S100000x64.Idx → EReal :=
  layer (n := 100000) (V c main_v45) (V c main_v55) (V c main_v57) (V c main_v64) (V c main_v61) (V c main_v65)

/-- The printed index maps over the grid: the two feature windows and the result window sit at block row t, column
    block 0; the weight and bias windows at block (0, 0). -/
theorem idx_facts : ∀ t : Fin cfg2.N,
    win2_0.index t (0 : Fin 2) = t.val ∧ win2_0.index t (1 : Fin 2) = 0
    ∧ win2_1.index t (0 : Fin 2) = t.val ∧ win2_1.index t (1 : Fin 2) = 0
    ∧ win2_2.index t (0 : Fin 2) = 0 ∧ win2_2.index t (1 : Fin 2) = 0
    ∧ win2_3.index t (0 : Fin 2) = 0 ∧ win2_3.index t (1 : Fin 2) = 0
    ∧ win2_4.index t (0 : Fin 2) = 0 ∧ win2_4.index t (1 : Fin 2) = 0
    ∧ win2_5.index t (0 : Fin 2) = 0 ∧ win2_5.index t (1 : Fin 2) = 0
    ∧ win2_6.index t (0 : Fin 2) = t.val ∧ win2_6.index t (1 : Fin 2) = 0 :=
  (by decide +kernel : ∀ t : Fin grid2.N, _)

/-- A block of rows of the layer: an entry of the layer of two row blocks whose row r holds row p of the whole
    feature arrays is the layer of the whole arrays at (p, q). -/
theorem block_entry {n : ℕ} (H A : (⟨2, ![n, 64]⟩ : Shape).Idx → EReal) (h' a' : (⟨2, ![5000, 64]⟩ : Shape).Idx → EReal)
    (w1 : (⟨2, ![64, 64]⟩ : Shape).Idx → EReal) (b1 : (⟨2, ![1, 64]⟩ : Shape).Idx → EReal)
    (w2 : (⟨2, ![64, 64]⟩ : Shape).Idx → EReal) (b2 : (⟨2, ![1, 64]⟩ : Shape).Idx → EReal)
    (j : (⟨2, ![5000, 64]⟩ : Shape).Idx) (i : (⟨2, ![n, 64]⟩ : Shape).Idx) (hq : (i 1).val = (j 1).val)
    (hh : ∀ k : Fin 64, h' (ix2 (j 0) k) = H (ix2 (i 0) k)) (ha : ∀ k : Fin 64, a' (ix2 (j 0) k) = A (ix2 (i 0) k)) :
    layer h' a' w1 b1 w2 b2 j = layer H A w1 b1 w2 b2 i := by
  have e : i 1 = j 1 := Fin.ext hq
  rw [eq_ix2 j, eq_ix2 i, e]
  exact layer_congr_rows H A h' a' w1 b1 w2 b2 (i 0) (j 0) (j 1) hh ha

set_option maxHeartbeats 2000000 in
/-- What grid point t writes back is its block of rows of the layer of the whole arrays. -/
theorem flushed_eq (c : Dev nD) (t : Fin cfg2.N) :
    (dat2 V c).flushed 6 t = ((cfg2.win 6).blk t).view.read (Elt Ideal) (whole V c) := by
  show (cfg2.win 6).cut (grid2.coords t) ((dat2 V c).after 6 t) = _
  rw [after2_6]
  unfold out2_6
  rw [View.canon_unit_zero hz]
  simp only [View.ld_unit_zero (S := S5000x64) hz, View.ld_unit_zero (S := S64x64) hz, View.ld_unit_zero (S := S1x64) hz]
  rw [Cert.KernelIdeal.Body.pay2_eq]
  obtain ⟨e00, e01, e10, e11, e20, e21, e30, e31, e40, e41, e50, e51, e60, e61⟩ := idx_facts t
  have w2 : iblk2 V c 2 t = V c main_v57 := by
    funext y
    show V c main_v57 (((cfg2.win 2).blk t).view.emb y) = V c main_v57 y
    refine congrArg _ (funext fun a => Fin.ext ?_)
    match a with
    | ⟨0, _⟩ => show win2_2.index t (0 : Fin 2) * 64 + 1 * (y 0).val = (y 0).val; omega
    | ⟨1, _⟩ => show win2_2.index t (1 : Fin 2) * 64 + 1 * (y 1).val = (y 1).val; omega
  have w3 : iblk2 V c 3 t = V c main_v64 := by
    funext y
    show V c main_v64 (((cfg2.win 3).blk t).view.emb y) = V c main_v64 y
    refine congrArg _ (funext fun a => Fin.ext ?_)
    match a with
    | ⟨0, _⟩ => show win2_3.index t (0 : Fin 2) * 1 + 1 * (y 0).val = (y 0).val; omega
    | ⟨1, _⟩ => show win2_3.index t (1 : Fin 2) * 64 + 1 * (y 1).val = (y 1).val; omega
  have w4 : iblk2 V c 4 t = V c main_v61 := by
    funext y
    show V c main_v61 (((cfg2.win 4).blk t).view.emb y) = V c main_v61 y
    refine congrArg _ (funext fun a => Fin.ext ?_)
    match a with
    | ⟨0, _⟩ => show win2_4.index t (0 : Fin 2) * 64 + 1 * (y 0).val = (y 0).val; omega
    | ⟨1, _⟩ => show win2_4.index t (1 : Fin 2) * 64 + 1 * (y 1).val = (y 1).val; omega
  have w5 : iblk2 V c 5 t = V c main_v65 := by
    funext y
    show V c main_v65 (((cfg2.win 5).blk t).view.emb y) = V c main_v65 y
    refine congrArg _ (funext fun a => Fin.ext ?_)
    match a with
    | ⟨0, _⟩ => show win2_5.index t (0 : Fin 2) * 1 + 1 * (y 0).val = (y 0).val; omega
    | ⟨1, _⟩ => show win2_5.index t (1 : Fin 2) * 64 + 1 * (y 1).val = (y 1).val; omega
  rw [w2, w3, w4, w5]
  funext j
  show layer (iblk2 V c 0 t) (iblk2 V c 1 t) (V c main_v57) (V c main_v64) (V c main_v61) (V c main_v65) j
    = layer (n := 100000) (V c main_v45) (V c main_v55) (V c main_v57) (V c main_v64) (V c main_v61) (V c main_v65)
        (((cfg2.win 6).blk t).view.emb j)
  refine block_entry _ _ _ _ _ _ _ _ j _ ?_ (fun k => ?_) (fun k => ?_)
  · show win2_6.index t (1 : Fin 2) * 64 + 1 * (j 1).val = (j 1).val
    omega
  · show V c main_v45 (((cfg2.win 0).blk t).view.emb (ix2 (j 0) k)) = V c main_v45 (ix2 ((((cfg2.win 6).blk t).view.emb j) 0) k)
    refine congrArg _ (funext fun a => Fin.ext ?_)
    match a with
    | ⟨0, _⟩ => show win2_0.index t (0 : Fin 2) * 5000 + 1 * (j 0).val = win2_6.index t (0 : Fin 2) * 5000 + 1 * (j 0).val; omega
    | ⟨1, _⟩ => show win2_0.index t (1 : Fin 2) * 64 + 1 * k.val = k.val; omega
  · show V c main_v55 (((cfg2.win 1).blk t).view.emb (ix2 (j 0) k)) = V c main_v55 (ix2 ((((cfg2.win 6).blk t).view.emb j) 0) k)
    refine congrArg _ (funext fun a => Fin.ext ?_)
    match a with
    | ⟨0, _⟩ => show win2_1.index t (0 : Fin 2) * 5000 + 1 * (j 0).val = win2_6.index t (0 : Fin 2) * 5000 + 1 * (j 0).val; omega
    | ⟨1, _⟩ => show win2_1.index t (1 : Fin 2) * 64 + 1 * k.val = k.val; omega

/-- An index of the result array is in point t's block iff each coordinate is in the block's range on its axis. -/
theorem mem_blk (t : Fin cfg2.N) (i : S100000x64.Idx) :
    i ∈ ((cfg2.win 6).blk t).view.set ↔ ∀ a : Fin 2, win2_6.index t a * S5000x64.size a ≤ (i a).val ∧ (i a).val < win2_6.index t a * S5000x64.size a + S5000x64.size a := by
  show i ∈ ((View.whole main_v66).slice (win2_6.rect t)).set ↔ _
  rw [View.set_slice_whole, Rect.mem_set_unit]
  exact Iff.rfl

/-- Row p of the result is in the block of point p / 5000. -/
theorem cover (i : S100000x64.Idx) : ∃ t : Fin cfg2.N, (cfg2.win 6).flush t = true ∧ i ∈ ((cfg2.win 6).blk t).view.set := by
  have hi0 : (i 0).val < 100000 := (i 0).isLt
  have hi1 : (i 1).val < 64 := (i 1).isLt
  have hN : cfg2.N = 20 := N_2
  let t : Fin cfg2.N := ⟨(i 0).val / 5000, by rw [hN]; omega⟩
  have ht : t.val = (i 0).val / 5000 := rfl
  obtain ⟨e00, e01, e10, e11, e20, e21, e30, e31, e40, e41, e50, e51, e60, e61⟩ := idx_facts t
  refine ⟨t, flush2_6 t, ?_⟩
  rw [mem_blk]
  intro a
  match a with
  | ⟨0, _⟩ => show win2_6.index t (0 : Fin 2) * 5000 ≤ (i 0).val ∧ (i 0).val < win2_6.index t (0 : Fin 2) * 5000 + 5000; omega
  | ⟨1, _⟩ => show win2_6.index t (1 : Fin 2) * 64 ≤ (i 1).val ∧ (i 1).val < win2_6.index t (1 : Fin 2) * 64 + 64; omega

/-- The result array after the region: the layer of the arrays the region was entered with. -/
theorem final (c : Dev nD) : (dat2 V c).arrAt 6 cfg2.N = whole V c :=
  (dat2 V c).arrAt_eq_of_cover 6 (whole V c) (fun t _ => flushed_eq V c t) cover

end Cert.KernelIdeal.Region2

end
-- ==== Proof.Net.lean ====
/-
  The pieces of the three-layer network that run on the host, each as a function of arrays.

  Both programs compute, for node features x and an edge list e = (src, dst),

      h₀ = x,   h_{l+1} = layer h_l (agg h_l src dst) W1[l] b1[l] W2[l] b2[l]   (l = 0, 1, 2),

  where agg h src dst sums, into each node, the rows of h at the sources of the edges that end in it (a gather of rows at
  the sources, negative indices wrapped once, followed by a scatter-add at the targets into zeros); then they pool the
  rows of h₃ by subgraph, the subgraph rows by graph, and apply a rectified dense layer and two one-column heads.
  The definitions below name these pieces exactly as the host operations spell them, so that each side's result
  can be stated as one nested term of them.
-/
import proofs.«124465_j37830071943189_1_alg».proof.Proof.Gen.KernelIdeal

noncomputable section

namespace Cert.KernelIdeal.Net

open Cert.KernelIdeal Cert.KernelIdeal.Facts₀ Cert.KernelIdeal.Facts Idealize.ShloMosaic

variable {F : FTy → Type} [FloatOps F]

/-- The edges' source nodes: row 0 of the edge list. -/
def srcIdx (e : (⟨S2x1000000, .i32⟩ : BufTy).Contents (Elt F)) : (⟨S1000000, .i32⟩ : BufTy).Contents (Elt F) :=
  shapeCast _ (extractStridedSlice S1x1000000 ![0, 0] e slices_S2x1000000_S1x1000000_0_0) shapeCasts_S1x1000000_S1000000

/-- The edges' target nodes: row 1 of the edge list. -/
def dstIdx (e : (⟨S2x1000000, .i32⟩ : BufTy).Contents (Elt F)) : (⟨S1000000, .i32⟩ : BufTy).Contents (Elt F) :=
  shapeCast _ (extractStridedSlice S1x1000000 ![1, 0] e slices_S2x1000000_S1x1000000_1_0) shapeCasts_S1x1000000_S1000000

/-- The neighbourhood sums: the rows of h at the edges' sources (a negative source wrapped by the node count), added
    into zeros at the edges' targets. -/
def agg (h : (⟨S100000x64, .f32⟩ : BufTy).Contents (Elt F)) (s d : (⟨S1000000, .i32⟩ : BufTy).Contents (Elt F)) :
    (⟨S100000x64, .f32⟩ : BufTy).Contents (Elt F) :=
  Host.scatterAdd scatter_S100000x64_S1000000x1_S1000000x64_1_0_0_1
    (broadcastInDim S100000x64 ![] bcast_S_S100000x64 (constant S_ .f32 0x00000000#32))
    (broadcastInDim S1000000x1 ![0] bcast_S1000000_S1000000x1_0 d)
    (Host.gather gather_S100000x64_S1000000x1_S1000000x64_1_0_n_n_0_1_164 h
      (broadcastInDim S1000000x1 ![0] bcast_S1000000_S1000000x1_0
        (select (cmpi .slt s (broadcastInDim S1000000 ![] bcast_S_S1000000 (constantI S_ 32 0#32)))
          (addi s (broadcastInDim S1000000 ![] bcast_S_S1000000 (constantI S_ 32 100000#32))) s)))

/-- Layer 0's weight matrix out of a stack of three. -/
def wsl0 (w : (⟨S3x64x64, .f32⟩ : BufTy).Contents (Elt F)) : (⟨S64x64, .f32⟩ : BufTy).Contents (Elt F) :=
  shapeCast _ (extractStridedSlice S1x64x64 ![0, 0, 0] w slices_S3x64x64_S1x64x64_0_0_0) shapeCasts_S1x64x64_S64x64

/-- Layer 0's bias out of a stack of three, as a vector of length 64. -/
def bvec0 (b : (⟨S3x64, .f32⟩ : BufTy).Contents (Elt F)) : (⟨S64, .f32⟩ : BufTy).Contents (Elt F) :=
  shapeCast _ (extractStridedSlice S1x64 ![0, 0] b slices_S3x64_S1x64_0_0) shapeCasts_S1x64_S64

/-- The same bias as a [1, 64] row. -/
def brow0 (b : (⟨S3x64, .f32⟩ : BufTy).Contents (Elt F)) : (⟨S1x64, .f32⟩ : BufTy).Contents (Elt F) :=
  shapeCast _ (bvec0 b) shapeCasts_S64_S1x64

/-- Layer 1's weight matrix out of a stack of three. -/
def wsl1 (w : (⟨S3x64x64, .f32⟩ : BufTy).Contents (Elt F)) : (⟨S64x64, .f32⟩ : BufTy).Contents (Elt F) :=
  shapeCast _ (extractStridedSlice S1x64x64 ![1, 0, 0] w slices_S3x64x64_S1x64x64_1_0_0) shapeCasts_S1x64x64_S64x64

/-- Layer 1's bias out of a stack of three, as a vector of length 64. -/
def bvec1 (b : (⟨S3x64, .f32⟩ : BufTy).Contents (Elt F)) : (⟨S64, .f32⟩ : BufTy).Contents (Elt F) :=
  shapeCast _ (extractStridedSlice S1x64 ![1, 0] b slices_S3x64_S1x64_1_0) shapeCasts_S1x64_S64

/-- The same bias as a [1, 64] row. -/
def brow1 (b : (⟨S3x64, .f32⟩ : BufTy).Contents (Elt F)) : (⟨S1x64, .f32⟩ : BufTy).Contents (Elt F) :=
  shapeCast _ (bvec1 b) shapeCasts_S64_S1x64

/-- Layer 2's weight matrix out of a stack of three. -/
def wsl2 (w : (⟨S3x64x64, .f32⟩ : BufTy).Contents (Elt F)) : (⟨S64x64, .f32⟩ : BufTy).Contents (Elt F) :=
  shapeCast _ (extractStridedSlice S1x64x64 ![2, 0, 0] w slices_S3x64x64_S1x64x64_2_0_0) shapeCasts_S1x64x64_S64x64

/-- Layer 2's bias out of a stack of three, as a vector of length 64. -/
def bvec2 (b : (⟨S3x64, .f32⟩ : BufTy).Contents (Elt F)) : (⟨S64, .f32⟩ : BufTy).Contents (Elt F) :=
  shapeCast _ (extractStridedSlice S1x64 ![2, 0] b slices_S3x64_S1x64_2_0) shapeCasts_S1x64_S64

/-- The same bias as a [1, 64] row. -/
def brow2 (b : (⟨S3x64, .f32⟩ : BufTy).Contents (Elt F)) : (⟨S1x64, .f32⟩ : BufTy).Contents (Elt F) :=
  shapeCast _ (bvec2 b) shapeCasts_S64_S1x64

/-- The nested pooling: node rows added by subgraph, subgraph rows added by graph. -/
def pool (h : (⟨S100000x64, .f32⟩ : BufTy).Contents (Elt F)) (n2s : (⟨S100000, .i32⟩ : BufTy).Contents (Elt F))
    (s2g : (⟨S10000, .i32⟩ : BufTy).Contents (Elt F)) : (⟨S500x64, .f32⟩ : BufTy).Contents (Elt F) :=
  Host.scatterAdd scatter_S500x64_S10000x1_S10000x64_1_0_0_1
    (broadcastInDim S500x64 ![] bcast_S_S500x64 (constant S_ .f32 0x00000000#32))
    (broadcastInDim S10000x1 ![0] bcast_S10000_S10000x1_0 s2g)
    (Host.scatterAdd scatter_S10000x64_S100000x1_S100000x64_1_0_0_1
      (broadcastInDim S10000x64 ![] bcast_S_S10000x64 (constant S_ .f32 0x00000000#32))
      (broadcastInDim S100000x1 ![0] bcast_S100000_S100000x1_0 n2s) h)

/-- The rectified dense layer on the pooled rows. -/
def hidden (g : (⟨S500x64, .f32⟩ : BufTy).Contents (Elt F)) (w : (⟨S64x64, .f32⟩ : BufTy).Contents (Elt F))
    (b : (⟨S64, .f32⟩ : BufTy).Contents (Elt F)) : (⟨S500x64, .f32⟩ : BufTy).Contents (Elt F) :=
  maximumf (addf (Host.dotGeneral dot_S500x64_S64x64_S500x64_1_0_0_1_n_n none g w)
      (broadcastInDim S500x64 ![0, 1] bcast_S1x64_S500x64_0_1 (broadcastInDim S1x64 ![1] bcast_S64_S1x64_1 b)))
    (broadcastInDim S500x64 ![] bcast_S_S500x64 (constant S_ .f32 0x00000000#32))

/-- A one-column output head. -/
def head (hd : (⟨S500x64, .f32⟩ : BufTy).Contents (Elt F)) (w : (⟨S64x1, .f32⟩ : BufTy).Contents (Elt F))
    (b : (⟨S1, .f32⟩ : BufTy).Contents (Elt F)) : (⟨S500x1, .f32⟩ : BufTy).Contents (Elt F) :=
  addf (Host.dotGeneral dot_S500x64_S64x1_S500x1_1_0_0_1_n_n none hd w)
    (broadcastInDim S500x1 ![0, 1] bcast_S1x1_S500x1_0_1 (broadcastInDim S1x1 ![1] bcast_S1_S1x1_1 b))

end Cert.KernelIdeal.Net

end
-- ==== Proof.Terms.lean ====
/-
  The network's intermediate features and its two results as nested terms of the argument arrays.

  H1, H2, H3 are the node features after the first, second and third layer: each is the layer of the previous
  features and their neighbourhood sums, with that layer's weights and biases.  Out0 and Out1 are the two heads of the
  rectified dense layer on the nested pooling of H3.  Both programs are shown to end with their results at these terms.
-/
import proofs.«124465_j37830071943189_1_alg».proof.Proof.Gen.KernelIdeal
import proofs.«124465_j37830071943189_1_alg».proof.Proof.Layer
import proofs.«124465_j37830071943189_1_alg».proof.Proof.Net

noncomputable section

namespace Cert.KernelIdeal.Net

open Cert.KernelIdeal Idealize.ShloMosaic Idealize.ShloMosaic.TcCoe Idealize.SL.Sem Cert.GinLayer

variable (m : (ℓ : Loc nD τ sig) → Buf (Elt Ideal) ℓ) (c : Dev nD)

/-! ## The two sides' common terms -/

/-- The node features after the first layer. -/
def H1 : S100000x64.Idx → EReal :=
  layer (n := 100000) (m ((c : Thread nD τ).loc main_arg0)) (agg (m ((c : Thread nD τ).loc main_arg0)) (srcIdx (m ((c : Thread nD τ).loc main_arg1))) (dstIdx (m ((c : Thread nD τ).loc main_arg1))))
    (wsl0 (m ((c : Thread nD τ).loc main_arg4))) (brow0 (m ((c : Thread nD τ).loc main_arg5))) (wsl0 (m ((c : Thread nD τ).loc main_arg6))) (brow0 (m ((c : Thread nD τ).loc main_arg7)))

/-- The node features after the second layer. -/
def H2 : S100000x64.Idx → EReal :=
  layer (n := 100000) (H1 m c) (agg (H1 m c) (srcIdx (m ((c : Thread nD τ).loc main_arg1))) (dstIdx (m ((c : Thread nD τ).loc main_arg1))))
    (wsl1 (m ((c : Thread nD τ).loc main_arg4))) (brow1 (m ((c : Thread nD τ).loc main_arg5))) (wsl1 (m ((c : Thread nD τ).loc main_arg6))) (brow1 (m ((c : Thread nD τ).loc main_arg7)))

/-- The node features after the third layer. -/
def H3 : S100000x64.Idx → EReal :=
  layer (n := 100000) (H2 m c) (agg (H2 m c) (srcIdx (m ((c : Thread nD τ).loc main_arg1))) (dstIdx (m ((c : Thread nD τ).loc main_arg1))))
    (wsl2 (m ((c : Thread nD τ).loc main_arg4))) (brow2 (m ((c : Thread nD τ).loc main_arg5))) (wsl2 (m ((c : Thread nD τ).loc main_arg6))) (brow2 (m ((c : Thread nD τ).loc main_arg7)))

/-- The first result: the regression head of the pooled, rectified features. -/
def Out0 : S500x1.Idx → EReal :=
  head (hidden (pool (H3 m c) (m ((c : Thread nD τ).loc main_arg2)) (m ((c : Thread nD τ).loc main_arg3))) (m ((c : Thread nD τ).loc main_arg8)) (m ((c : Thread nD τ).loc main_arg9))) (m ((c : Thread nD τ).loc main_arg10)) (m ((c : Thread nD τ).loc main_arg11))

/-- The second result: the variance head of the same features. -/
def Out1 : S500x1.Idx → EReal :=
  head (hidden (pool (H3 m c) (m ((c : Thread nD τ).loc main_arg2)) (m ((c : Thread nD τ).loc main_arg3))) (m ((c : Thread nD τ).loc main_arg8)) (m ((c : Thread nD τ).loc main_arg9))) (m ((c : Thread nD τ).loc main_arg12)) (m ((c : Thread nD τ).loc main_arg13))

end Cert.KernelIdeal.Net

end
-- ==== Proof.KValue.lean ====
/-
  The layer program's two results as nested terms of its arguments.

  The buffer contents at the nine segment boundaries are a fold from the launch memory.  A layer region leaves its
  result array at the layer of the arrays it was entered with and touches no other array; a stretch of host operations
  writes each of its results as its operation's function of earlier contents.  Reading the fold from the launch to the
  return: the edge list's two rows and the arguments are never overwritten, so they are at every boundary what they
  were when first computed; the features after layers 1, 2, 3 are H1, H2, H3 below; and the two results are the output
  heads of the pooled H3.
-/
import proofs.«124465_j37830071943189_1_alg».proof.Proof.Gen.KernelIdeal.Frame
import proofs.«124465_j37830071943189_1_alg».proof.Proof.KRun
import proofs.«124465_j37830071943189_1_alg».proof.Proof.Region0
import proofs.«124465_j37830071943189_1_alg».proof.Proof.Region1
import proofs.«124465_j37830071943189_1_alg».proof.Proof.Region2
import proofs.«124465_j37830071943189_1_alg».proof.Proof.Net
import proofs.«124465_j37830071943189_1_alg».proof.Proof.Terms
import Idealize.ShloMosaic.Lib.StableHlo.Run

set_option maxRecDepth 16384

noncomputable section

namespace Cert.KernelIdeal.Net

open Cert.KernelIdeal Cert.KernelIdeal.Gen Idealize.ShloMosaic Idealize.ShloMosaic.TcCoe Idealize.SL.Sem
open Idealize.ShloMosaic.StableHlo Cert.GinLayer

variable (m : (ℓ : Loc nD τ sig) → Buf (Elt Ideal) ℓ) (ρ : Dev nD → PrngReg) (c : Dev nD)

/-! ## What is never overwritten -/

set_option maxHeartbeats 2000000 in
theorem k2_v1 : W2 m ρ c (Proc.devRef .tc main_v1) = srcIdx (m ((c : Thread nD τ).loc main_arg1)) := by
  rw [W2_of_ne m ρ c main_v1 (by decide)]
  show StableHlo.after hostOps0 (W0 m ρ c) (Proc.devRef .tc main_v1) = _
  after_results_simp <;> rfl

set_option maxHeartbeats 2000000 in
theorem k2_v3 : W2 m ρ c (Proc.devRef .tc main_v3) = dstIdx (m ((c : Thread nD τ).loc main_arg1)) := by
  rw [W2_of_ne m ρ c main_v3 (by decide)]
  show StableHlo.after hostOps0 (W0 m ρ c) (Proc.devRef .tc main_v3) = _
  after_results_simp <;> rfl

set_option maxHeartbeats 2000000 in
theorem k2_arg2 : W2 m ρ c (Proc.devRef .tc main_arg2) = (m ((c : Thread nD τ).loc main_arg2)) := by
  rw [W2_of_ne m ρ c main_arg2 (by decide)]
  show StableHlo.after hostOps0 (W0 m ρ c) (Proc.devRef .tc main_arg2) = _
  after_results_simp <;> rfl

set_option maxHeartbeats 2000000 in
theorem k2_arg3 : W2 m ρ c (Proc.devRef .tc main_arg3) = (m ((c : Thread nD τ).loc main_arg3)) := by
  rw [W2_of_ne m ρ c main_arg3 (by decide)]
  show StableHlo.after hostOps0 (W0 m ρ c) (Proc.devRef .tc main_arg3) = _
  after_results_simp <;> rfl

set_option maxHeartbeats 2000000 in
theorem k2_arg4 : W2 m ρ c (Proc.devRef .tc main_arg4) = (m ((c : Thread nD τ).loc main_arg4)) := by
  rw [W2_of_ne m ρ c main_arg4 (by decide)]
  show StableHlo.after hostOps0 (W0 m ρ c) (Proc.devRef .tc main_arg4) = _
  after_results_simp <;> rfl

set_option maxHeartbeats 2000000 in
theorem k2_arg5 : W2 m ρ c (Proc.devRef .tc main_arg5) = (m ((c : Thread nD τ).loc main_arg5)) := by
  rw [W2_of_ne m ρ c main_arg5 (by decide)]
  show StableHlo.after hostOps0 (W0 m ρ c) (Proc.devRef .tc main_arg5) = _
  after_results_simp <;> rfl

set_option maxHeartbeats 2000000 in
theorem k2_arg6 : W2 m ρ c (Proc.devRef .tc main_arg6) = (m ((c : Thread nD τ).loc main_arg6)) := by
  rw [W2_of_ne m ρ c main_arg6 (by decide)]
  show StableHlo.after hostOps0 (W0 m ρ c) (Proc.devRef .tc main_arg6) = _
  after_results_simp <;> rfl

set_option maxHeartbeats 2000000 in
theorem k2_arg7 : W2 m ρ c (Proc.devRef .tc main_arg7) = (m ((c : Thread nD τ).loc main_arg7)) := by
  rw [W2_of_ne m ρ c main_arg7 (by decide)]
  show StableHlo.after hostOps0 (W0 m ρ c) (Proc.devRef .tc main_arg7) = _
  after_results_simp <;> rfl

set_option maxHeartbeats 2000000 in
theorem k2_arg8 : W2 m ρ c (Proc.devRef .tc main_arg8) = (m ((c : Thread nD τ).loc main_arg8)) := by
  rw [W2_of_ne m ρ c main_arg8 (by decide)]
  show StableHlo.after hostOps0 (W0 m ρ c) (Proc.devRef .tc main_arg8) = _
  after_results_simp <;> rfl

set_option maxHeartbeats 2000000 in
theorem k2_arg9 : W2 m ρ c (Proc.devRef .tc main_arg9) = (m ((c : Thread nD τ).loc main_arg9)) := by
  rw [W2_of_ne m ρ c main_arg9 (by decide)]
  show StableHlo.after hostOps0 (W0 m ρ c) (Proc.devRef .tc main_arg9) = _
  after_results_simp <;> rfl

set_option maxHeartbeats 2000000 in
theorem k2_arg10 : W2 m ρ c (Proc.devRef .tc main_arg10) = (m ((c : Thread nD τ).loc main_arg10)) := by
  rw [W2_of_ne m ρ c main_arg10 (by decide)]
  show StableHlo.after hostOps0 (W0 m ρ c) (Proc.devRef .tc main_arg10) = _
  after_results_simp <;> rfl

set_option maxHeartbeats 2000000 in
theorem k2_arg11 : W2 m ρ c (Proc.devRef .tc main_arg11) = (m ((c : Thread nD τ).loc main_arg11)) := by
  rw [W2_of_ne m ρ c main_arg11 (by decide)]
  show StableHlo.after hostOps0 (W0 m ρ c) (Proc.devRef .tc main_arg11) = _
  after_results_simp <;> rfl

set_option maxHeartbeats 2000000 in
theorem k2_arg12 : W2 m ρ c (Proc.devRef .tc main_arg12) = (m ((c : Thread nD τ).loc main_arg12)) := by
  rw [W2_of_ne m ρ c main_arg12 (by decide)]
  show StableHlo.after hostOps0 (W0 m ρ c) (Proc.devRef .tc main_arg12) = _
  after_results_simp <;> rfl

set_option maxHeartbeats 2000000 in
theorem k2_arg13 : W2 m ρ c (Proc.devRef .tc main_arg13) = (m ((c : Thread nD τ).loc main_arg13)) := by
  rw [W2_of_ne m ρ c main_arg13 (by decide)]
  show StableHlo.after hostOps0 (W0 m ρ c) (Proc.devRef .tc main_arg13) = _
  after_results_simp <;> rfl

set_option maxHeartbeats 2000000 in
theorem k4_v1 : W4 m ρ c (Proc.devRef .tc main_v1) = srcIdx (m ((c : Thread nD τ).loc main_arg1)) := by
  rw [W4_of_ne m ρ c main_v1 (by decide)]
  show StableHlo.after hostOps1 (W2 m ρ c) (Proc.devRef .tc main_v1) = _
  after_results_simp
  exact k2_v1 m ρ c

set_option maxHeartbeats 2000000 in
theorem k4_v3 : W4 m ρ c (Proc.devRef .tc main_v3) = dstIdx (m ((c : Thread nD τ).loc main_arg1)) := by
  rw [W4_of_ne m ρ c main_v3 (by decide)]
  show StableHlo.after hostOps1 (W2 m ρ c) (Proc.devRef .tc main_v3) = _
  after_results_simp
  exact k2_v3 m ρ c

set_option maxHeartbeats 2000000 in
theorem k4_arg2 : W4 m ρ c (Proc.devRef .tc main_arg2) = (m ((c : Thread nD τ).loc main_arg2)) := by
  rw [W4_of_ne m ρ c main_arg2 (by decide)]
  show StableHlo.after hostOps1 (W2 m ρ c) (Proc.devRef .tc main_arg2) = _
  after_results_simp
  exact k2_arg2 m ρ c

set_option maxHeartbeats 2000000 in
theorem k4_arg3 : W4 m ρ c (Proc.devRef .tc main_arg3) = (m ((c : Thread nD τ).loc main_arg3)) := by
  rw [W4_of_ne m ρ c main_arg3 (by decide)]
  show StableHlo.after hostOps1 (W2 m ρ c) (Proc.devRef .tc main_arg3) = _
  after_results_simp
  exact k2_arg3 m ρ c

set_option maxHeartbeats 2000000 in
theorem k4_arg4 : W4 m ρ c (Proc.devRef .tc main_arg4) = (m ((c : Thread nD τ).loc main_arg4)) := by
  rw [W4_of_ne m ρ c main_arg4 (by decide)]
  show StableHlo.after hostOps1 (W2 m ρ c) (Proc.devRef .tc main_arg4) = _
  after_results_simp
  exact k2_arg4 m ρ c

set_option maxHeartbeats 2000000 in
theorem k4_arg5 : W4 m ρ c (Proc.devRef .tc main_arg5) = (m ((c : Thread nD τ).loc main_arg5)) := by
  rw [W4_of_ne m ρ c main_arg5 (by decide)]
  show StableHlo.after hostOps1 (W2 m ρ c) (Proc.devRef .tc main_arg5) = _
  after_results_simp
  exact k2_arg5 m ρ c

set_option maxHeartbeats 2000000 in
theorem k4_arg6 : W4 m ρ c (Proc.devRef .tc main_arg6) = (m ((c : Thread nD τ).loc main_arg6)) := by
  rw [W4_of_ne m ρ c main_arg6 (by decide)]
  show StableHlo.after hostOps1 (W2 m ρ c) (Proc.devRef .tc main_arg6) = _
  after_results_simp
  exact k2_arg6 m ρ c

set_option maxHeartbeats 2000000 in
theorem k4_arg7 : W4 m ρ c (Proc.devRef .tc main_arg7) = (m ((c : Thread nD τ).loc main_arg7)) := by
  rw [W4_of_ne m ρ c main_arg7 (by decide)]
  show StableHlo.after hostOps1 (W2 m ρ c) (Proc.devRef .tc main_arg7) = _
  after_results_simp
  exact k2_arg7 m ρ c

set_option maxHeartbeats 2000000 in
theorem k4_arg8 : W4 m ρ c (Proc.devRef .tc main_arg8) = (m ((c : Thread nD τ).loc main_arg8)) := by
  rw [W4_of_ne m ρ c main_arg8 (by decide)]
  show StableHlo.after hostOps1 (W2 m ρ c) (Proc.devRef .tc main_arg8) = _
  after_results_simp
  exact k2_arg8 m ρ c

set_option maxHeartbeats 2000000 in
theorem k4_arg9 : W4 m ρ c (Proc.devRef .tc main_arg9) = (m ((c : Thread nD τ).loc main_arg9)) := by
  rw [W4_of_ne m ρ c main_arg9 (by decide)]
  show StableHlo.after hostOps1 (W2 m ρ c) (Proc.devRef .tc main_arg9) = _
  after_results_simp
  exact k2_arg9 m ρ c

set_option maxHeartbeats 2000000 in
theorem k4_arg10 : W4 m ρ c (Proc.devRef .tc main_arg10) = (m ((c : Thread nD τ).loc main_arg10)) := by
  rw [W4_of_ne m ρ c main_arg10 (by decide)]
  show StableHlo.after hostOps1 (W2 m ρ c) (Proc.devRef .tc main_arg10) = _
  after_results_simp
  exact k2_arg10 m ρ c

set_option maxHeartbeats 2000000 in
theorem k4_arg11 : W4 m ρ c (Proc.devRef .tc main_arg11) = (m ((c : Thread nD τ).loc main_arg11)) := by
  rw [W4_of_ne m ρ c main_arg11 (by decide)]
  show StableHlo.after hostOps1 (W2 m ρ c) (Proc.devRef .tc main_arg11) = _
  after_results_simp
  exact k2_arg11 m ρ c

set_option maxHeartbeats 2000000 in
theorem k4_arg12 : W4 m ρ c (Proc.devRef .tc main_arg12) = (m ((c : Thread nD τ).loc main_arg12)) := by
  rw [W4_of_ne m ρ c main_arg12 (by decide)]
  show StableHlo.after hostOps1 (W2 m ρ c) (Proc.devRef .tc main_arg12) = _
  after_results_simp
  exact k2_arg12 m ρ c

set_option maxHeartbeats 2000000 in
theorem k4_arg13 : W4 m ρ c (Proc.devRef .tc main_arg13) = (m ((c : Thread nD τ).loc main_arg13)) := by
  rw [W4_of_ne m ρ c main_arg13 (by decide)]
  show StableHlo.after hostOps1 (W2 m ρ c) (Proc.devRef .tc main_arg13) = _
  after_results_simp
  exact k2_arg13 m ρ c

set_option maxHeartbeats 2000000 in
theorem k6_v1 : W6 m ρ c (Proc.devRef .tc main_v1) = srcIdx (m ((c : Thread nD τ).loc main_arg1)) := by
  rw [W6_of_ne m ρ c main_v1 (by decide)]
  show StableHlo.after hostOps2 (W4 m ρ c) (Proc.devRef .tc main_v1) = _
  after_results_simp
  exact k4_v1 m ρ c

set_option maxHeartbeats 2000000 in
theorem k6_v3 : W6 m ρ c (Proc.devRef .tc main_v3) = dstIdx (m ((c : Thread nD τ).loc main_arg1)) := by
  rw [W6_of_ne m ρ c main_v3 (by decide)]
  show StableHlo.after hostOps2 (W4 m ρ c) (Proc.devRef .tc main_v3) = _
  after_results_simp
  exact k4_v3 m ρ c

set_option maxHeartbeats 2000000 in
theorem k6_arg2 : W6 m ρ c (Proc.devRef .tc main_arg2) = (m ((c : Thread nD τ).loc main_arg2)) := by
  rw [W6_of_ne m ρ c main_arg2 (by decide)]
  show StableHlo.after hostOps2 (W4 m ρ c) (Proc.devRef .tc main_arg2) = _
  after_results_simp
  exact k4_arg2 m ρ c

set_option maxHeartbeats 2000000 in
theorem k6_arg3 : W6 m ρ c (Proc.devRef .tc main_arg3) = (m ((c : Thread nD τ).loc main_arg3)) := by
  rw [W6_of_ne m ρ c main_arg3 (by decide)]
  show StableHlo.after hostOps2 (W4 m ρ c) (Proc.devRef .tc main_arg3) = _
  after_results_simp
  exact k4_arg3 m ρ c

set_option maxHeartbeats 2000000 in
theorem k6_arg4 : W6 m ρ c (Proc.devRef .tc main_arg4) = (m ((c : Thread nD τ).loc main_arg4)) := by
  rw [W6_of_ne m ρ c main_arg4 (by decide)]
  show StableHlo.after hostOps2 (W4 m ρ c) (Proc.devRef .tc main_arg4) = _
  after_results_simp
  exact k4_arg4 m ρ c

set_option maxHeartbeats 2000000 in
theorem k6_arg5 : W6 m ρ c (Proc.devRef .tc main_arg5) = (m ((c : Thread nD τ).loc main_arg5)) := by
  rw [W6_of_ne m ρ c main_arg5 (by decide)]
  show StableHlo.after hostOps2 (W4 m ρ c) (Proc.devRef .tc main_arg5) = _
  after_results_simp
  exact k4_arg5 m ρ c

set_option maxHeartbeats 2000000 in
theorem k6_arg6 : W6 m ρ c (Proc.devRef .tc main_arg6) = (m ((c : Thread nD τ).loc main_arg6)) := by
  rw [W6_of_ne m ρ c main_arg6 (by decide)]
  show StableHlo.after hostOps2 (W4 m ρ c) (Proc.devRef .tc main_arg6) = _
  after_results_simp
  exact k4_arg6 m ρ c

set_option maxHeartbeats 2000000 in
theorem k6_arg7 : W6 m ρ c (Proc.devRef .tc main_arg7) = (m ((c : Thread nD τ).loc main_arg7)) := by
  rw [W6_of_ne m ρ c main_arg7 (by decide)]
  show StableHlo.after hostOps2 (W4 m ρ c) (Proc.devRef .tc main_arg7) = _
  after_results_simp
  exact k4_arg7 m ρ c

set_option maxHeartbeats 2000000 in
theorem k6_arg8 : W6 m ρ c (Proc.devRef .tc main_arg8) = (m ((c : Thread nD τ).loc main_arg8)) := by
  rw [W6_of_ne m ρ c main_arg8 (by decide)]
  show StableHlo.after hostOps2 (W4 m ρ c) (Proc.devRef .tc main_arg8) = _
  after_results_simp
  exact k4_arg8 m ρ c

set_option maxHeartbeats 2000000 in
theorem k6_arg9 : W6 m ρ c (Proc.devRef .tc main_arg9) = (m ((c : Thread nD τ).loc main_arg9)) := by
  rw [W6_of_ne m ρ c main_arg9 (by decide)]
  show StableHlo.after hostOps2 (W4 m ρ c) (Proc.devRef .tc main_arg9) = _
  after_results_simp
  exact k4_arg9 m ρ c

set_option maxHeartbeats 2000000 in
theorem k6_arg10 : W6 m ρ c (Proc.devRef .tc main_arg10) = (m ((c : Thread nD τ).loc main_arg10)) := by
  rw [W6_of_ne m ρ c main_arg10 (by decide)]
  show StableHlo.after hostOps2 (W4 m ρ c) (Proc.devRef .tc main_arg10) = _
  after_results_simp
  exact k4_arg10 m ρ c

set_option maxHeartbeats 2000000 in
theorem k6_arg11 : W6 m ρ c (Proc.devRef .tc main_arg11) = (m ((c : Thread nD τ).loc main_arg11)) := by
  rw [W6_of_ne m ρ c main_arg11 (by decide)]
  show StableHlo.after hostOps2 (W4 m ρ c) (Proc.devRef .tc main_arg11) = _
  after_results_simp
  exact k4_arg11 m ρ c

set_option maxHeartbeats 2000000 in
theorem k6_arg12 : W6 m ρ c (Proc.devRef .tc main_arg12) = (m ((c : Thread nD τ).loc main_arg12)) := by
  rw [W6_of_ne m ρ c main_arg12 (by decide)]
  show StableHlo.after hostOps2 (W4 m ρ c) (Proc.devRef .tc main_arg12) = _
  after_results_simp
  exact k4_arg12 m ρ c

set_option maxHeartbeats 2000000 in
theorem k6_arg13 : W6 m ρ c (Proc.devRef .tc main_arg13) = (m ((c : Thread nD τ).loc main_arg13)) := by
  rw [W6_of_ne m ρ c main_arg13 (by decide)]
  show StableHlo.after hostOps2 (W4 m ρ c) (Proc.devRef .tc main_arg13) = _
  after_results_simp
  exact k4_arg13 m ρ c

/-! ## The features after each layer -/

/-- Region 0 leaves its result array at the layer of the arrays it was entered with. -/
theorem W2_out : W2 m ρ c (Proc.devRef .tc main_v24)
    = layer (n := 100000) (V1 m ρ c main_arg0) (V1 m ρ c main_v13) (V1 m ρ c main_v15) (V1 m ρ c main_v22) (V1 m ρ c main_v19) (V1 m ρ c main_v23) :=
  (W2_arr m ρ c 6).trans (Cert.KernelIdeal.Region0.final (V1 m ρ) c)

/-- Region 1 likewise. -/
theorem W4_out : W4 m ρ c (Proc.devRef .tc main_v45)
    = layer (n := 100000) (V3 m ρ c main_v24) (V3 m ρ c main_v34) (V3 m ρ c main_v36) (V3 m ρ c main_v43) (V3 m ρ c main_v40) (V3 m ρ c main_v44) :=
  (W4_arr m ρ c 6).trans (Cert.KernelIdeal.Region1.final (V3 m ρ) c)

/-- Region 2 likewise. -/
theorem W6_out : W6 m ρ c (Proc.devRef .tc main_v66)
    = layer (n := 100000) (V5 m ρ c main_v45) (V5 m ρ c main_v55) (V5 m ρ c main_v57) (V5 m ρ c main_v64) (V5 m ρ c main_v61) (V5 m ρ c main_v65) :=
  (W6_arr m ρ c 6).trans (Cert.KernelIdeal.Region2.final (V5 m ρ) c)

set_option maxHeartbeats 4000000 in
/-- After the first region its result array holds H1. -/
theorem stage1 : W2 m ρ c (Proc.devRef .tc main_v24) = H1 m c := by
  rw [W2_out]
  dsimp only [V1, W1]
  after_results_simp
  rfl

set_option maxHeartbeats 4000000 in
/-- After the second region its result array holds H2. -/
theorem stage2 : W4 m ρ c (Proc.devRef .tc main_v45) = H2 m c := by
  rw [W4_out]
  dsimp only [V3, W3]
  after_results_simp
  rw [stage1 m ρ c, k2_v1 m ρ c, k2_v3 m ρ c, k2_arg4 m ρ c, k2_arg5 m ρ c, k2_arg6 m ρ c, k2_arg7 m ρ c]
  rfl

set_option maxHeartbeats 4000000 in
/-- After the third region its result array holds H3. -/
theorem stage3 : W6 m ρ c (Proc.devRef .tc main_v66) = H3 m c := by
  rw [W6_out]
  dsimp only [V5, W5]
  after_results_simp
  rw [stage2 m ρ c, k4_v1 m ρ c, k4_v3 m ρ c, k4_arg4 m ρ c, k4_arg5 m ρ c, k4_arg6 m ρ c, k4_arg7 m ρ c]
  rfl

/-! ## The results -/

set_option maxHeartbeats 4000000 in
theorem result0 : W9 m ρ c (Proc.devRef .tc main_v81) = Out0 m c := by
  show StableHlo.after hostOps3_2 (StableHlo.after hostOps3_1 (StableHlo.after hostOps3 (W6 m ρ c))) (Proc.devRef .tc main_v81) = _
  after_results_simp
  rw [stage3 m ρ c, k6_arg2 m ρ c, k6_arg3 m ρ c, k6_arg8 m ρ c, k6_arg9 m ρ c, k6_arg10 m ρ c, k6_arg11 m ρ c]
  rfl

set_option maxHeartbeats 4000000 in
theorem result1 : W9 m ρ c (Proc.devRef .tc main_v85) = Out1 m c := by
  show StableHlo.after hostOps3_2 (StableHlo.after hostOps3_1 (StableHlo.after hostOps3 (W6 m ρ c))) (Proc.devRef .tc main_v85) = _
  after_results_simp
  rw [stage3 m ρ c, k6_arg2 m ρ c, k6_arg3 m ρ c, k6_arg8 m ρ c, k6_arg9 m ρ c, k6_arg12 m ρ c, k6_arg13 m ρ c]
  rfl

/-- The layer program's run: every weakly fair execution terminates without a fault, the two results at the heads of
    the pooled third-layer features and the arguments as launched. -/
theorem kernel_run : θ_run defs (onTc (τ := τ) (main (F := Ideal))) ⟨m, fun _ => 0, ρ⟩ (fun r => ∀ c : Dev nD,
      r.2.mem ((c.tc : Thread nD τ).loc main_v81) = Out0 m c
      ∧ r.2.mem ((c.tc : Thread nD τ).loc main_v85) = Out1 m c
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)
      ∧ r.2.mem ((c.tc : Thread nD τ).loc main_arg6) = m ((c.tc : Thread nD τ).loc main_arg6)
      ∧ r.2.mem ((c.tc : Thread nD τ).loc main_arg7) = m ((c.tc : Thread nD τ).loc main_arg7)
      ∧ r.2.mem ((c.tc : Thread nD τ).loc main_arg8) = m ((c.tc : Thread nD τ).loc main_arg8)
      ∧ r.2.mem ((c.tc : Thread nD τ).loc main_arg9) = m ((c.tc : Thread nD τ).loc main_arg9)
      ∧ r.2.mem ((c.tc : Thread nD τ).loc main_arg10) = m ((c.tc : Thread nD τ).loc main_arg10)
      ∧ r.2.mem ((c.tc : Thread nD τ).loc main_arg11) = m ((c.tc : Thread nD τ).loc main_arg11)
      ∧ r.2.mem ((c.tc : Thread nD τ).loc main_arg12) = m ((c.tc : Thread nD τ).loc main_arg12)
      ∧ r.2.mem ((c.tc : Thread nD τ).loc main_arg13) = m ((c.tc : Thread nD τ).loc main_arg13)) :=
  (θ_run defs _ _).mono (fun r h c => ⟨(h c).1.trans (result0 m ρ c), (h c).2.1.trans (result1 m ρ c), (h c).2.2⟩)
    (run_results m ρ)

end Cert.KernelIdeal.Net

end
-- ==== Proof.RefValue.lean ====
/-
  The reference's two results are the same nested terms.

  The reference computes each layer on the host: the sum h + agg, its product with the first weight matrix, the bias
  laid under every row, the maximum with zero, the product with the second weight matrix, the second bias.  Read at an
  entry that is the layer's formula: the host's product is the textbook sum, and a length-64 bias given a unit axis and
  laid under every row reads, at (p, q), its entry q — the same entry that its cast to a [1, 64] row holds at (0, q).
  With the three layers folded, the reference's composed term is the nested term H1 … Out0 / Out1 of the layer
  program, the host operations around the layers being the same on both sides.
-/
import proofs.«124465_j37830071943189_1_alg».proof.Proof.Gen.ReferenceIdeal.Run
import proofs.«124465_j37830071943189_1_alg».proof.Proof.Terms
import Idealize.ShloMosaic.Lib.ValueLayout
import Idealize.ShloMosaic.Lib.Pipeline.Value

set_option maxRecDepth 16384

noncomputable section

namespace Cert.ReferenceIdeal.RefValue

open Cert.ReferenceIdeal Cert.ReferenceIdeal.Facts₀ Cert.ReferenceIdeal.Facts
open Idealize.ShloMosaic Idealize.ShloMosaic.TcCoe Idealize.SL.Sem Idealize.ShloMosaic.ValueIdx Cert.GinLayer
open scoped BigOperators

/-- The host's product of the node features with a [64, 64] matrix, at an entry. -/
theorem dot_entry {φ₁ φ₂ : FTy} (x : FVec Ideal S100000x64 φ₁) (w : FVec Ideal S64x64 φ₂) (p : Fin 100000) (q : Fin 64) :
    Host.dotGeneral dot_S100000x64_S64x64_S100000x64_1_0_0_1_n_n none x w (ix2 p q) = ∑ j : Fin 64, x (ix2 p j) * w (ix2 j q) :=
  Cert.LibDot.dotGeneral_apply dot_S100000x64_S64x64_S100000x64_1_0_0_1_n_n rfl rfl (fun _ _ => rfl) (fun _ _ => rfl)
    (fun _ _ => rfl) (fun _ _ => rfl) none .single x w p q

/-- A length-64 vector given a leading unit axis and laid under every row of an [n, 64] matrix reads its entry q at (p, q). -/
theorem bias_entry {n : ℕ} (b : (⟨1, ![64]⟩ : Shape).Idx → EReal)
    (h1 : (⟨1, ![64]⟩ : Shape).BroadcastsInDim ⟨2, ![1, 64]⟩ (![1] : Fin 1 → Fin 2))
    (h2 : (⟨2, ![1, 64]⟩ : Shape).BroadcastsInDim ⟨2, ![n, 64]⟩ (![0, 1] : Fin 2 → Fin 2)) (p : Fin n) (q : Fin 64) :
    broadcastInDim ⟨2, ![n, 64]⟩ ![0, 1] h2 (broadcastInDim ⟨2, ![1, 64]⟩ ![1] h1 b) (ix2 p q) = b (ix1 q) := by
  refine (broadcastInDim_apply ![0, 1] h2 _ (ix2 p q) (ix2 (0 : Fin 1) q) (fun a => ?_)).trans
    (broadcastInDim_apply ![1] h1 b (ix2 (0 : Fin 1) q) (ix1 q) (fun a => ?_))
  · match a with
    | ⟨0, _⟩ => rfl
    | ⟨1, _⟩ => rfl
  · match a with
    | ⟨0, _⟩ => rfl

/-- One layer as the reference's host operations spell it is the layer of the same arrays, the biases as [1, 64] rows. -/
theorem ref_layer (h agg : FVec Ideal S100000x64 .f32) (w1 w2 : FVec Ideal S64x64 .f32) (b1 b2 : FVec Ideal S64 .f32)
    (hc : (⟨1, ![64]⟩ : Shape).ShapeCasts ⟨2, ![1, 64]⟩) :
    addf (Host.dotGeneral dot_S100000x64_S64x64_S100000x64_1_0_0_1_n_n none
        (maximumf (addf (Host.dotGeneral dot_S100000x64_S64x64_S100000x64_1_0_0_1_n_n none (addf h agg) w1)
            (broadcastInDim S100000x64 ![0, 1] bcast_S1x64_S100000x64_0_1 (broadcastInDim S1x64 ![1] bcast_S64_S1x64_1 b1)))
          (broadcastInDim S100000x64 ![] bcast_S_S100000x64 (constant S_ .f32 0x00000000#32))) w2)
      (broadcastInDim S100000x64 ![0, 1] bcast_S1x64_S100000x64_0_1 (broadcastInDim S1x64 ![1] bcast_S64_S1x64_1 b2))
    = layer (n := 100000) h agg w1 (shapeCast ⟨2, ![1, 64]⟩ b1 hc) w2 (shapeCast ⟨2, ![1, 64]⟩ b2 hc) := by
  funext i
  obtain ⟨p, q, rfl⟩ : ∃ (p : Fin 100000) (q : Fin 64), i = ix2 p q := ⟨i 0, i 1, eq_ix2 i⟩
  rw [layer_apply]
  refine congrArg₂ (· + ·) ((dot_entry _ _ p q).trans (Finset.sum_congr rfl fun k _ => ?_))
    ((bias_entry b2 _ _ p q).trans (shapeCast_a_1a_apply b2 hc 0 q).symm)
  refine congrArg (· * w2 (ix2 k q)) ?_
  refine congrArg₂ max (congrArg₂ (· + ·) (dot_entry _ _ p k)
    ((bias_entry b1 _ _ p k).trans (shapeCast_a_1a_apply b1 hc 0 k).symm)) ?_
  exact broadcastInDim_apply _ _ _ _ ix0 (fun a => a.elim0)

variable (m' : (ℓ : Loc nD τ sig) → Buf (Elt Ideal) ℓ)
  (m : (ℓ : Loc Cert.KernelIdeal.nD Cert.KernelIdeal.τ Cert.KernelIdeal.sig) → Buf (Elt Ideal) ℓ)
  (c : Dev Cert.KernelIdeal.nD)

/-- The two memories hold the same arguments. -/
def Agree : Prop :=
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)
      ∧ m' ((c.tc : Thread Cert.ReferenceIdeal.nD Cert.ReferenceIdeal.τ).loc Cert.ReferenceIdeal.main_arg4) = m ((c.tc : Thread Cert.KernelIdeal.nD Cert.KernelIdeal.τ).loc Cert.KernelIdeal.main_arg4)
      ∧ m' ((c.tc : Thread Cert.ReferenceIdeal.nD Cert.ReferenceIdeal.τ).loc Cert.ReferenceIdeal.main_arg5) = m ((c.tc : Thread Cert.KernelIdeal.nD Cert.KernelIdeal.τ).loc Cert.KernelIdeal.main_arg5)
      ∧ m' ((c.tc : Thread Cert.ReferenceIdeal.nD Cert.ReferenceIdeal.τ).loc Cert.ReferenceIdeal.main_arg6) = m ((c.tc : Thread Cert.KernelIdeal.nD Cert.KernelIdeal.τ).loc Cert.KernelIdeal.main_arg6)
      ∧ m' ((c.tc : Thread Cert.ReferenceIdeal.nD Cert.ReferenceIdeal.τ).loc Cert.ReferenceIdeal.main_arg7) = m ((c.tc : Thread Cert.KernelIdeal.nD Cert.KernelIdeal.τ).loc Cert.KernelIdeal.main_arg7)
      ∧ m' ((c.tc : Thread Cert.ReferenceIdeal.nD Cert.ReferenceIdeal.τ).loc Cert.ReferenceIdeal.main_arg8) = m ((c.tc : Thread Cert.KernelIdeal.nD Cert.KernelIdeal.τ).loc Cert.KernelIdeal.main_arg8)
      ∧ m' ((c.tc : Thread Cert.ReferenceIdeal.nD Cert.ReferenceIdeal.τ).loc Cert.ReferenceIdeal.main_arg9) = m ((c.tc : Thread Cert.KernelIdeal.nD Cert.KernelIdeal.τ).loc Cert.KernelIdeal.main_arg9)
      ∧ m' ((c.tc : Thread Cert.ReferenceIdeal.nD Cert.ReferenceIdeal.τ).loc Cert.ReferenceIdeal.main_arg10) = m ((c.tc : Thread Cert.KernelIdeal.nD Cert.KernelIdeal.τ).loc Cert.KernelIdeal.main_arg10)
      ∧ m' ((c.tc : Thread Cert.ReferenceIdeal.nD Cert.ReferenceIdeal.τ).loc Cert.ReferenceIdeal.main_arg11) = m ((c.tc : Thread Cert.KernelIdeal.nD Cert.KernelIdeal.τ).loc Cert.KernelIdeal.main_arg11)
      ∧ m' ((c.tc : Thread Cert.ReferenceIdeal.nD Cert.ReferenceIdeal.τ).loc Cert.ReferenceIdeal.main_arg12) = m ((c.tc : Thread Cert.KernelIdeal.nD Cert.KernelIdeal.τ).loc Cert.KernelIdeal.main_arg12)
      ∧ m' ((c.tc : Thread Cert.ReferenceIdeal.nD Cert.ReferenceIdeal.τ).loc Cert.ReferenceIdeal.main_arg13) = m ((c.tc : Thread Cert.KernelIdeal.nD Cert.KernelIdeal.τ).loc Cert.KernelIdeal.main_arg13)

set_option maxHeartbeats 4000000 in
/-- The reference's first result is the regression head of the pooled third-layer features. -/
theorem result0 (h : Agree m' m c) : Cert.ReferenceIdeal.Value.res_main_v102 m' c = Cert.KernelIdeal.Net.Out0 m c := by
  obtain ⟨h0, h1, h2, h3, h4, h5, h6, h7, h8, h9, h10, h11, h12, h13⟩ := h
  unfold Cert.ReferenceIdeal.Value.res_main_v102
  simp only [ref_layer _ _ _ _ _ _ Cert.KernelIdeal.Facts₀.shapeCasts_S64_S1x64]
  rw [h0, h1, h2, h3, h4, h5, h6, h7, h8, h9, h10, h11]
  rfl

set_option maxHeartbeats 4000000 in
/-- The reference's second result is the variance head of the same features. -/
theorem result1 (h : Agree m' m c) : Cert.ReferenceIdeal.Value.res_main_v106 m' c = Cert.KernelIdeal.Net.Out1 m c := by
  obtain ⟨h0, h1, h2, h3, h4, h5, h6, h7, h8, h9, h10, h11, h12, h13⟩ := h
  unfold Cert.ReferenceIdeal.Value.res_main_v106
  simp only [ref_layer _ _ _ _ _ _ Cert.KernelIdeal.Facts₀.shapeCasts_S64_S1x64]
  rw [h0, h1, h2, h3, h4, h5, h6, h7, h8, h9, h12, h13]
  rfl

end Cert.ReferenceIdeal.RefValue

end
-- ==== Proof.lean ====
/-
  The certificate of the three-layer graph network: a Pallas kernel for the dense part of each layer, launched three
  times among host operations, against a plain reference.

  Each layer is  h' = max ((h + agg) · W1 + b1, 0) · W2 + b2  with agg the sum of the neighbours' features.  The kernel
  computes the layer on blocks of 5000 rows with its matrix products on the matrix unit and its operands rounded to
  bf16 on the way in; the reference computes it with host products on the whole arrays.  On the extended reals a change
  of float format is the identity and both products are the textbook sums, an entry of the layer reads one row of the
  features only, and the 20 row blocks cover the array: so each kernel launch leaves the layer of the arrays it was
  entered with, which is what the reference's host operations compute.  The gathers, scatter-adds, poolings and output
  heads around the layers are the same host operations on both sides.  No sum is rearranged, so the finiteness of the
  inputs is not used.

  The three frames: the kernel's and its idealization's are generated; the reference has no kernel and its frame is
  its generated run with the results dropped.  The idealization rewrote nothing, so there is nothing to preserve.
-/
import proofs.«124465_j37830071943189_1_alg».proof.Defs
import proofs.«124465_j37830071943189_1_alg».proof.Proof.Gen.Kernel
import proofs.«124465_j37830071943189_1_alg».proof.Proof.Gen.Kernel.Frame
import proofs.«124465_j37830071943189_1_alg».proof.Proof.Gen.KernelIdeal
import proofs.«124465_j37830071943189_1_alg».proof.Proof.Gen.KernelIdeal.Frame
import proofs.«124465_j37830071943189_1_alg».proof.Proof.Gen.ReferenceIdeal
import proofs.«124465_j37830071943189_1_alg».proof.Proof.Gen.ReferenceIdeal.Run
import proofs.«124465_j37830071943189_1_alg».proof.Proof.Gen.Pre_finite_inputs
import proofs.«124465_j37830071943189_1_alg».proof.Proof.KValue
import proofs.«124465_j37830071943189_1_alg».proof.Proof.RefValue
import Idealize.ShloMosaic.Adequacy
import Idealize.ShloMosaic.Init

noncomputable section

namespace Cert.Proof

open Idealize.ShloMosaic Idealize.SL.Sem

/-- The reference runs and leaves its arguments unchanged: its generated run with the two results dropped. -/
theorem frame_ref : Cert.frame_ReferenceIdeal (hReferenceIdeal := Cert.ReferenceIdeal.Gen.facts)
    (hPre_finite_inputs := Cert.Pre_finite_inputs.Gen.facts) := fun m ρ _ =>
  (θ_run Cert.ReferenceIdeal.defs _ _).mono (fun _ h c => (h c).2.2) (Cert.ReferenceIdeal.Value.run (F := Ideal) m ρ)

/-- From memories agreeing on the arguments both programs run, and end with the same two results: the heads of the
    pooled features after three layers. -/
theorem algebraic : Cert.algebraic_KernelIdeal_ReferenceIdeal (hKernelIdeal := Cert.KernelIdeal.Gen.facts)
    (hReferenceIdeal := Cert.ReferenceIdeal.Gen.facts) (hPre_finite_inputs := Cert.Pre_finite_inputs.Gen.facts) := by
  intro m ρ m' ρ' _ hagree
  refine ⟨fun c => Cert.KernelIdeal.Net.Out0 m c, fun c => Cert.KernelIdeal.Net.Out1 m c, Cert.KernelIdeal.Net.kernel_run m ρ, ?_⟩
  refine (θ_run Cert.ReferenceIdeal.defs _ _).mono (fun _ h c => ⟨(h c).1.trans ?_, (h c).2.1.trans ?_, (h c).2.2⟩)
    (Cert.ReferenceIdeal.Value.run (F := Ideal) m' ρ')
  · exact Cert.ReferenceIdeal.RefValue.result0 m' m c (hagree c)
  · exact Cert.ReferenceIdeal.RefValue.result1 m' m c (hagree c)

theorem claim : Cert.Claim := ⟨Cert.Kernel.Gen.facts, Cert.KernelIdeal.Gen.facts, Cert.ReferenceIdeal.Gen.facts, Cert.Pre_finite_inputs.Gen.facts,
  fun m ρ _ => Cert.Kernel.Gen.frame m ρ,
  fun m ρ _ => Cert.KernelIdeal.Gen.frame m ρ,
  frame_ref,
  trivial,
  algebraic⟩

end Cert.Proof

end
